-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v64_0)) (v1 : (c : Dev Cert.KernelIdeal.nD) → Buf (Elt Ideal) ((c.tc : Thread Cert.KernelIdeal.nD Cert.KernelIdeal.τ).loc Cert.KernelIdeal.main_v64_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64_0) = v0 c
          ∧ r.2.mem ((c.tc : Thread Cert.KernelIdeal.nD Cert.KernelIdeal.τ).loc Cert.KernelIdeal.main_v64_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x128 : Shape := ⟨2, ![128, 128]⟩
abbrev S128x7 : Shape := ⟨2, ![128, 7]⟩
abbrev S7 : Shape := ⟨1, ![7]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x7 : S_.BroadcastsInDim S128x7 (![] : Fin 0 → Fin S128x7.rank)
  reducesTo_S128x7_S_d0_1 : S128x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S128 .f32) (main_arg6 : FVec F S128x7 .f32) (main_arg7 : FVec F S7 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x7 .f32 := Host.absf main_arg6
  let main_cst_8 : FVec F S_ .f32 := constant S_ .f32 0x7F800000#32
  let main_v25 : FVec F S128x7 .f32 := broadcastInDim S128x7 ![] bcast_S_S128x7 main_cst_8
  let main_v26 : IVec S128x7 1 := cmpf .olt main_v24 main_v25
  let main_c_9 : IVec S_ 1 := constantI S_ 1 1#1
  let main_v27 : IVec S_ 1 := (fun x v => Host.reduce IntOp.andi x v reducesTo_S128x7_S_d0_1 h_S_) main_v26 main_c_9
  let main_v28 : IVec S_ 1 := andi main_v23 main_v27
  let main_v29 : FVec F S7 .f32 := Host.absf main_arg7
  let main_cst_10 : FVec F S_ .f32 := constant S_ .f32 0x7F800000#32
  let main_v30 : FVec F S7 .f32 := broadcastInDim S7 ![] bcast_S_S7 main_cst_10
  let main_v31 : IVec S7 1 := cmpf .olt main_v29 main_v30
  let main_c_11 : IVec S_ 1 := constantI S_ 1 1#1
  let main_v32 : IVec S_ 1 := (fun x v => Host.reduce IntOp.andi x v reducesTo_S7_S_d0 h_S_) main_v31 main_c_11
  let main_v33 : IVec S_ 1 := andi main_v28 main_v32
  main_v33

def fn {F : FTy → Type} [FloatOps F] (main_arg0 : FVec F S100000x512 .f32) (main_arg1 : IVec S2x1600000 32) (main_arg2 : FVec F S512x128 .f32) (main_arg3 : FVec F S128 .f32) (main_arg4 : FVec F S128x128 .f32) (main_arg5 : FVec F S128 .f32) (main_arg6 : FVec F S128x7 .f32) (main_arg7 : FVec F S7 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x128 : Shape := ⟨2, ![128, 128]⟩
abbrev S128x7 : Shape := ⟨2, ![128, 7]⟩
abbrev S7 : Shape := ⟨1, ![7]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S2000x512 : Shape := ⟨2, ![2000, 512]⟩
abbrev S2000x128 : Shape := ⟨2, ![2000, 128]⟩
abbrev S1700000x128 : Shape := ⟨2, ![1700000, 128]⟩
abbrev S1703936x128 : Shape := ⟨2, ![1703936, 128]⟩
abbrev S1703936 : Shape := ⟨1, ![1703936]⟩
abbrev S1703936x1 : Shape := ⟨2, ![1703936, 1]⟩
abbrev S8192x128 : Shape := ⟨2, ![8192, 128]⟩
abbrev S8192x1 : Shape := ⟨2, ![8192, 1]⟩
abbrev S1x128 : Shape := ⟨2, ![1, 128]⟩
abbrev S1x7 : Shape := ⟨2, ![1, 7]⟩
abbrev S100000x7 : Shape := ⟨2, ![100000, 7]⟩
abbrev S2000x7 : Shape := ⟨2, ![2000, 7]⟩
abbrev S2000 : Shape := ⟨1, ![2000]⟩
abbrev S2000x1 : Shape := ⟨2, ![2000, 1]⟩

abbrev nBuf : Space → Nat
  | .hbm => 94
  | .vmem => 40
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x7, .f32⟩
  | .hbm, ⟨7, _⟩ => ⟨S7, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000, .i32⟩
  | .hbm, ⟨13, _⟩ => ⟨S1700000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S1700000, .i32⟩
  | .hbm, ⟨24, _⟩ => ⟨S1700000, .i1⟩
  | .hbm, ⟨25, _⟩ => ⟨S_, .i32⟩
  | .hbm, ⟨26, _⟩ => ⟨S1700000, .i32⟩
  | .hbm, ⟨27, _⟩ => ⟨S1700000, .i32⟩
  | .hbm, ⟨28, _⟩ => ⟨S1700000, .i32⟩
  | .hbm, ⟨29, _⟩ => ⟨S1700000x1, .i32⟩
  | .hbm, ⟨30, _⟩ => ⟨S1700000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S1700000, .f32⟩
  | .hbm, ⟨41, _⟩ => ⟨S100000x128, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000x128, .f32⟩
  | .hbm, ⟨51, _⟩ => ⟨S_, .i32⟩
  | .hbm, ⟨52, _⟩ => ⟨S_, .f32⟩
  | .hbm, ⟨53, _⟩ => ⟨S1703936x128, .f32⟩
  | .hbm, ⟨54, _⟩ => ⟨S_, .i32⟩
  | .hbm, ⟨55, _⟩ => ⟨S_, .f32⟩
  | .hbm, ⟨56, _⟩ => ⟨S1703936, .f32⟩
  | .hbm, ⟨57, _⟩ => ⟨S1703936x1, .f32⟩
  | .hbm, ⟨58, _⟩ => ⟨S1703936x128, .f32⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S_, .i32⟩
  | .hbm, ⟨68, _⟩ => ⟨S1700000, .i32⟩
  | .hbm, ⟨69, _⟩ => ⟨S1700000, .i1⟩
  | .hbm, ⟨70, _⟩ => ⟨S_, .i32⟩
  | .hbm, ⟨71, _⟩ => ⟨S1700000, .i32⟩
  | .hbm, ⟨72, _⟩ => ⟨S1700000, .i32⟩
  | .hbm, ⟨73, _⟩ => ⟨S1700000, .i32⟩
  | .hbm, ⟨74, _⟩ => ⟨S1700000x1, .i32⟩
  | .hbm, ⟨75, _⟩ => ⟨S1700000x128, .f32⟩
  | .hbm, ⟨76, _⟩ => ⟨S_, .i32⟩
  | .hbm, ⟨77, _⟩ => ⟨S_, .f32⟩
  | .hbm, ⟨78, _⟩ => ⟨S1703936x128, .f32⟩
  | .hbm, ⟨79, _⟩ => ⟨S_, .i32⟩
  | .hbm, ⟨80, _⟩ => ⟨S_, .f32⟩
  | .hbm, ⟨81, _⟩ => ⟨S1703936, .f32⟩
  | .hbm, ⟨82, _⟩ => ⟨S1703936x1, .f32⟩
  | .hbm, ⟨83, _⟩ => ⟨S1703936x128, .f32⟩
  | .hbm, ⟨84, _⟩ => ⟨S1700000x128, .f32⟩
  | .hbm, ⟨85, _⟩ => ⟨S_, .f32⟩
  | .hbm, ⟨86, _⟩ => ⟨S100000x128, .f32⟩
  | .hbm, ⟨87, _⟩ => ⟨S1700000x1, .i32⟩
  | .hbm, ⟨88, _⟩ => ⟨S100000x128, .f32⟩
  | .hbm, ⟨89, _⟩ => ⟨S1x128, .f32⟩
  | .hbm, ⟨90, _⟩ => ⟨S100000x128, .f32⟩
  | .hbm, ⟨91, _⟩ => ⟨S1x7, .f32⟩
  | .hbm, ⟨92, _⟩ => ⟨S100000x7, .f32⟩
  | .hbm, ⟨93, _⟩ => ⟨S100000x7, .f32⟩
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S2000x128, .f32⟩
  | .local _ .vmem, ⟨4, _⟩ => ⟨S2000x128, .f32⟩
  | .local _ .vmem, ⟨5, _⟩ => ⟨S8192x128, .f32⟩
  | .local _ .vmem, ⟨6, _⟩ => ⟨S8192x128, .f32⟩
  | .local _ .vmem, ⟨7, _⟩ => ⟨S8192x1, .f32⟩
  | .local _ .vmem, ⟨8, _⟩ => ⟨S8192x1, .f32⟩
  | .local _ .vmem, ⟨9, _⟩ => ⟨S8192x128, .f32⟩
  | .local _ .vmem, ⟨10, _⟩ => ⟨S8192x128, .f32⟩
  | .local _ .vmem, ⟨11, _⟩ => ⟨S2000x128, .f32⟩
  | .local _ .vmem, ⟨12, _⟩ => ⟨S2000x128, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S128x128, .f32⟩
  | .local _ .vmem, ⟨19, _⟩ => ⟨S2000x128, .f32⟩
  | .local _ .vmem, ⟨20, _⟩ => ⟨S2000x128, .f32⟩
  | .local _ .vmem, ⟨21, _⟩ => ⟨S8192x128, .f32⟩
  | .local _ .vmem, ⟨22, _⟩ => ⟨S8192x128, .f32⟩
  | .local _ .vmem, ⟨23, _⟩ => ⟨S8192x1, .f32⟩
  | .local _ .vmem, ⟨24, _⟩ => ⟨S8192x1, .f32⟩
  | .local _ .vmem, ⟨25, _⟩ => ⟨S8192x128, .f32⟩
  | .local _ .vmem, ⟨26, _⟩ => ⟨S8192x128, .f32⟩
  | .local _ .vmem, ⟨27, _⟩ => ⟨S2000x128, .f32⟩
  | .local _ .vmem, ⟨28, _⟩ => ⟨S2000x128, .f32⟩
  | .local _ .vmem, ⟨29, _⟩ => ⟨S1x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S128x7, .f32⟩
  | .local _ .vmem, ⟨35, _⟩ => ⟨S1x7, .f32⟩
  | .local _ .vmem, ⟨36, _⟩ => ⟨S2000x7, .f32⟩
  | .local _ .vmem, ⟨37, _⟩ => ⟨S2000x7, .f32⟩
  | .local _ .vmem, ⟨38, _⟩ => ⟨S2000x7, .f32⟩
  | .local _ .vmem, ⟨39, _⟩ => ⟨S2000x7, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_6 : Ref sig .tc := ⟨.hbm, 51, rfl⟩
abbrev main_call0_v0 : Ref sig .tc := ⟨.hbm, 52, rfl⟩
abbrev main_v35 : Ref sig .tc := ⟨.hbm, 53, rfl⟩
abbrev main_c_7 : Ref sig .tc := ⟨.hbm, 54, rfl⟩
abbrev main_call1_v0 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_call2_v0 : Ref sig .tc := ⟨.hbm, 77, rfl⟩
abbrev main_v53 : Ref sig .tc := ⟨.hbm, 78, rfl⟩
abbrev main_c_12 : Ref sig .tc := ⟨.hbm, 79, rfl⟩
abbrev main_call3_v0 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_13 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64_0 : Ref sig .tc := ⟨.hbm, 92, rfl⟩
abbrev main_v64_1 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc6_stg0_0 : Ref sig .tc := ⟨.vmem, 32, rfl⟩
abbrev cc6_stg0_1 : Ref sig .tc := ⟨.vmem, 33, rfl⟩
abbrev cc6_stg1_0 : Ref sig .tc := ⟨.vmem, 34, rfl⟩
abbrev cc6_stg2_0 : Ref sig .tc := ⟨.vmem, 35, rfl⟩
abbrev cc6_stg3_0 : Ref sig .tc := ⟨.vmem, 36, rfl⟩
abbrev cc6_stg3_1 : Ref sig .tc := ⟨.vmem, 37, rfl⟩
abbrev cc6_stg4_0 : Ref sig .tc := ⟨.vmem, 38, rfl⟩
abbrev cc6_stg4_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31
abbrev cc6_sem0_0 : DmaSem sig := 32
abbrev cc6_sem0_1 : DmaSem sig := 33
abbrev cc6_sem1_0 : DmaSem sig := 34
abbrev cc6_sem2_0 : DmaSem sig := 35
abbrev cc6_sem3_0 : DmaSem sig := 36
abbrev cc6_sem3_1 : DmaSem sig := 37
abbrev cc6_sem4_0 : DmaSem sig := 38
abbrev cc6_sem4_1 : DmaSem sig := 39

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![208], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![208], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8192x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8192x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8192x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x7 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x7 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2000x7 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S2000x7 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S2000x128_S2000x128_0_0 : ∀ a, (![0, 0] : Fin 2 → Nat) a + S2000x128.size a ≤ S2000x128.size a
  h_S2000x128 : 0 < S2000x128.numel
  pads_S1700000x128_S1703936x128_039360_000 : S1700000x128.Pads (![0, 0] : Fin 2 → Nat) ![3936, 0] ![0, 0] S1703936x128
  h_S_ : 0 < S_.numel
  pads_S1700000_S1703936_039360 : S1700000.Pads (![0] : Fin 1 → Nat) ![3936] ![0] S1703936
  shapeCasts_S1703936_S1703936x1 : S1703936.ShapeCasts S1703936x1
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  broadcasts_S8192x1_S8192x128 : S8192x1.Broadcasts S8192x128
  slices_S1703936x128_S1700000x128_0_0 : S1703936x128.Slices ![0, 0] S1700000x128
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  shapeCasts_S7_S1x7 : S7.ShapeCasts S1x7
  inb_S128x7_S128x7_0_0 : ∀ a, (![0, 0] : Fin 2 → Nat) a + S128x7.size a ≤ S128x7.size a
  h_S128x7 : 0 < S128x7.numel
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S2000x7 : S1x7.Broadcasts S2000x7
  inb_S2000x7_S2000x7_0_0 : ∀ a, (![0, 0] : Fin 2 → Nat) a + S2000x7.size a ≤ S2000x7.size a
  h_S2000x7 : 0 < S2000x7.numel
  reduces_S2000x7_S2000 : S2000x7.Reduces [1] S2000
  shapeCasts_S2000_S2000x1 : S2000.ShapeCasts S2000x1
  broadcasts_S2000x1_S2000x7 : S2000x1.Broadcasts S2000x7
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x512_S512x128_S2000x128_1_0_0_1_n_n_wf : DotDims.WF S2000x512 S512x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x128_S2000x128_1_0_0_1_n_n_wf : DotDims.WF S2000x128 S128x128 S2000x128 [1] [0] [0] [1] [] []
  dot_S2000x128_S128x7_S2000x7_1_0_0_1_n_n_wf : DotDims.WF S2000x128 S128x7 S2000x7 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x128.size a ≤ S1703936x128.size a
  hwx1_0 : ∀ i : grid1.Coords, EltTy.bits .f32 = 32 ∨ (Rect.block (s := S1703936x128) S8192x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x1.size a ≤ S1703936x1.size a
  hwx1_1 : ∀ i : grid1.Coords, EltTy.bits .f32 = 32 ∨ (Rect.block (s := S1703936x1) S8192x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x128.size a ≤ S1703936x128.size a
  hwx1_2 : ∀ i : grid1.Coords, EltTy.bits .f32 = 32 ∨ (Rect.block (s := S1703936x128) S8192x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S100000x128.size a
  hwx3_2 : ∀ i : grid3.Coords, EltTy.bits .f32 = 32 ∨ (Rect.block (s := S100000x128) S2000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8192x128.size a ≤ S1703936x128.size a
  hwx4_0 : ∀ i : grid4.Coords, EltTy.bits .f32 = 32 ∨ (Rect.block (s := S1703936x128) S8192x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8192x1.size a ≤ S1703936x1.size a
  hwx4_1 : ∀ i : grid4.Coords, EltTy.bits .f32 = 32 ∨ (Rect.block (s := S1703936x1) S8192x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8192x128.size a ≤ S1703936x128.size a
  hwx4_2 : ∀ i : grid4.Coords, EltTy.bits .f32 = 32 ∨ (Rect.block (s := S1703936x128) S8192x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x128.size a ≤ S100000x128.size a
  hwx5_2 : ∀ i : grid5.Coords, EltTy.bits .f32 = 32 ∨ (Rect.block (s := S100000x128) S2000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S100000x128.size a
  hwx6_0 : ∀ i : grid6.Coords, EltTy.bits .f32 = 32 ∨ (Rect.block (s := S100000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x7.size a ≤ S128x7.size a
  hwx6_1 : ∀ i : grid6.Coords, EltTy.bits .f32 = 32 ∨ (Rect.block (s := S128x7) S128x7.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x7.size a ≤ S1x7.size a
  hwx6_2 : ∀ i : grid6.Coords, EltTy.bits .f32 = 32 ∨ (Rect.block (s := S1x7) S1x7.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x7.size a ≤ S100000x7.size a
  hwx6_3 : ∀ i : grid6.Coords, EltTy.bits .f32 = 32 ∨ (Rect.block (s := S100000x7) S2000x7.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S2000x7.size a ≤ S100000x7.size a
  hwx6_4 : ∀ i : grid6.Coords, EltTy.bits .f32 = 32 ∨ (Rect.block (s := S100000x7) S2000x7.size (cc6_transform_4 i) (hinb6_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x7_S2000x7_1_0_0_1_n_n : DotDims S2000x128 S128x7 S2000x7 where
  lhsContracting := [1]
  rhsContracting := [0]
  lhsNonContracting := [0]
  rhsNonContracting := [1]
  lhsBatch := []
  rhsBatch := []
  wf := dot_S2000x128_S128x7_S2000x7_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v35) S8192x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S8192x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S8192x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v44) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v45) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v53) S8192x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v55) S8192x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v56) S8192x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v60) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v61) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v62) S2000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v62) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg6) S128x7.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v63) S1x7.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v64_0) S2000x7.size cc6_transform_3 reads6_3 true false 2 stage6_3 sem6_3
    hrank6 hreads6_3 hinb6_3 nbuf6_3 (Memref.isWhole_whole _) hwx6_3 hstage6_3

abbrev win6_4 : Pipeline.Window sig grid6 :=
  Pipeline.Window.ofSpec (Memref.whole main_v64_1) S2000x7.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x128 : Shape := ⟨2, ![128, 128]⟩
abbrev S128x7 : Shape := ⟨2, ![128, 7]⟩
abbrev S7 : Shape := ⟨1, ![7]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x7 : Shape := ⟨2, ![100000, 7]⟩
abbrev S1x7 : Shape := ⟨2, ![1, 7]⟩
abbrev S100000x1 : Shape := ⟨2, ![100000, 1]⟩

abbrev nBuf : Space → Nat
  | .hbm => 131
  | .vmem => 0
  | .smem => 0
  | _ => 0

abbrev hbmTy0_0 (i : Nat) : BufTy := match i % 128 with
  | 0 => ⟨S100000x512, .f32⟩
  | 1 => ⟨S2x1600000, .i32⟩
  | 2 => ⟨S512x128, .f32⟩
  | 3 => ⟨S128, .f32⟩
  | 4 => ⟨S128x128, .f32⟩
  | 5 => ⟨S128, .f32⟩
  | 6 => ⟨S128x7, .f32⟩
  | 7 => ⟨S7, .f32⟩
  | 8 => ⟨S1x1600000, .i32⟩
  | 9 => ⟨S1600000, .i32⟩
  | 10 => ⟨S1x1600000, .i32⟩
  | 11 => ⟨S1600000, .i32⟩
  | 12 => ⟨S100000, .i32⟩
  | 13 => ⟨S1700000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S100000, .f32⟩
  | 22 => ⟨S_, .i32⟩
  | 23 => ⟨S1700000, .i32⟩
  | 24 => ⟨S1700000, .i1⟩
  | 25 => ⟨S_, .i32⟩
  | 26 => ⟨S1700000, .i32⟩
  | 27 => ⟨S1700000, .i32⟩
  | 28 => ⟨S1700000, .i32⟩
  | 29 => ⟨S1700000x1, .i32⟩
  | 30 => ⟨S1700000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S1700000, .f32⟩
  | 41 => ⟨S100000x128, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000x128, .f32⟩
  | 51 => ⟨S1700000x1, .f32⟩
  | 52 => ⟨S1700000x128, .f32⟩
  | 53 => ⟨S1700000x128, .f32⟩
  | 54 => ⟨S_, .f32⟩
  | 55 => ⟨S100000x128, .f32⟩
  | 56 => ⟨S1700000x1, .i32⟩
  | 57 => ⟨S100000x128, .f32⟩
  | 58 => ⟨S1x128, .f32⟩
  | 59 => ⟨S100000x128, .f32⟩
  | 60 => ⟨S100000x128, .f32⟩
  | 61 => ⟨S100000x128, .f32⟩
  | 62 => ⟨S100000, .i32⟩
  | 63 => ⟨S1700000, .i32⟩
  | 64 => ⟨S1700000, .i32⟩
  | 65 => ⟨S_, .f32⟩
  | 66 => ⟨S1700000, .f32⟩
  | 67 => ⟨S_, .f32⟩
  | 68 => ⟨S100000, .f32⟩
  | 69 => ⟨S1700000x1, .i32⟩
  | 70 => ⟨S100000, .f32⟩
  | 71 => ⟨S100000, .f32⟩
  | 72 => ⟨S_, .i32⟩
  | 73 => ⟨S1700000, .i32⟩
  | 74 => ⟨S1700000, .i1⟩
  | 75 => ⟨S_, .i32⟩
  | 76 => ⟨S1700000, .i32⟩
  | 77 => ⟨S1700000, .i32⟩
  | 78 => ⟨S1700000, .i32⟩
  | 79 => ⟨S1700000x1, .i32⟩
  | 80 => ⟨S1700000, .f32⟩
  | 81 => ⟨S_, .i32⟩
  | 82 => ⟨S1700000, .i32⟩
  | 83 => ⟨S1700000, .i1⟩
  | 84 => ⟨S_, .i32⟩
  | 85 => ⟨S1700000, .i32⟩
  | 86 => ⟨S1700000, .i32⟩
  | 87 => ⟨S1700000, .i32⟩
  | 88 => ⟨S1700000x1, .i32⟩
  | 89 => ⟨S1700000, .f32⟩
  | 90 => ⟨S1700000, .f32⟩
  | 91 => ⟨S100000x128, .f32⟩
  | 92 => ⟨S_, .i32⟩
  | 93 => ⟨S1700000, .i32⟩
  | 94 => ⟨S1700000, .i1⟩
  | 95 => ⟨S_, .i32⟩
  | 96 => ⟨S1700000, .i32⟩
  | 97 => ⟨S1700000, .i32⟩
  | 98 => ⟨S1700000, .i32⟩
  | 99 => ⟨S1700000x1, .i32⟩
  | 100 => ⟨S1700000x128, .f32⟩
  | 101 => ⟨S1700000x1, .f32⟩
  | 102 => ⟨S1700000x128, .f32⟩
  | 103 => ⟨S1700000x128, .f32⟩
  | 104 => ⟨S_, .f32⟩
  | 105 => ⟨S100000x128, .f32⟩
  | 106 => ⟨S1700000x1, .i32⟩
  | 107 => ⟨S100000x128, .f32⟩
  | 108 => ⟨S1x128, .f32⟩
  | 109 => ⟨S100000x128, .f32⟩
  | 110 => ⟨S100000x128, .f32⟩
  | 111 => ⟨S100000x128, .f32⟩
  | 112 => ⟨S100000x7, .f32⟩
  | 113 => ⟨S1x7, .f32⟩
  | 114 => ⟨S100000x7, .f32⟩
  | 115 => ⟨S100000x7, .f32⟩
  | 116 => ⟨S_, .f32⟩
  | 117 => ⟨S100000, .f32⟩
  | 118 => ⟨S_, .f32⟩
  | 119 => ⟨S100000, .f32⟩
  | 120 => ⟨S100000, .f32⟩
  | 121 => ⟨S100000x1, .f32⟩
  | 122 => ⟨S100000x7, .f32⟩
  | 123 => ⟨S100000x7, .f32⟩
  | 124 => ⟨S100000x7, .f32⟩
  | 125 => ⟨S_, .f32⟩
  | 126 => ⟨S100000, .f32⟩
  | 127 => ⟨S100000x1, .f32⟩
  | _ => ⟨S100000x512, .f32⟩

abbrev hbmTy0_1 (i : Nat) : BufTy := match i % 128 with
  | 0 => ⟨S100000x1, .f32⟩
  | 1 => ⟨S100000x7, .f32⟩
  | 2 => ⟨S100000x7, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_7 : Ref sig .tc := ⟨.hbm, 65, rfl⟩
abbrev main_v48 : Ref sig .tc := ⟨.hbm, 66, rfl⟩
abbrev main_cst_8 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_c_9 : Ref sig .tc := ⟨.hbm, 72, rfl⟩
abbrev main_v53 : Ref sig .tc := ⟨.hbm, 73, rfl⟩
abbrev main_v54 : Ref sig .tc := ⟨.hbm, 74, rfl⟩
abbrev main_c_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_c_11 : Ref sig .tc := ⟨.hbm, 81, rfl⟩
abbrev main_v60 : Ref sig .tc := ⟨.hbm, 82, rfl⟩
abbrev main_v61 : Ref sig .tc := ⟨.hbm, 83, rfl⟩
abbrev main_c_12 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_c_13 : Ref sig .tc := ⟨.hbm, 92, rfl⟩
abbrev main_v69 : Ref sig .tc := ⟨.hbm, 93, rfl⟩
abbrev main_v70 : Ref sig .tc := ⟨.hbm, 94, rfl⟩
abbrev main_c_14 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_15 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_call0_cst : Ref sig .tc := ⟨.hbm, 116, rfl⟩
abbrev main_call0_v0 : Ref sig .tc := ⟨.hbm, 117, rfl⟩
abbrev main_call0_cst_0 : Ref sig .tc := ⟨.hbm, 118, rfl⟩
abbrev main_call0_v1 : Ref sig .tc := ⟨.hbm, 119, rfl⟩
abbrev main_call0_v2 : Ref sig .tc := ⟨.hbm, 120, rfl⟩
abbrev main_call0_v3 : Ref sig .tc := ⟨.hbm, 121, rfl⟩
abbrev main_call0_v4 : Ref sig .tc := ⟨.hbm, 122, rfl⟩
abbrev main_call0_v5 : Ref sig .tc := ⟨.hbm, 123, rfl⟩
abbrev main_call0_v6 : Ref sig .tc := ⟨.hbm, 124, rfl⟩
abbrev main_call0_cst_1 : Ref sig .tc := ⟨.hbm, 125, rfl⟩
abbrev main_call0_v7 : Ref sig .tc := ⟨.hbm, 126, rfl⟩
abbrev main_call0_v8 : Ref sig .tc := ⟨.hbm, 127, rfl⟩
abbrev main_call0_v9 : Ref sig .tc := ⟨.hbm, 128, rfl⟩
abbrev main_call0_v10 : Ref sig .tc := ⟨.hbm, 129, rfl⟩
abbrev main_v90 : Ref sig .tc := ⟨.hbm, 130, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  reducesTo_S100000x7_S100000_d1 : S100000x7.ReducesTo [1] S100000
  h_S_ : 0 < S_.numel
  bcast_S100000_S100000x1_0 : S100000.BroadcastsInDim S100000x1 (![0] : Fin 1 → Fin S100000x1.rank)
  bcast_S100000x1_S100000x7_0_1 : S100000x1.BroadcastsInDim S100000x7 (![0, 1] : Fin 2 → Fin S100000x7.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x512_S512x128_S100000x128_1_0_0_1_n_n_wf : DotDims.WF S100000x512 S512x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  dot_S100000x128_S128x7_S100000x7_1_0_0_1_n_n_wf : DotDims.WF S100000x128 S128x7 S100000x7 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x7_S100000x7_1_0_0_1_n_n : DotDims S100000x128 S128x7 S100000x7 where
  lhsContracting := [1]
  rhsContracting := [0]
  lhsNonContracting := [0]
  rhsNonContracting := [1]
  lhsBatch := []
  rhsBatch := []
  wf := dot_S100000x128_S128x7_S100000x7_1_0_0_1_n_n_wf

class Facts : Prop extends Facts₀ where

variable [Facts]
-- ==== Proof.ValueRun.lean ====
/-
  The idealized kernel's run, read: @main is seven kernel regions among stretches of host operations, and its
  buffer contents at the return are the last stage `W21` of the fold through those segments (each host stretch
  applied to the contents before it, each region's arrays replaced by what its write-backs leave).  Every weakly
  fair execution terminates with the two result arrays holding `W21` at their buffers and the eight argument
  arrays as launched.  What `W21` holds there, as a function of the arguments, is the subject of the other modules.
-/
import proofs.«131329_j25494925869657_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the segments, every unscoped buffer read at the return: the results at the fold's last stage,
    the arguments at their launch contents. -/
theorem run : θ_run defs (onTc (τ := τ) (main (F := F))) ⟨m, fun _ => 0, ρ⟩ (fun r => ∀ c : Dev nD,
      r.2.mem ((c.tc : Thread nD τ).loc main_v64_0) = W21 m ρ c (Proc.devRef .tc main_v64_0)
      ∧ r.2.mem ((c.tc : Thread nD τ).loc main_v64_1) = W21 m ρ c (Proc.devRef .tc main_v64_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h c =>
      ⟨h c _ (mem_uc main_v64_0 (by decide)),
       h c _ (mem_uc main_v64_1 (by decide)),
       (h c _ (mem_uc main_arg0 (by decide))).trans (W21_main_arg0 m ρ c),
       (h c _ (mem_uc main_arg1 (by decide))).trans (W21_main_arg1 m ρ c),
       (h c _ (mem_uc main_arg2 (by decide))).trans (W21_main_arg2 m ρ c),
       (h c _ (mem_uc main_arg3 (by decide))).trans (W21_main_arg3 m ρ c),
       (h c _ (mem_uc main_arg4 (by decide))).trans (W21_main_arg4 m ρ c),
       (h c _ (mem_uc main_arg5 (by decide))).trans (W21_main_arg5 m ρ c),
       (h c _ (mem_uc main_arg6 (by decide))).trans (W21_main_arg6 m ρ c),
       (h c _ (mem_uc main_arg7 (by decide))).trans (W21_main_arg7 m ρ c)⟩)

end Cert.KernelIdeal.ValueRun

end
-- ==== Proof.LibPlainDot.lean ====
/-
  A plain two-dimensional contraction read at an output index, over the extended reals.

  For the dimension numbers "contract the left operand's axis 1 with the right operand's axis 0, no batch axis"
  (an [M,K] array times a [K,N] array), entry (p, g) of the product is the sum over k < K of the left operand at
  (p, k) times the right operand at (k, g). This holds for the host's dot_general and for a matrix unit's product
  into a zero accumulator alike: at the ideal instance neither rounds, and the order of a finite sum is immaterial.
  The statements are general in the three extents, so one file serves every product of this form in a program.
-/
import Idealize.ShloMosaic.PureOps.Ideal.Laws
import Idealize.ShloMosaic.Lib.ValueIdx

noncomputable section

namespace Cert.PlainDot

open Idealize.ShloMosaic Idealize.ShloMosaic.ValueIdx

variable (M K N : ℕ)

/-- Axis 0 of the left operand's index is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- Axis 1 of the left operand's index is the contraction position. -/
theorem lhs_contr (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- Axis 0 of the right operand's index is the contraction position. -/
theorem rhs_contr (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- Axis 1 of the right operand's index is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum over its one-axis index shape is the sum over k < K of row entry times column entry. -/
theorem sum_eq (l : (⟨2, ![M, K]⟩ : Shape).Idx → EReal) (r : (⟨2, ![K, N]⟩ : Shape).Idx → EReal) (p : Fin M) (g : Fin N) :
    ∑ q : (DotDims.plain M K N).contr.Idx,
        l ((DotDims.plain M K N).lhsIdx (ix2 p g) q) * r ((DotDims.plain M K N).rhsIdx (ix2 p g) q)
      = ∑ k : Fin K, l (ix2 p k) * r (ix2 k g) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p g) ((contrEquiv1 (DotDims.plain M K N) K rfl rfl).symm k) = ix2 p k :=
    funext fun a => Fin.ext (by
      match a with
      | ⟨0, _⟩ => exact lhs_row M K N _ _
      | ⟨1, _⟩ => exact (lhs_contr M K N _ _).trans hk)
  have er : (DotDims.plain M K N).rhsIdx (ix2 p g) ((contrEquiv1 (DotDims.plain M K N) K rfl rfl).symm k) = ix2 k g :=
    funext fun a => Fin.ext (by
      match a with
      | ⟨0, _⟩ => exact (rhs_contr M K N _ _).trans hk
      | ⟨1, _⟩ => exact rhs_col M K N _ _)
  rw [el, er]

variable {M K N}

/-- The host's dot_general with these dimension numbers, at entry (p, g). -/
theorem hostDot_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    Host.dotGeneral (F := Ideal) d none l r (ix2 p g) = ∑ k : Fin K, l (ix2 p k) * r (ix2 k g) := by
  subst hd
  simp only [Host.dotGeneral]
  rw [Ideal.dotGeneral_apply]
  exact sum_eq M K N l r p g

/-- A matrix unit's product with these dimension numbers into the zero accumulator, at entry (p, g). -/
theorem matmul_zero_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    matmul (F := Ideal) d none l r (constant ⟨2, ![M, N]⟩ .f32 0x00000000#32) (ix2 p g)
      = ∑ k : Fin K, l (ix2 p k) * r (ix2 k g) := by
  subst hd
  simp only [matmul]
  rw [Ideal.matmul_constant_zero_apply]
  exact sum_eq M K N l r p g

end Cert.PlainDot

end
-- ==== Proof.RegionDot.lean ====
/-
  The two matrix-product regions of the idealized kernel (x · W1 and h · W2), each read as a whole-array statement:
  the array the region leaves is the host's whole product of the two arrays the region finds.  The statements are
  generic in the region-entry contents `V`, so they apply at whatever the earlier segments left.
  On the extended reals a product into the zero accumulator and the host's contraction are the same finite sum,
  and rounding the operands to a narrower float format first changes nothing.
-/
import proofs.«131329_j25494925869657_1_alg».proof.Proof.Gen.KernelIdeal.Frame
import proofs.«131329_j25494925869657_1_alg».proof.Proof.LibPlainDot
import Idealize.ShloMosaic.Lib.Pipeline.Value
import Idealize.ShloMosaic.Lib.ValueIdx

noncomputable section

namespace Cert.KernelIdeal.RegionDot

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Region 0: a [100000,512] matrix times a [512,128] weight, 2000 rows per grid point -/

/-- The block index maps of region 0, decided once over its 50 grid points: point `t` reads rows `2000 t …` of the
    left matrix, the whole weight, and writes rows `2000 t …` of the product. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One row block of the product: if the left block holds rows `2000 T + p` of `X` and the right block is `W`, the
    body's product at `(p, g)` is the whole product `X · W` at `(2000 T + p, g)` — both are the sum over the
    contracted axis of the same products, a change of float format being the identity on the extended reals. -/
theorem dot_block0 (d : DotDims S100000x512 S512x128 S100000x128) (hd : d = DotDims.plain 100000 512 128)
    (X : FVec Ideal S100000x512 .f32) (W : FVec Ideal S512x128 .f32)
    (x0 : FVec Ideal S2000x512 .f32) (x1 : FVec Ideal S512x128 .f32) (T : ℕ)
    (hx : ∀ (p : Fin 2000) (k : Fin 512) (P : Fin 100000), P.val = T * 2000 + p.val → x0 (ix2 p k) = X (ix2 P k))
    (hw : ∀ (k : Fin 512) (g : Fin 128), x1 (ix2 k g) = W (ix2 k g))
    (j : S2000x128.Idx) (i : S100000x128.Idx) (hi0 : (i 0).val = T * 2000 + (j 0).val) (hi1 : (i 1).val = (j 1).val) :
    k0_pay1 x0 x1 j = Host.dotGeneral (F := Ideal) d none X W i := by
  obtain ⟨p, g, rfl⟩ : ∃ (p : Fin 2000) (g : Fin 128), j = ix2 p g := ⟨j 0, j 1, eq_ix2 j⟩
  obtain ⟨P, G, rfl⟩ : ∃ (P : Fin 100000) (G : Fin 128), i = ix2 P G := ⟨i 0, i 1, eq_ix2 i⟩
  obtain rfl : G = g := Fin.ext hi1
  rw [Cert.PlainDot.hostDot_apply d hd X W P G]
  unfold k0_pay1
  refine (Cert.PlainDot.matmul_zero_apply dot_S2000x512_S512x128_S2000x128_1_0_0_1_n_n rfl _ _ p G).trans ?_
  refine Finset.sum_congr rfl fun k _ => ?_
  show x0 (ix2 p k) * x1 (ix2 k G) = _
  rw [hx p k P hi0, hw k G]

/-- What grid point `t` writes back is block `t` of the whole product of the arrays the region finds. -/
theorem flushed0 (d : DotDims S100000x512 S512x128 S100000x128) (hd : d = DotDims.plain 100000 512 128) (c : Dev nD) (t : Fin cfg0.N) :
    (dat0 V c).flushed 2 t = ((cfg0.win 2).blk t).view.read (Elt Ideal)
      (Host.dotGeneral (F := Ideal) (φ₁ := .f32) (φ₂ := .f32) d none (V c main_arg0) (V c main_arg2)) := by
  show (cfg0.win 2).cut (grid0.coords t) ((dat0 V c).after 2 t) = _
  rw [after0_2]
  unfold out0_2
  rw [View.canon_unit_zero hz]
  simp only [View.ld_unit_zero (S := S2000x512) hz, View.ld_unit_zero (S := S512x128) hz]
  obtain ⟨e0, e1, e2, e3, e4, e5⟩ := idx_facts0 t
  funext j
  show k0_pay1 (iblk0 V c 0 t) (iblk0 V c 1 t) j
    = Host.dotGeneral (F := Ideal) (φ₁ := .f32) (φ₂ := .f32) d none (V c main_arg0) (V c main_arg2) (((cfg0.win 2).blk t).view.emb j)
  refine dot_block0 d hd (V c main_arg0) (V c main_arg2) (iblk0 V c 0 t) (iblk0 V c 1 t) t.val ?_ ?_ j _ ?_ ?_
  · intro p k P hP
    show V c main_arg0 (((cfg0.win 0).blk t).view.emb (ix2 p k)) = V c main_arg0 (ix2 P k)
    have h : ((cfg0.win 0).blk t).view.emb (ix2 p k) = ix2 P k := by
      funext a; apply Fin.ext
      match a with
      | ⟨0, _⟩ => show win0_0.index t (0 : Fin 2) * 2000 + 1 * p.val = P.val; omega
      | ⟨1, _⟩ => show win0_0.index t (1 : Fin 2) * 512 + 1 * k.val = k.val; omega
    rw [h]
  · intro k g
    show V c main_arg2 (((cfg0.win 1).blk t).view.emb (ix2 k g)) = V c main_arg2 (ix2 k g)
    have h : ((cfg0.win 1).blk t).view.emb (ix2 k g) = ix2 k g := by
      funext a; apply Fin.ext
      match a with
      | ⟨0, _⟩ => show win0_1.index t (0 : Fin 2) * 512 + 1 * k.val = k.val; omega
      | ⟨1, _⟩ => show win0_1.index t (1 : Fin 2) * 128 + 1 * g.val = g.val; omega
    rw [h]
  · show win0_2.index t (0 : Fin 2) * 2000 + 1 * (j 0).val = t.val * 2000 + (j 0).val; omega
  · show win0_2.index t (1 : Fin 2) * 128 + 1 * (j 1).val = (j 1).val; omega

/-- An index of the product lies in point `t`'s block iff each coordinate lies in the block's range on its axis. -/
theorem mem_blk0 (t : Fin cfg0.N) (i : S100000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v27).slice (win0_2.rect t)).set ↔ _
  rw [View.set_slice_whole, Rect.mem_set_unit]
  exact Iff.rfl

/-- THE ARRAY region 0 leaves: the whole product of the two arrays it finds (row `r` is covered by the block of
    point `r / 2000`). -/
theorem arr0 (d : DotDims S100000x512 S512x128 S100000x128) (hd : d = DotDims.plain 100000 512 128) (c : Dev nD) :
    (dat0 V c).arrAt 2 cfg0.N = Host.dotGeneral (F := Ideal) (φ₁ := .f32) (φ₂ := .f32) d none (V c main_arg0) (V c main_arg2) :=
  (dat0 V c).arrAt_eq_of_cover 2 _ (fun t _ => flushed0 V d hd c t) fun i => by
    have hi0 : (i 0).val < 100000 := (i 0).isLt
    have hi1 : (i 1).val < 128 := (i 1).isLt
    have hN : grid0.N = 50 := N_0
    obtain ⟨T, hT⟩ : ∃ T : Fin cfg0.N, T.val = (i 0).val / 2000 := ⟨⟨(i 0).val / 2000, by show _ < grid0.N; omega⟩, rfl⟩
    obtain ⟨e0, e1, e2, e3, e4, e5⟩ := idx_facts0 T
    refine ⟨T, flush0_2 T, ?_⟩
    rw [mem_blk0]
    intro a
    match a with
    | ⟨0, _⟩ => show win0_2.index T (0 : Fin 2) * 2000 ≤ (i 0).val ∧ (i 0).val < win0_2.index T (0 : Fin 2) * 2000 + 2000; omega
    | ⟨1, _⟩ => show win0_2.index T (1 : Fin 2) * 128 ≤ (i 1).val ∧ (i 1).val < win0_2.index T (1 : Fin 2) * 128 + 128; omega

/-! ## Region 3: a [100000,128] matrix times a [128,128] weight, 2000 rows per grid point -/

/-- The block index maps of region 3, decided once over its 50 grid points: point `t` reads rows `2000 t …` of the
    left matrix, the whole weight, and writes rows `2000 t …` of the product. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- One row block of the product: if the left block holds rows `2000 T + p` of `X` and the right block is `W`, the
    body's product at `(p, g)` is the whole product `X · W` at `(2000 T + p, g)` — both are the sum over the
    contracted axis of the same products, a change of float format being the identity on the extended reals. -/
theorem dot_block3 (d : DotDims S100000x128 S128x128 S100000x128) (hd : d = DotDims.plain 100000 128 128)
    (X : FVec Ideal S100000x128 .f32) (W : FVec Ideal S128x128 .f32)
    (x0 : FVec Ideal S2000x128 .f32) (x1 : FVec Ideal S128x128 .f32) (T : ℕ)
    (hx : ∀ (p : Fin 2000) (k : Fin 128) (P : Fin 100000), P.val = T * 2000 + p.val → x0 (ix2 p k) = X (ix2 P k))
    (hw : ∀ (k : Fin 128) (g : Fin 128), x1 (ix2 k g) = W (ix2 k g))
    (j : S2000x128.Idx) (i : S100000x128.Idx) (hi0 : (i 0).val = T * 2000 + (j 0).val) (hi1 : (i 1).val = (j 1).val) :
    k3_pay1 x0 x1 j = Host.dotGeneral (F := Ideal) d none X W i := by
  obtain ⟨p, g, rfl⟩ : ∃ (p : Fin 2000) (g : Fin 128), j = ix2 p g := ⟨j 0, j 1, eq_ix2 j⟩
  obtain ⟨P, G, rfl⟩ : ∃ (P : Fin 100000) (G : Fin 128), i = ix2 P G := ⟨i 0, i 1, eq_ix2 i⟩
  obtain rfl : G = g := Fin.ext hi1
  rw [Cert.PlainDot.hostDot_apply d hd X W P G]
  unfold k3_pay1
  simp only [shapeCast_self]
  refine (Cert.PlainDot.matmul_zero_apply dot_S2000x128_S128x128_S2000x128_1_0_0_1_n_n rfl _ _ p G).trans ?_
  refine Finset.sum_congr rfl fun k _ => ?_
  show x0 (ix2 p k) * x1 (ix2 k G) = _
  rw [hx p k P hi0, hw k G]

/-- What grid point `t` writes back is block `t` of the whole product of the arrays the region finds. -/
theorem flushed3 (d : DotDims S100000x128 S128x128 S100000x128) (hd : d = DotDims.plain 100000 128 128) (c : Dev nD) (t : Fin cfg3.N) :
    (dat3 V c).flushed 2 t = ((cfg3.win 2).blk t).view.read (Elt Ideal)
      (Host.dotGeneral (F := Ideal) (φ₁ := .f32) (φ₂ := .f32) d none (V c main_v44) (V c main_arg4)) := by
  show (cfg3.win 2).cut (grid3.coords t) ((dat3 V c).after 2 t) = _
  rw [after3_2]
  unfold out3_2
  rw [View.canon_unit_zero hz]
  simp only [View.ld_unit_zero (S := S2000x128) hz, View.ld_unit_zero (S := S128x128) hz]
  obtain ⟨e0, e1, e2, e3, e4, e5⟩ := idx_facts3 t
  funext j
  show k3_pay1 (iblk3 V c 0 t) (iblk3 V c 1 t) j
    = Host.dotGeneral (F := Ideal) (φ₁ := .f32) (φ₂ := .f32) d none (V c main_v44) (V c main_arg4) (((cfg3.win 2).blk t).view.emb j)
  refine dot_block3 d hd (V c main_v44) (V c main_arg4) (iblk3 V c 0 t) (iblk3 V c 1 t) t.val ?_ ?_ j _ ?_ ?_
  · intro p k P hP
    show V c main_v44 (((cfg3.win 0).blk t).view.emb (ix2 p k)) = V c main_v44 (ix2 P k)
    have h : ((cfg3.win 0).blk t).view.emb (ix2 p k) = ix2 P k := by
      funext a; apply Fin.ext
      match a with
      | ⟨0, _⟩ => show win3_0.index t (0 : Fin 2) * 2000 + 1 * p.val = P.val; omega
      | ⟨1, _⟩ => show win3_0.index t (1 : Fin 2) * 128 + 1 * k.val = k.val; omega
    rw [h]
  · intro k g
    show V c main_arg4 (((cfg3.win 1).blk t).view.emb (ix2 k g)) = V c main_arg4 (ix2 k g)
    have h : ((cfg3.win 1).blk t).view.emb (ix2 k g) = ix2 k g := by
      funext a; apply Fin.ext
      match a with
      | ⟨0, _⟩ => show win3_1.index t (0 : Fin 2) * 128 + 1 * k.val = k.val; omega
      | ⟨1, _⟩ => show win3_1.index t (1 : Fin 2) * 128 + 1 * g.val = g.val; omega
    rw [h]
  · show win3_2.index t (0 : Fin 2) * 2000 + 1 * (j 0).val = t.val * 2000 + (j 0).val; omega
  · show win3_2.index t (1 : Fin 2) * 128 + 1 * (j 1).val = (j 1).val; omega

/-- An index of the product lies in point `t`'s block iff each coordinate lies in the block's range on its axis. -/
theorem mem_blk3 (t : Fin cfg3.N) (i : S100000x128.Idx) :
    i ∈ ((cfg3.win 2).blk t).view.set ↔ ∀ a : Fin 2, win3_2.index t a * S2000x128.size a ≤ (i a).val
      ∧ (i a).val < win3_2.index t a * S2000x128.size a + S2000x128.size a := by
  show i ∈ ((View.whole main_v45).slice (win3_2.rect t)).set ↔ _
  rw [View.set_slice_whole, Rect.mem_set_unit]
  exact Iff.rfl

/-- THE ARRAY region 3 leaves: the whole product of the two arrays it finds (row `r` is covered by the block of
    point `r / 2000`). -/
theorem arr3 (d : DotDims S100000x128 S128x128 S100000x128) (hd : d = DotDims.plain 100000 128 128) (c : Dev nD) :
    (dat3 V c).arrAt 2 cfg3.N = Host.dotGeneral (F := Ideal) (φ₁ := .f32) (φ₂ := .f32) d none (V c main_v44) (V c main_arg4) :=
  (dat3 V c).arrAt_eq_of_cover 2 _ (fun t _ => flushed3 V d hd c t) fun i => by
    have hi0 : (i 0).val < 100000 := (i 0).isLt
    have hi1 : (i 1).val < 128 := (i 1).isLt
    have hN : grid3.N = 50 := N_3
    obtain ⟨T, hT⟩ : ∃ T : Fin cfg3.N, T.val = (i 0).val / 2000 := ⟨⟨(i 0).val / 2000, by show _ < grid3.N; omega⟩, rfl⟩
    obtain ⟨e0, e1, e2, e3, e4, e5⟩ := idx_facts3 T
    refine ⟨T, flush3_2 T, ?_⟩
    rw [mem_blk3]
    intro a
    match a with
    | ⟨0, _⟩ => show win3_2.index T (0 : Fin 2) * 2000 ≤ (i 0).val ∧ (i 0).val < win3_2.index T (0 : Fin 2) * 2000 + 2000; omega
    | ⟨1, _⟩ => show win3_2.index T (1 : Fin 2) * 128 ≤ (i 1).val ∧ (i 1).val < win3_2.index T (1 : Fin 2) * 128 + 128; omega

end Cert.KernelIdeal.RegionDot

end
-- ==== Proof.LibKeepdims.lean ====
/-
  Column layouts and a lane sum read at an index.

  A sum over the last axis that keeps its dimension leaves a column: the [a] vector of row sums viewed as [a, 1],
  then spread along the rows of an [a, b] array. Read at `(p, c)` that array holds the sum of row `p`, whatever the
  column `c`. The lemmas here say so one layout step at a time, for every extent:
  • `shapeCast_a_a1_apply`: a vector [a] viewed as a column [a, 1] reads, at `(p, 0)`, the vector at `p`;
  • `broadcastTo_a1_ab_apply`: a column [a, 1] spread to [a, b] reads, at `(p, c)`, the column at `(p, 0)`;
  • `laneSum_apply`: over the extended reals, the sum of an [a, b] array along its last axis reads, at `p`, the
    finite sum over `k < b` of the array at `(p, k)`.
  Together with the library's row forms ([a] viewed as [1, a], a row [1, b] spread to [a, b]) these read every
  `sum(axis = -1, keepdims = True)` a kernel body broadcasts back over its block.
-/
import Idealize.ShloMosaic.Lib.Pipeline.Value
import Idealize.ShloMosaic.Lib.ValueIdx
import Idealize.ShloMosaic.PureOps.Ideal.Laws

noncomputable section

namespace Cert.Lib.Keepdims

open Idealize.ShloMosaic Idealize.ShloMosaic.ValueIdx

variable {α : Type}

/-- A vector [a] viewed as a column [a, 1]: entry `(p, u)` of the column is entry `p` of the vector (row-major
    position `p · 1 + 0 = p`). -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] spread along the rows of an [a, b] array: entry `(p, c)` is the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Over the extended reals the sum of an [a, b] array along its last axis, read at row `p`, is `∑ k < b` of the
    array at `(p, k)`: the reduced index with the summed coordinate put back is `(p, k)`. -/
theorem laneSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun d => Fin.ext (by
      match d with
      | ⟨0, _⟩ => rfl
      | ⟨1, _⟩ => rfl)))

end Cert.Lib.Keepdims

end
-- ==== Proof.RegionScale.lean ====
/-
  The row-scaling regions, array by array.

  Two regions of the program run the same pointwise body over 208 row blocks: block `t` of the result is block `t`
  of a [1703936, 128] array times, row by row, the one column of block `t` of a [1703936, 1] array. Whatever the
  two arrays hold when the region is entered, the array the region leaves is therefore ONE function of them, index
  by index: entry (r, c) of the first times entry (r, 0) of the second. `scaled` is that function; `arr1` and
  `arr4` say that each of the two regions leaves it.

  The road, per region: the body's arithmetic read at an index (`pay*_at`); where an element of a block sits in its
  array (block index times block size plus the coordinate inside the block: `blk*_apply`, with the block index maps
  evaluated once over the 208 points: `idx*`); so what a point writes back is its block of `scaled`
  (`flushed*_eq`); the 208 blocks cover every row (row `r` lies in block `r / 8192`: `cover*`); hence the array.
-/
import proofs.«131329_j25494925869657_1_alg».proof.Proof.Gen.KernelIdeal.Frame
import proofs.«131329_j25494925869657_1_alg».proof.Proof.LibKeepdims
import Idealize.ShloMosaic.Lib.Pipeline.Value
import Idealize.ShloMosaic.Lib.ValueIdx
import Idealize.ShloMosaic.Lib.ValueLayout

noncomputable section

namespace Cert.KernelIdeal.RegionScale

open Cert.KernelIdeal Cert.KernelIdeal.Gen Idealize.ShloMosaic Idealize.ShloMosaic.TcCoe Idealize.SL.Sem
open Idealize.ShloMosaic.Pipeline (Dat)
open Idealize.ShloMosaic.ValueIdx

/-- The zero offsets of a whole-block access, as a constant function. -/
theorem hz : (![0, 0] : Fin 2 → Nat) = fun _ => 0 := funext fun a => by fin_cases a <;> rfl

/-- Entry `(r, c)` of `g` times entry `(r, 0)` of the column `n`. -/
def scaled (g : S1703936x128.Idx → EReal) (n : S1703936x1.Idx → EReal) : S1703936x128.Idx → EReal :=
  fun i => g i * n (ix2 (⟨(i 0).val, (i 0).isLt⟩ : Fin 1703936) (0 : Fin 1))

/-- One element, over plain variables: a value that is the product of a block's entry at `y` and the column
    block's entry in the same row is `scaled` at the array index `i` under `y`, once each block's entry is
    known to be its array's entry at block offset `8192 · T`. -/
theorem point_scale (g : S1703936x128.Idx → EReal) (n : S1703936x1.Idx → EReal)
    (x0 : Vec Ideal S8192x128 .f32) (x1 : Vec Ideal S8192x1 .f32) (v : EReal) (T : Nat)
    (y : S8192x128.Idx) (i : S1703936x128.Idx)
    (hv : v = x0 y * x1 (ix2 (⟨(y 0).val, (y 0).isLt⟩ : Fin 8192) (0 : Fin 1)))
    (hi0 : (i 0).val = 8192 * T + (y 0).val) (hi1 : (i 1).val = (y 1).val)
    (h0 : ∀ (x : S8192x128.Idx) (k : S1703936x128.Idx), (k 0).val = 8192 * T + (x 0).val → (k 1).val = (x 1).val → x0 x = g k)
    (h1 : ∀ (x : S8192x1.Idx) (k : S1703936x1.Idx), (k 0).val = 8192 * T + (x 0).val → (k 1).val = (x 1).val → x1 x = n k) :
    v = scaled g n i := by
  rw [hv, h0 y i hi0 hi1,
    h1 (ix2 (⟨(y 0).val, (y 0).isLt⟩ : Fin 8192) (0 : Fin 1)) (ix2 (⟨(i 0).val, (i 0).isLt⟩ : Fin 1703936) (0 : Fin 1))
      (by show (i 0).val = 8192 * T + (y 0).val; exact hi0) rfl]
  rfl

/-! ## Region 1 -/

/-- The body's arithmetic at an index: the block's entry times the column block's entry in the same row (the
    same-shape casts are identities; the column is repeated along the rows). -/
theorem pay1_at (x0 : Vec Ideal S8192x128 .f32) (x1 : Vec Ideal S8192x1 .f32) (y : S8192x128.Idx) :
    k1_pay1 x0 x1 y = x0 y * x1 (ix2 (⟨(y 0).val, (y 0).isLt⟩ : Fin 8192) (0 : Fin 1)) := by
  obtain ⟨p, q, rfl⟩ : ∃ (p : Fin 8192) (q : Fin 128), y = ix2 p q := ⟨y 0, y 1, eq_ix2 y⟩
  unfold k1_pay1
  simp only [shapeCast_self]
  rw [mulf_apply, Cert.Lib.Keepdims.broadcastTo_a1_ab_apply]

/-- The block index maps, evaluated once over the 208 points: every window's block at point `t` is block
    `(t, 0)` of its array. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

section
variable (V : (c : Dev nD) → (b : Ref sig .tc) → Buf (Elt Ideal) ((c : Thread nD τ).loc b)) (c : Dev nD)

/-- Entry `x` of the first input's block at point `t` is the array's entry in row `8192 t + x 0`, column `x 1`. -/
theorem blk1_0_apply (t : Fin cfg1.N) (x : S8192x128.Idx) (k : S1703936x128.Idx)
    (hk0 : (k 0).val = 8192 * t.val + (x 0).val) (hk1 : (k 1).val = (x 1).val) :
    (iblk1 V c 0 t : Vec Ideal S8192x128 .f32) x = (V c main_v35 : S1703936x128.Idx → EReal) k := by
  obtain ⟨e0, e1, -, -, -, -⟩ := idx1 t
  unfold iblk1
  rw [View.read_apply]
  show V c main_v35 _ = V c main_v35 _
  congr 1
  funext a
  apply Fin.ext
  match a with
  | ⟨0, _⟩ => show win1_0.index t (0 : Fin 2) * 8192 + 1 * (x 0).val = (k 0).val; rw [e0, hk0]; omega
  | ⟨1, _⟩ => show win1_0.index t (1 : Fin 2) * 128 + 1 * (x 1).val = (k 1).val; rw [e1, hk1]; omega

/-- Entry `x` of the column's block at point `t` is the column's entry in row `8192 t + x 0`. -/
theorem blk1_1_apply (t : Fin cfg1.N) (x : S8192x1.Idx) (k : S1703936x1.Idx)
    (hk0 : (k 0).val = 8192 * t.val + (x 0).val) (hk1 : (k 1).val = (x 1).val) :
    (iblk1 V c 1 t : Vec Ideal S8192x1 .f32) x = (V c main_v37 : S1703936x1.Idx → EReal) k := by
  obtain ⟨-, -, e2, e3, -, -⟩ := idx1 t
  unfold iblk1
  rw [View.read_apply]
  show V c main_v37 _ = V c main_v37 _
  congr 1
  funext a
  apply Fin.ext
  match a with
  | ⟨0, _⟩ => show win1_1.index t (0 : Fin 2) * 8192 + 1 * (x 0).val = (k 0).val; rw [e2, hk0]; omega
  | ⟨1, _⟩ => show win1_1.index t (1 : Fin 2) * 1 + 1 * (x 1).val = (k 1).val; rw [e3, hk1]; omega

/-- What point `t` writes back is block `t` of `scaled` of the two arrays as the region finds them. -/
theorem flushed1_eq (t : Fin cfg1.N) :
    (dat1 V c).flushed 2 t = ((cfg1.win 2).blk t).view.read (Elt Ideal) (scaled (V c main_v35) (V c main_v37)) := by
  show (cfg1.win 2).cut (grid1.coords t) ((dat1 V c).after 2 t) = _
  rw [after1_2]
  unfold out1_2
  rw [View.canon_unit_zero hz]
  simp only [View.ld_unit_zero (S := S8192x128) hz, View.ld_unit_zero (S := S8192x1) hz]
  obtain ⟨-, -, -, -, e4, e5⟩ := idx1 t
  funext j
  show k1_pay1 (iblk1 V c 0 t) (iblk1 V c 1 t) j = scaled (V c main_v35) (V c main_v37) (((cfg1.win 2).blk t).view.emb j)
  refine point_scale (V c main_v35) (V c main_v37) (iblk1 V c 0 t) (iblk1 V c 1 t) _ t.val j _
    (pay1_at (iblk1 V c 0 t) (iblk1 V c 1 t) j) ?_ ?_ (blk1_0_apply V c t) (blk1_1_apply V c t)
  · show win1_2.index t (0 : Fin 2) * 8192 + 1 * (j 0).val = 8192 * t.val + (j 0).val; rw [e4]; omega
  · show win1_2.index t (1 : Fin 2) * 128 + 1 * (j 1).val = (j 1).val; rw [e5]; omega

end

/-- An index of the result array is in point `t`'s block iff each coordinate is in the block's range on its axis. -/
theorem mem_blk1 (t : Fin cfg1.N) (i : S1703936x128.Idx) :
    i ∈ ((cfg1.win 2).blk t).view.set ↔ ∀ a : Fin 2, win1_2.index t a * S8192x128.size a ≤ (i a).val ∧ (i a).val < win1_2.index t a * S8192x128.size a + S8192x128.size a := by
  show i ∈ ((View.whole main_v38).slice (win1_2.rect t)).set ↔ _
  rw [View.set_slice_whole, Rect.mem_set_unit]
  exact Iff.rfl

/-- Every index is covered: row `r` lies in the block of point `r / 8192` (208 blocks of 8192 rows are all
    1703936 rows), and every point writes its block back. -/
theorem cover1 (i : S1703936x128.Idx) :
    ∃ t : Fin cfg1.N, (cfg1.win 2).flush t = true ∧ i ∈ ((cfg1.win 2).blk t).view.set := by
  have hi0 : (i 0).val < 1703936 := (i 0).isLt
  have hi1 : (i 1).val < 128 := (i 1).isLt
  have hN : grid1.N = 208 := N_1
  obtain ⟨t, ht⟩ : ∃ t : Fin cfg1.N, t.val = (i 0).val / 8192 :=
    ⟨⟨(i 0).val / 8192, by show (i 0).val / 8192 < grid1.N; rw [hN]; omega⟩, rfl⟩
  obtain ⟨-, -, -, -, e4, e5⟩ := idx1 t
  refine ⟨t, flush1_2 t, ?_⟩
  rw [mem_blk1]
  intro a
  match a with
  | ⟨0, _⟩ => show win1_2.index t (0 : Fin 2) * 8192 ≤ (i 0).val ∧ (i 0).val < win1_2.index t (0 : Fin 2) * 8192 + 8192; rw [e4, ht]; omega
  | ⟨1, _⟩ => show win1_2.index t (1 : Fin 2) * 128 ≤ (i 1).val ∧ (i 1).val < win1_2.index t (1 : Fin 2) * 128 + 128; rw [e5]; omega

/-- THE ARRAY region 1 leaves: `scaled` of the two arrays it finds. -/
theorem arr1 (V : (c : Dev nD) → (b : Ref sig .tc) → Buf (Elt Ideal) ((c : Thread nD τ).loc b)) (c : Dev nD) :
    (dat1 V c).arrAt 2 cfg1.N = scaled (V c main_v35) (V c main_v37) :=
  (dat1 V c).arrAt_eq_of_cover 2 (scaled (V c main_v35) (V c main_v37)) (fun t _ => flushed1_eq V c t) cover1

/-! ## Region 4 -/

/-- The body's arithmetic at an index: the block's entry times the column block's entry in the same row (the
    same-shape casts are identities; the column is repeated along the rows). -/
theorem pay4_at (x0 : Vec Ideal S8192x128 .f32) (x1 : Vec Ideal S8192x1 .f32) (y : S8192x128.Idx) :
    k4_pay1 x0 x1 y = x0 y * x1 (ix2 (⟨(y 0).val, (y 0).isLt⟩ : Fin 8192) (0 : Fin 1)) := by
  obtain ⟨p, q, rfl⟩ : ∃ (p : Fin 8192) (q : Fin 128), y = ix2 p q := ⟨y 0, y 1, eq_ix2 y⟩
  unfold k4_pay1
  simp only [shapeCast_self]
  rw [mulf_apply, Cert.Lib.Keepdims.broadcastTo_a1_ab_apply]

/-- The block index maps, evaluated once over the 208 points: every window's block at point `t` is block
    `(t, 0)` of its array. -/
theorem idx4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

section
variable (V : (c : Dev nD) → (b : Ref sig .tc) → Buf (Elt Ideal) ((c : Thread nD τ).loc b)) (c : Dev nD)

/-- Entry `x` of the first input's block at point `t` is the array's entry in row `8192 t + x 0`, column `x 1`. -/
theorem blk4_0_apply (t : Fin cfg4.N) (x : S8192x128.Idx) (k : S1703936x128.Idx)
    (hk0 : (k 0).val = 8192 * t.val + (x 0).val) (hk1 : (k 1).val = (x 1).val) :
    (iblk4 V c 0 t : Vec Ideal S8192x128 .f32) x = (V c main_v53 : S1703936x128.Idx → EReal) k := by
  obtain ⟨e0, e1, -, -, -, -⟩ := idx4 t
  unfold iblk4
  rw [View.read_apply]
  show V c main_v53 _ = V c main_v53 _
  congr 1
  funext a
  apply Fin.ext
  match a with
  | ⟨0, _⟩ => show win4_0.index t (0 : Fin 2) * 8192 + 1 * (x 0).val = (k 0).val; rw [e0, hk0]; omega
  | ⟨1, _⟩ => show win4_0.index t (1 : Fin 2) * 128 + 1 * (x 1).val = (k 1).val; rw [e1, hk1]; omega

/-- Entry `x` of the column's block at point `t` is the column's entry in row `8192 t + x 0`. -/
theorem blk4_1_apply (t : Fin cfg4.N) (x : S8192x1.Idx) (k : S1703936x1.Idx)
    (hk0 : (k 0).val = 8192 * t.val + (x 0).val) (hk1 : (k 1).val = (x 1).val) :
    (iblk4 V c 1 t : Vec Ideal S8192x1 .f32) x = (V c main_v55 : S1703936x1.Idx → EReal) k := by
  obtain ⟨-, -, e2, e3, -, -⟩ := idx4 t
  unfold iblk4
  rw [View.read_apply]
  show V c main_v55 _ = V c main_v55 _
  congr 1
  funext a
  apply Fin.ext
  match a with
  | ⟨0, _⟩ => show win4_1.index t (0 : Fin 2) * 8192 + 1 * (x 0).val = (k 0).val; rw [e2, hk0]; omega
  | ⟨1, _⟩ => show win4_1.index t (1 : Fin 2) * 1 + 1 * (x 1).val = (k 1).val; rw [e3, hk1]; omega

/-- What point `t` writes back is block `t` of `scaled` of the two arrays as the region finds them. -/
theorem flushed4_eq (t : Fin cfg4.N) :
    (dat4 V c).flushed 2 t = ((cfg4.win 2).blk t).view.read (Elt Ideal) (scaled (V c main_v53) (V c main_v55)) := by
  show (cfg4.win 2).cut (grid4.coords t) ((dat4 V c).after 2 t) = _
  rw [after4_2]
  unfold out4_2
  rw [View.canon_unit_zero hz]
  simp only [View.ld_unit_zero (S := S8192x128) hz, View.ld_unit_zero (S := S8192x1) hz]
  obtain ⟨-, -, -, -, e4, e5⟩ := idx4 t
  funext j
  show k4_pay1 (iblk4 V c 0 t) (iblk4 V c 1 t) j = scaled (V c main_v53) (V c main_v55) (((cfg4.win 2).blk t).view.emb j)
  refine point_scale (V c main_v53) (V c main_v55) (iblk4 V c 0 t) (iblk4 V c 1 t) _ t.val j _
    (pay4_at (iblk4 V c 0 t) (iblk4 V c 1 t) j) ?_ ?_ (blk4_0_apply V c t) (blk4_1_apply V c t)
  · show win4_2.index t (0 : Fin 2) * 8192 + 1 * (j 0).val = 8192 * t.val + (j 0).val; rw [e4]; omega
  · show win4_2.index t (1 : Fin 2) * 128 + 1 * (j 1).val = (j 1).val; rw [e5]; omega

end

/-- An index of the result array is in point `t`'s block iff each coordinate is in the block's range on its axis. -/
theorem mem_blk4 (t : Fin cfg4.N) (i : S1703936x128.Idx) :
    i ∈ ((cfg4.win 2).blk t).view.set ↔ ∀ a : Fin 2, win4_2.index t a * S8192x128.size a ≤ (i a).val ∧ (i a).val < win4_2.index t a * S8192x128.size a + S8192x128.size a := by
  show i ∈ ((View.whole main_v56).slice (win4_2.rect t)).set ↔ _
  rw [View.set_slice_whole, Rect.mem_set_unit]
  exact Iff.rfl

/-- Every index is covered: row `r` lies in the block of point `r / 8192` (208 blocks of 8192 rows are all
    1703936 rows), and every point writes its block back. -/
theorem cover4 (i : S1703936x128.Idx) :
    ∃ t : Fin cfg4.N, (cfg4.win 2).flush t = true ∧ i ∈ ((cfg4.win 2).blk t).view.set := by
  have hi0 : (i 0).val < 1703936 := (i 0).isLt
  have hi1 : (i 1).val < 128 := (i 1).isLt
  have hN : grid4.N = 208 := N_4
  obtain ⟨t, ht⟩ : ∃ t : Fin cfg4.N, t.val = (i 0).val / 8192 :=
    ⟨⟨(i 0).val / 8192, by show (i 0).val / 8192 < grid4.N; rw [hN]; omega⟩, rfl⟩
  obtain ⟨-, -, -, -, e4, e5⟩ := idx4 t
  refine ⟨t, flush4_2 t, ?_⟩
  rw [mem_blk4]
  intro a
  match a with
  | ⟨0, _⟩ => show win4_2.index t (0 : Fin 2) * 8192 ≤ (i 0).val ∧ (i 0).val < win4_2.index t (0 : Fin 2) * 8192 + 8192; rw [e4, ht]; omega
  | ⟨1, _⟩ => show win4_2.index t (1 : Fin 2) * 128 ≤ (i 1).val ∧ (i 1).val < win4_2.index t (1 : Fin 2) * 128 + 128; rw [e5]; omega

/-- THE ARRAY region 4 leaves: `scaled` of the two arrays it finds. -/
theorem arr4 (V : (c : Dev nD) → (b : Ref sig .tc) → Buf (Elt Ideal) ((c : Thread nD τ).loc b)) (c : Dev nD) :
    (dat4 V c).arrAt 2 cfg4.N = scaled (V c main_v53) (V c main_v55) :=
  (dat4 V c).arrAt_eq_of_cover 2 (scaled (V c main_v53) (V c main_v55)) (fun t _ => flushed4_eq V c t) cover4

end Cert.KernelIdeal.RegionScale

end
-- ==== Proof.RegionBiasTanh.lean ====
/-
  The bias-and-tanh regions, array by array.

  Two regions of the program run the same pointwise body over 50 row blocks: block `t` of the result is the
  hyperbolic tangent of block `t` of a [100000, 128] array plus, column by column, the one row of a [1, 128] array
  (the same row at every point). Whatever the two arrays hold when the region is entered, the array the region
  leaves is therefore ONE function of them, index by index: tanh of entry (r, c) of the first plus entry (0, c) of
  the second. `biasTanh` is that function; `arr2` and `arr5` say that each of the two regions leaves it.

  The road, per region: the body's arithmetic read at an index (`pay*_at`); where an element of a block sits in its
  array (block index times block size plus the coordinate inside the block: `blk*_apply`, with the block index maps
  evaluated once over the 50 points: `idx*`); so what a point writes back is its block of `biasTanh`
  (`flushed*_eq`); the 50 blocks cover every row (row `r` lies in block `r / 2000`: `cover*`); hence the array.
-/
import proofs.«131329_j25494925869657_1_alg».proof.Proof.Gen.KernelIdeal.Frame
import Idealize.ShloMosaic.Lib.Pipeline.Value
import Idealize.ShloMosaic.Lib.ValueIdx
import Idealize.ShloMosaic.Lib.ValueLayout

noncomputable section

namespace Cert.KernelIdeal.RegionBiasTanh

open Cert.KernelIdeal Cert.KernelIdeal.Gen Idealize.ShloMosaic Idealize.ShloMosaic.TcCoe Idealize.SL.Sem
open Idealize.ShloMosaic.Pipeline (Dat)
open Idealize.ShloMosaic.ValueIdx

/-- The zero offsets of a whole-block access, as a constant function. -/
theorem hz : (![0, 0] : Fin 2 → Nat) = fun _ => 0 := funext fun a => by fin_cases a <;> rfl

/-- The hyperbolic tangent of entry `(r, c)` of `a` plus entry `(0, c)` of the row `b`. -/
def biasTanh (a : S100000x128.Idx → EReal) (b : S1x128.Idx → EReal) : S100000x128.Idx → EReal :=
  fun i => Ideal.tanh (a i + b (ix2 (0 : Fin 1) (⟨(i 1).val, (i 1).isLt⟩ : Fin 128)))

/-- One element, over plain variables: a value that is the tanh of a block's entry at `y` plus the row block's
    entry in the same column is `biasTanh` at the array index `i` under `y`, once the block's entry is known
    to be its array's entry at block offset `2000 · T` and the row block's entry the row's. -/
theorem point_bias (a : S100000x128.Idx → EReal) (b : S1x128.Idx → EReal)
    (x0 : Vec Ideal S2000x128 .f32) (x1 : Vec Ideal S1x128 .f32) (v : EReal) (T : Nat)
    (y : S2000x128.Idx) (i : S100000x128.Idx)
    (hv : v = Ideal.tanh (x0 y + x1 (ix2 (0 : Fin 1) (⟨(y 1).val, (y 1).isLt⟩ : Fin 128))))
    (hi0 : (i 0).val = 2000 * T + (y 0).val) (hi1 : (i 1).val = (y 1).val)
    (h0 : ∀ (x : S2000x128.Idx) (k : S100000x128.Idx), (k 0).val = 2000 * T + (x 0).val → (k 1).val = (x 1).val → x0 x = a k)
    (h1 : ∀ (x : S1x128.Idx) (k : S1x128.Idx), (k 0).val = (x 0).val → (k 1).val = (x 1).val → x1 x = b k) :
    v = biasTanh a b i := by
  rw [hv, h0 y i hi0 hi1,
    h1 (ix2 (0 : Fin 1) (⟨(y 1).val, (y 1).isLt⟩ : Fin 128)) (ix2 (0 : Fin 1) (⟨(i 1).val, (i 1).isLt⟩ : Fin 128))
      rfl (by show (i 1).val = (y 1).val; exact hi1)]
  rfl

/-! ## Region 2 -/

/-- The body's arithmetic at an index: tanh of the block's entry plus the row block's entry in the same column (the
    same-shape casts are identities; the row is repeated down the columns). -/
theorem pay2_at (x0 : Vec Ideal S2000x128 .f32) (x1 : Vec Ideal S1x128 .f32) (y : S2000x128.Idx) :
    k2_pay1 x0 x1 y = Ideal.tanh (x0 y + x1 (ix2 (0 : Fin 1) (⟨(y 1).val, (y 1).isLt⟩ : Fin 128))) := by
  obtain ⟨p, q, rfl⟩ : ∃ (p : Fin 2000) (q : Fin 128), y = ix2 p q := ⟨y 0, y 1, eq_ix2 y⟩
  unfold k2_pay1
  simp only [shapeCast_self]
  show Ideal.tanh (x0 (ix2 p q) + broadcastTo S2000x128 x1 broadcasts_S1x128_S2000x128 (ix2 p q)) = _
  rw [broadcastTo_1b_ab_apply]

/-- The block index maps, evaluated once over the 50 points: the first input's and the result's block at point
    `t` is block `(t, 0)` of its array; the row's block is block `(0, 0)` at every point. -/
theorem idx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

section
variable (V : (c : Dev nD) → (b : Ref sig .tc) → Buf (Elt Ideal) ((c : Thread nD τ).loc b)) (c : Dev nD)

/-- Entry `x` of the first input's block at point `t` is the array's entry in row `2000 t + x 0`, column `x 1`. -/
theorem blk2_0_apply (t : Fin cfg2.N) (x : S2000x128.Idx) (k : S100000x128.Idx)
    (hk0 : (k 0).val = 2000 * t.val + (x 0).val) (hk1 : (k 1).val = (x 1).val) :
    (iblk2 V c 0 t : Vec Ideal S2000x128 .f32) x = (V c main_v42 : S100000x128.Idx → EReal) k := by
  obtain ⟨e0, e1, -, -, -, -⟩ := idx2 t
  unfold iblk2
  rw [View.read_apply]
  show V c main_v42 _ = V c main_v42 _
  congr 1
  funext a
  apply Fin.ext
  match a with
  | ⟨0, _⟩ => show win2_0.index t (0 : Fin 2) * 2000 + 1 * (x 0).val = (k 0).val; rw [e0, hk0]; omega
  | ⟨1, _⟩ => show win2_0.index t (1 : Fin 2) * 128 + 1 * (x 1).val = (k 1).val; rw [e1, hk1]; omega

/-- The row's block at any point is the row itself. -/
theorem blk2_1_apply (t : Fin cfg2.N) (x : S1x128.Idx) (k : S1x128.Idx)
    (hk0 : (k 0).val = (x 0).val) (hk1 : (k 1).val = (x 1).val) :
    (iblk2 V c 1 t : Vec Ideal S1x128 .f32) x = (V c main_v43 : S1x128.Idx → EReal) k := by
  obtain ⟨-, -, e2, e3, -, -⟩ := idx2 t
  unfold iblk2
  rw [View.read_apply]
  show V c main_v43 _ = V c main_v43 _
  congr 1
  funext a
  apply Fin.ext
  match a with
  | ⟨0, _⟩ => show win2_1.index t (0 : Fin 2) * 1 + 1 * (x 0).val = (k 0).val; rw [e2, hk0]; omega
  | ⟨1, _⟩ => show win2_1.index t (1 : Fin 2) * 128 + 1 * (x 1).val = (k 1).val; rw [e3, hk1]; omega

/-- What point `t` writes back is block `t` of `biasTanh` of the two arrays as the region finds them. -/
theorem flushed2_eq (t : Fin cfg2.N) :
    (dat2 V c).flushed 2 t = ((cfg2.win 2).blk t).view.read (Elt Ideal) (biasTanh (V c main_v42) (V c main_v43)) := by
  show (cfg2.win 2).cut (grid2.coords t) ((dat2 V c).after 2 t) = _
  rw [after2_2]
  unfold out2_2
  rw [View.canon_unit_zero hz]
  simp only [View.ld_unit_zero (S := S2000x128) hz, View.ld_unit_zero (S := S1x128) hz]
  obtain ⟨-, -, -, -, e4, e5⟩ := idx2 t
  funext j
  show k2_pay1 (iblk2 V c 0 t) (iblk2 V c 1 t) j = biasTanh (V c main_v42) (V c main_v43) (((cfg2.win 2).blk t).view.emb j)
  refine point_bias (V c main_v42) (V c main_v43) (iblk2 V c 0 t) (iblk2 V c 1 t) _ t.val j _
    (pay2_at (iblk2 V c 0 t) (iblk2 V c 1 t) j) ?_ ?_ (blk2_0_apply V c t) (blk2_1_apply V c t)
  · show win2_2.index t (0 : Fin 2) * 2000 + 1 * (j 0).val = 2000 * t.val + (j 0).val; rw [e4]; omega
  · show win2_2.index t (1 : Fin 2) * 128 + 1 * (j 1).val = (j 1).val; rw [e5]; omega

end

/-- An index of the result array is in point `t`'s block iff each coordinate is in the block's range on its axis. -/
theorem mem_blk2 (t : Fin cfg2.N) (i : S100000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v44).slice (win2_2.rect t)).set ↔ _
  rw [View.set_slice_whole, Rect.mem_set_unit]
  exact Iff.rfl

/-- Every index is covered: row `r` lies in the block of point `r / 2000` (50 blocks of 2000 rows are all
    100000 rows), and every point writes its block back. -/
theorem cover2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : grid2.N = 50 := N_2
  obtain ⟨t, ht⟩ : ∃ t : Fin cfg2.N, t.val = (i 0).val / 2000 :=
    ⟨⟨(i 0).val / 2000, by show (i 0).val / 2000 < grid2.N; rw [hN]; omega⟩, rfl⟩
  obtain ⟨-, -, -, -, e4, e5⟩ := idx2 t
  refine ⟨t, flush2_2 t, ?_⟩
  rw [mem_blk2]
  intro a
  match a with
  | ⟨0, _⟩ => show win2_2.index t (0 : Fin 2) * 2000 ≤ (i 0).val ∧ (i 0).val < win2_2.index t (0 : Fin 2) * 2000 + 2000; rw [e4, ht]; omega
  | ⟨1, _⟩ => show win2_2.index t (1 : Fin 2) * 128 ≤ (i 1).val ∧ (i 1).val < win2_2.index t (1 : Fin 2) * 128 + 128; rw [e5]; omega

/-- THE ARRAY region 2 leaves: `biasTanh` of the two arrays it finds. -/
theorem arr2 (V : (c : Dev nD) → (b : Ref sig .tc) → Buf (Elt Ideal) ((c : Thread nD τ).loc b)) (c : Dev nD) :
    (dat2 V c).arrAt 2 cfg2.N = biasTanh (V c main_v42) (V c main_v43) :=
  (dat2 V c).arrAt_eq_of_cover 2 (biasTanh (V c main_v42) (V c main_v43)) (fun t _ => flushed2_eq V c t) cover2

/-! ## Region 5 -/

/-- The body's arithmetic at an index: tanh of the block's entry plus the row block's entry in the same column (the
    same-shape casts are identities; the row is repeated down the columns). -/
theorem pay5_at (x0 : Vec Ideal S2000x128 .f32) (x1 : Vec Ideal S1x128 .f32) (y : S2000x128.Idx) :
    k5_pay1 x0 x1 y = Ideal.tanh (x0 y + x1 (ix2 (0 : Fin 1) (⟨(y 1).val, (y 1).isLt⟩ : Fin 128))) := by
  obtain ⟨p, q, rfl⟩ : ∃ (p : Fin 2000) (q : Fin 128), y = ix2 p q := ⟨y 0, y 1, eq_ix2 y⟩
  unfold k5_pay1
  simp only [shapeCast_self]
  show Ideal.tanh (x0 (ix2 p q) + broadcastTo S2000x128 x1 broadcasts_S1x128_S2000x128 (ix2 p q)) = _
  rw [broadcastTo_1b_ab_apply]

/-- The block index maps, evaluated once over the 50 points: the first input's and the result's block at point
    `t` is block `(t, 0)` of its array; the row's block is block `(0, 0)` at every point. -/
theorem idx5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

section
variable (V : (c : Dev nD) → (b : Ref sig .tc) → Buf (Elt Ideal) ((c : Thread nD τ).loc b)) (c : Dev nD)

/-- Entry `x` of the first input's block at point `t` is the array's entry in row `2000 t + x 0`, column `x 1`. -/
theorem blk5_0_apply (t : Fin cfg5.N) (x : S2000x128.Idx) (k : S100000x128.Idx)
    (hk0 : (k 0).val = 2000 * t.val + (x 0).val) (hk1 : (k 1).val = (x 1).val) :
    (iblk5 V c 0 t : Vec Ideal S2000x128 .f32) x = (V c main_v60 : S100000x128.Idx → EReal) k := by
  obtain ⟨e0, e1, -, -, -, -⟩ := idx5 t
  unfold iblk5
  rw [View.read_apply]
  show V c main_v60 _ = V c main_v60 _
  congr 1
  funext a
  apply Fin.ext
  match a with
  | ⟨0, _⟩ => show win5_0.index t (0 : Fin 2) * 2000 + 1 * (x 0).val = (k 0).val; rw [e0, hk0]; omega
  | ⟨1, _⟩ => show win5_0.index t (1 : Fin 2) * 128 + 1 * (x 1).val = (k 1).val; rw [e1, hk1]; omega

/-- The row's block at any point is the row itself. -/
theorem blk5_1_apply (t : Fin cfg5.N) (x : S1x128.Idx) (k : S1x128.Idx)
    (hk0 : (k 0).val = (x 0).val) (hk1 : (k 1).val = (x 1).val) :
    (iblk5 V c 1 t : Vec Ideal S1x128 .f32) x = (V c main_v61 : S1x128.Idx → EReal) k := by
  obtain ⟨-, -, e2, e3, -, -⟩ := idx5 t
  unfold iblk5
  rw [View.read_apply]
  show V c main_v61 _ = V c main_v61 _
  congr 1
  funext a
  apply Fin.ext
  match a with
  | ⟨0, _⟩ => show win5_1.index t (0 : Fin 2) * 1 + 1 * (x 0).val = (k 0).val; rw [e2, hk0]; omega
  | ⟨1, _⟩ => show win5_1.index t (1 : Fin 2) * 128 + 1 * (x 1).val = (k 1).val; rw [e3, hk1]; omega

/-- What point `t` writes back is block `t` of `biasTanh` of the two arrays as the region finds them. -/
theorem flushed5_eq (t : Fin cfg5.N) :
    (dat5 V c).flushed 2 t = ((cfg5.win 2).blk t).view.read (Elt Ideal) (biasTanh (V c main_v60) (V c main_v61)) := by
  show (cfg5.win 2).cut (grid5.coords t) ((dat5 V c).after 2 t) = _
  rw [after5_2]
  unfold out5_2
  rw [View.canon_unit_zero hz]
  simp only [View.ld_unit_zero (S := S2000x128) hz, View.ld_unit_zero (S := S1x128) hz]
  obtain ⟨-, -, -, -, e4, e5⟩ := idx5 t
  funext j
  show k5_pay1 (iblk5 V c 0 t) (iblk5 V c 1 t) j = biasTanh (V c main_v60) (V c main_v61) (((cfg5.win 2).blk t).view.emb j)
  refine point_bias (V c main_v60) (V c main_v61) (iblk5 V c 0 t) (iblk5 V c 1 t) _ t.val j _
    (pay5_at (iblk5 V c 0 t) (iblk5 V c 1 t) j) ?_ ?_ (blk5_0_apply V c t) (blk5_1_apply V c t)
  · show win5_2.index t (0 : Fin 2) * 2000 + 1 * (j 0).val = 2000 * t.val + (j 0).val; rw [e4]; omega
  · show win5_2.index t (1 : Fin 2) * 128 + 1 * (j 1).val = (j 1).val; rw [e5]; omega

end

/-- An index of the result array is in point `t`'s block iff each coordinate is in the block's range on its axis. -/
theorem mem_blk5 (t : Fin cfg5.N) (i : S100000x128.Idx) :
    i ∈ ((cfg5.win 2).blk t).view.set ↔ ∀ a : Fin 2, win5_2.index t a * S2000x128.size a ≤ (i a).val ∧ (i a).val < win5_2.index t a * S2000x128.size a + S2000x128.size a := by
  show i ∈ ((View.whole main_v62).slice (win5_2.rect t)).set ↔ _
  rw [View.set_slice_whole, Rect.mem_set_unit]
  exact Iff.rfl

/-- Every index is covered: row `r` lies in the block of point `r / 2000` (50 blocks of 2000 rows are all
    100000 rows), and every point writes its block back. -/
theorem cover5 (i : S100000x128.Idx) :
    ∃ t : Fin cfg5.N, (cfg5.win 2).flush t = true ∧ i ∈ ((cfg5.win 2).blk t).view.set := by
  have hi0 : (i 0).val < 100000 := (i 0).isLt
  have hi1 : (i 1).val < 128 := (i 1).isLt
  have hN : grid5.N = 50 := N_5
  obtain ⟨t, ht⟩ : ∃ t : Fin cfg5.N, t.val = (i 0).val / 2000 :=
    ⟨⟨(i 0).val / 2000, by show (i 0).val / 2000 < grid5.N; rw [hN]; omega⟩, rfl⟩
  obtain ⟨-, -, -, -, e4, e5⟩ := idx5 t
  refine ⟨t, flush5_2 t, ?_⟩
  rw [mem_blk5]
  intro a
  match a with
  | ⟨0, _⟩ => show win5_2.index t (0 : Fin 2) * 2000 ≤ (i 0).val ∧ (i 0).val < win5_2.index t (0 : Fin 2) * 2000 + 2000; rw [e4, ht]; omega
  | ⟨1, _⟩ => show win5_2.index t (1 : Fin 2) * 128 ≤ (i 1).val ∧ (i 1).val < win5_2.index t (1 : Fin 2) * 128 + 128; rw [e5]; omega

/-- THE ARRAY region 5 leaves: `biasTanh` of the two arrays it finds. -/
theorem arr5 (V : (c : Dev nD) → (b : Ref sig .tc) → Buf (Elt Ideal) ((c : Thread nD τ).loc b)) (c : Dev nD) :
    (dat5 V c).arrAt 2 cfg5.N = biasTanh (V c main_v60) (V c main_v61) :=
  (dat5 V c).arrAt_eq_of_cover 2 (biasTanh (V c main_v60) (V c main_v61)) (fun t _ => flushed5_eq V c t) cover5

end Cert.KernelIdeal.RegionBiasTanh

end
-- ==== Proof.LibPadSlice.lean ====
/-
  Zero-extended columns and entries, read back inside the original extent.

  A matrix [K, n] padded on the right with `hi` further columns (no padding in front, none between entries) is a
  matrix [K, m]; at a column `g' < n` it still holds the original entry, whatever the padding value is. The same
  for a vector [n] padded at its end to [m]. Together with a slice that keeps the first `n` columns these say that
  widening an operand with padding columns and cutting the result back to the first `n` columns never reads the
  padding value. One lemma per layout, for every extent:
  • `pad_right_cols_apply`: [K, n] padded to [K, m] at `(k, g')` with `g' = g < n` is the matrix at `(k, g)`;
  • `pad_end_vec_apply`: [n] padded to [m] at `g'` with `g' = g < n` is the vector at `g`.
-/
import Idealize.ShloMosaic.Lib.KernelVsHost
import Idealize.ShloMosaic.Lib.ValueIdx

noncomputable section

namespace Cert.Lib.PadSlice

open Idealize.ShloMosaic Idealize.ShloMosaic.ValueIdx

variable {α : Type}

/-- A matrix [K, n] padded on the right to [K, m]: entry `(k, g')` with `g'` equal to a column `g` of the
    original is the original's entry `(k, g)` (row `k = 0 + k · 1`, column `g' = 0 + g · 1`). -/
theorem pad_right_cols_apply {K n m : ℕ} (hi : ℕ) (x : (⟨2, ![K, n]⟩ : Shape).Idx → α) {u : Shape} (v : u.Idx → α)
    (hp : (⟨2, ![K, n]⟩ : Shape).Pads (![0, 0] : Fin 2 → ℕ) ![0, hi] ![0, 0] ⟨2, ![K, m]⟩) (hu : 0 < u.numel)
    (k : Fin K) (g : Fin n) (g' : Fin m) (hg : g'.val = g.val) :
    pad ⟨2, ![K, m]⟩ ![0, 0] ![0, hi] ![0, 0] x v hp hu (ix2 k g') = x (ix2 k g) :=
  pad_apply_of_inside _ _ _ x v hp hu (ix2 k g') (ix2 k g) (fun a => by
    match a with
    | ⟨0, _⟩ => show k.val = 0 + k.val * (0 + 1); omega
    | ⟨1, _⟩ => show g'.val = 0 + g.val * (0 + 1); omega)

/-- A vector [n] padded at its end to [m]: entry `g'` equal to a position `g` of the original is the original's
    entry `g` (position `g' = 0 + g · 1`). -/
theorem pad_end_vec_apply {n m : ℕ} (hi : ℕ) (x : (⟨1, ![n]⟩ : Shape).Idx → α) {u : Shape} (v : u.Idx → α)
    (hp : (⟨1, ![n]⟩ : Shape).Pads (![0] : Fin 1 → ℕ) ![hi] ![0] ⟨1, ![m]⟩) (hu : 0 < u.numel)
    (g : Fin n) (g' : Fin m) (hg : g'.val = g.val) :
    pad ⟨1, ![m]⟩ ![0] ![hi] ![0] x v hp hu (ix1 g') = x (ix1 g) :=
  pad_apply_of_inside _ _ _ x v hp hu (ix1 g') (ix1 g) (fun a => by
    match a with
    | ⟨0, _⟩ => show g'.val = 0 + g.val * (0 + 1); omega)

end Cert.Lib.PadSlice

end
-- ==== Proof.LibBroadcastInDim.lean ====
/-
  Columns and rows set and spread by `broadcast_in_dim`, read at an index.

  A host program spreads a per-row scale over a matrix in two steps: the vector [a] is set as a column [a, 1]
  (`dims = [0]`), and the column is spread along the rows of an [a, b] array (`dims = [0, 1]`).  A per-column vector
  goes the other way round: [b] set as a row [1, b] (`dims = [1]`), the row spread down the rows of [a, b]
  (`dims = [0, 1]`).  Read at `(p, q)` the first array holds the vector's entry `p`, the second the vector's entry `q`.
  One lemma per step, for every extent (an axis of extent one is read at `0`, which is also its only index):
  • `vec_as_col`: [a] → [a, 1] at `(p, u)` is the vector at `p`;
  • `col_spread`: [a, 1] → [a, b] at `(p, q)` is the column at `(p, 0)`;
  • `vec_as_row`: [b] → [1, b] at `(u, q)` is the vector at `q`;
  • `row_spread`: [1, b] → [a, b] at `(p, q)` is the row at `(0, q)`.
-/
import Idealize.ShloMosaic.Lib.Pipeline.Value
import Idealize.ShloMosaic.Lib.ValueIdx

noncomputable section

namespace Cert.Lib.InDim

open Idealize.ShloMosaic Idealize.ShloMosaic.ValueIdx

variable {α : Type}

/-- A vector [a] set as a column [a, 1]: entry `(p, u)` is the vector's entry `p`. -/
theorem vec_as_col {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A column [a, 1] spread along the rows of an [a, b] array: entry `(p, q)` is the column's entry in row `p`. -/
theorem col_spread {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) := by
  refine broadcastInDim_apply _ h x (ix2 p q) (ix2 p (0 : Fin 1)) fun ax => ?_
  match ax with
  | ⟨0, _⟩ =>
    show p.val = if a = 1 then 0 else p.val
    split
    · have := p.isLt; omega
    · rfl
  | ⟨1, _⟩ => rfl

/-- A vector [b] set as a row [1, b]: entry `(u, q)` is the vector's entry `q`. -/
theorem vec_as_row {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A row [1, b] spread down the rows of an [a, b] array: entry `(p, q)` is the row's entry in column `q`. -/
theorem row_spread {a b : ℕ} (x : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h x (ix2 p q) = x (ix2 (0 : Fin 1) q) := by
  refine broadcastInDim_apply _ h x (ix2 p q) (ix2 (0 : Fin 1) q) fun ax => ?_
  match ax with
  | ⟨0, _⟩ => rfl
  | ⟨1, _⟩ =>
    show q.val = if b = 1 then 0 else q.val
    split
    · have := q.isLt; omega
    · rfl

end Cert.Lib.InDim

end
-- ==== Proof.GlueLayouts.lean ====
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal
import proofs.«131329_j25494925869657_1_alg».proof.Proof.LibPadSlice
import proofs.«131329_j25494925869657_1_alg».proof.Proof.LibBroadcastInDim
import proofs.«131329_j25494925869657_1_alg».proof.Proof.LibKeepdims

/-!
# Layout steps between the kernel's arrays and the host's, read at an index

Three facts about arrays over literal extents, none of which opens a program.

* Scaling and un-padding. A matrix of 1700000 rows is extended below with 3936 further rows, a vector
  of 1700000 entries is extended at its end with 3936 further entries and viewed as a column, every
  row of the extended matrix is multiplied by its entry of the column, and the first 1700000 rows are
  kept. A kept row never meets the added rows or entries: the result is the matrix with row `e`
  multiplied by the vector's entry `e`, which is the product with the vector set as a column and
  spread along the rows.
* Bias and hyperbolic tangent. Adding to entry `(p, q)` the entry `(0, q)` of a vector viewed as a
  one-row matrix, then taking the hyperbolic tangent, is the hyperbolic tangent of the sum with the
  vector set as a row and spread down the rows.
* The row layout behind the second fact, for every extent: a vector set as a row and spread down
  `a` rows holds at `(p, q)` what the vector viewed as a one-row matrix holds at `(0, q)`, namely
  the vector's entry `q`.
-/

noncomputable section

namespace Cert.Hand.Glue

open Idealize.ShloMosaic Idealize.ShloMosaic.ValueIdx

/-- A matrix [n, K] extended below to [m, K] (nothing added in front, nothing between entries): entry
    `(g', k)` with `g'` equal to a row `g` of the original is the original's entry `(g, k)`
    (row `g' = 0 + g · 1`, column `k = 0 + k · 1`). -/
theorem pad_bottom_rows_apply {α : Type} {K n m : ℕ} (hi : ℕ) (x : (⟨2, ![n, K]⟩ : Shape).Idx → α) {u : Shape}
    (v : u.Idx → α)
    (hp : (⟨2, ![n, K]⟩ : Shape).Pads (![0, 0] : Fin 2 → ℕ) ![hi, 0] ![0, 0] ⟨2, ![m, K]⟩) (hu : 0 < u.numel)
    (g : Fin n) (g' : Fin m) (k : Fin K) (hg : g'.val = g.val) :
    pad ⟨2, ![m, K]⟩ ![0, 0] ![hi, 0] ![0, 0] x v hp hu (ix2 g' k) = x (ix2 g k) :=
  pad_apply_of_inside _ _ _ x v hp hu (ix2 g' k) (ix2 g k) (fun a => by
    match a with
    | ⟨0, _⟩ => show g'.val = 0 + g.val * (0 + 1); omega
    | ⟨1, _⟩ => show k.val = 0 + k.val * (0 + 1); omega)

/-- A vector [n] set as a row [1, n] and spread down the rows of an [a, n] array holds at `(p, q)`
    what the vector viewed as a one-row matrix holds at `(0, q)`: both are the vector's entry `q`. -/
theorem row_of_vec {a n : ℕ} {α : Type} (b : (⟨1, ![n]⟩ : Shape).Idx → α)
    (hc : (⟨1, ![n]⟩ : Shape).ShapeCasts ⟨2, ![1, n]⟩)
    (hb1 : (⟨1, ![n]⟩ : Shape).BroadcastsInDim ⟨2, ![1, n]⟩ ![1])
    (hb2 : (⟨2, ![1, n]⟩ : Shape).BroadcastsInDim ⟨2, ![a, n]⟩ ![0, 1]) (p : Fin a) (q : Fin n) :
    broadcastInDim ⟨2, ![a, n]⟩ ![0, 1] hb2 (broadcastInDim ⟨2, ![1, n]⟩ ![1] hb1 b) (ix2 p q)
      = shapeCast ⟨2, ![1, n]⟩ b hc (ix2 (0 : Fin 1) q) :=
  (Cert.Lib.InDim.row_spread _ hb2 p q).trans
    ((Cert.Lib.InDim.vec_as_row b hb1 (0 : Fin 1) q).trans (shapeCast_a_1a_apply b hc (0 : Fin 1) q).symm)

/-- Bias and hyperbolic tangent: the entry `(0, q)` of the bias viewed as a one-row matrix, added to
    entry `(p, q)` before the hyperbolic tangent, is the bias set as a row and spread down all rows. -/
theorem biasTanh_host (a : (⟨2, ![100000, 128]⟩ : Shape).Idx → EReal) (b : (⟨1, ![128]⟩ : Shape).Idx → EReal)
    (hc : (⟨1, ![128]⟩ : Shape).ShapeCasts ⟨2, ![1, 128]⟩)
    (hb1 : (⟨1, ![128]⟩ : Shape).BroadcastsInDim ⟨2, ![1, 128]⟩ ![1])
    (hb2 : (⟨2, ![1, 128]⟩ : Shape).BroadcastsInDim ⟨2, ![100000, 128]⟩ ![0, 1]) :
    (fun i : (⟨2, ![100000, 128]⟩ : Shape).Idx =>
        Ideal.tanh (a i + shapeCast ⟨2, ![1, 128]⟩ b hc (ix2 (0 : Fin 1) (⟨(i 1).val, (i 1).isLt⟩ : Fin 128))))
      = Host.tanh (F := Ideal) (addf (F := Ideal) (φ := .f32) a
          (broadcastInDim ⟨2, ![100000, 128]⟩ ![0, 1] hb2 (broadcastInDim ⟨2, ![1, 128]⟩ ![1] hb1 b))) := by
  funext i
  obtain ⟨p, q, rfl⟩ : ∃ (p : Fin 100000) (q : Fin 128), i = ix2 p q := ⟨i 0, i 1, eq_ix2 i⟩
  show Ideal.tanh (a (ix2 p q) + shapeCast ⟨2, ![1, 128]⟩ b hc (ix2 (0 : Fin 1) q))
    = Ideal.tanh (a (ix2 p q)
        + broadcastInDim ⟨2, ![100000, 128]⟩ ![0, 1] hb2 (broadcastInDim ⟨2, ![1, 128]⟩ ![1] hb1 b) (ix2 p q))
  rw [row_of_vec b hc hb1 hb2 p q]

/-- Scaling and un-padding: the first 1700000 rows of the extended matrix times the extended column
    are the rows of the matrix times the vector set as a column and spread along the rows. -/
theorem slice_scaled_pad (g : (⟨2, ![1700000, 128]⟩ : Shape).Idx → EReal) (n : (⟨1, ![1700000]⟩ : Shape).Idx → EReal)
    {u u' : Shape} (z : u.Idx → EReal) (z' : u'.Idx → EReal)
    (hp : (⟨2, ![1700000, 128]⟩ : Shape).Pads (![0, 0] : Fin 2 → ℕ) ![3936, 0] ![0, 0] ⟨2, ![1703936, 128]⟩)
    (hu : 0 < u.numel)
    (hp' : (⟨1, ![1700000]⟩ : Shape).Pads (![0] : Fin 1 → ℕ) ![3936] ![0] ⟨1, ![1703936]⟩) (hu' : 0 < u'.numel)
    (hc : (⟨1, ![1703936]⟩ : Shape).ShapeCasts ⟨2, ![1703936, 1]⟩)
    (hs : (⟨2, ![1703936, 128]⟩ : Shape).Slices ![0, 0] ⟨2, ![1700000, 128]⟩)
    (hb1 : (⟨1, ![1700000]⟩ : Shape).BroadcastsInDim ⟨2, ![1700000, 1]⟩ ![0])
    (hb2 : (⟨2, ![1700000, 1]⟩ : Shape).BroadcastsInDim ⟨2, ![1700000, 128]⟩ ![0, 1]) :
    extractStridedSlice ⟨2, ![1700000, 128]⟩ ![0, 0]
        (fun i : (⟨2, ![1703936, 128]⟩ : Shape).Idx =>
          pad ⟨2, ![1703936, 128]⟩ ![0, 0] ![3936, 0] ![0, 0] g z hp hu i
            * shapeCast ⟨2, ![1703936, 1]⟩ (pad ⟨1, ![1703936]⟩ ![0] ![3936] ![0] n z' hp' hu') hc
                (ix2 (⟨(i 0).val, (i 0).isLt⟩ : Fin 1703936) (0 : Fin 1))) hs
      = mulf (F := Ideal) (φ := .f32) g
          (broadcastInDim ⟨2, ![1700000, 128]⟩ ![0, 1] hb2 (broadcastInDim ⟨2, ![1700000, 1]⟩ ![0] hb1 n)) := by
  funext i
  obtain ⟨e, q, rfl⟩ : ∃ (e : Fin 1700000) (q : Fin 128), i = ix2 e q := ⟨i 0, i 1, eq_ix2 i⟩
  have he : e.val < 1703936 := by have := e.isLt; omega
  refine (slice2_axis0_apply 0 _ hs e q (⟨e.val, he⟩ : Fin 1703936) (Nat.zero_add _).symm).trans ?_
  show pad ⟨2, ![1703936, 128]⟩ ![0, 0] ![3936, 0] ![0, 0] g z hp hu (ix2 (⟨e.val, he⟩ : Fin 1703936) q)
      * shapeCast ⟨2, ![1703936, 1]⟩ (pad ⟨1, ![1703936]⟩ ![0] ![3936] ![0] n z' hp' hu') hc
          (ix2 (⟨e.val, he⟩ : Fin 1703936) (0 : Fin 1))
    = g (ix2 e q)
      * broadcastInDim ⟨2, ![1700000, 128]⟩ ![0, 1] hb2 (broadcastInDim ⟨2, ![1700000, 1]⟩ ![0] hb1 n) (ix2 e q)
  rw [pad_bottom_rows_apply 3936 g z hp hu e ⟨e.val, he⟩ q rfl,
    Cert.Lib.Keepdims.shapeCast_a_a1_apply _ hc ⟨e.val, he⟩ (0 : Fin 1),
    Cert.Lib.PadSlice.pad_end_vec_apply 3936 n z' hp' hu' e ⟨e.val, he⟩ rfl,
    Cert.Lib.InDim.col_spread _ hb2 e q, Cert.Lib.InDim.vec_as_col n hb1 e (0 : Fin 1)]

end Cert.Hand.Glue

end
-- ==== Proof.Keep.lean ====
/-
  Buffers that stretches of the program leave alone.

  The program's run is a fold of the buffer contents through 21 segments: host stretches, each a list of
  operations that write their result buffers and nothing else, and regions, each of which rewrites its own windows'
  arrays and nothing else. A buffer that no operation of a host stretch writes, and that is no window of a region,
  holds after the segment what it held before. The equations below chain that one fact, segment by segment, for the
  buffers and the stretches the value argument needs: an intermediate result between the segment that wrote it and
  the one that reads it, and an argument from the launch to the segment that reads it.
-/
import proofs.«131329_j25494925869657_1_alg».proof.Proof.Gen.KernelIdeal.Frame
import Idealize.ShloMosaic.PureOps.Ideal

noncomputable section

namespace Cert.KernelIdeal.Keep

open Cert.KernelIdeal Cert.KernelIdeal.Gen Idealize.ShloMosaic Idealize.ShloMosaic.TcCoe Idealize.SL.Sem

/-- A host stretch leaves a buffer alone when none of its operations writes it: the stretch's operations are
    listed, each one's written buffers are read off, and the buffer differs from every one of them. -/
local macro "host_keep " ops:ident buf:ident : term =>
  `(StableHlo.after_of_forall_not_mem (b := Proc.devRef .tc $buf) _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

variable (m : (ℓ : Loc nD τ sig) → Buf (Elt Ideal) ℓ) (ρ : Dev nD → PrngReg) (c : Dev nD)

/-- Region 0 does not touch `%5`. -/
theorem v5_2 : W2 m ρ c (Proc.devRef .tc main_v5) = W1 m ρ c (Proc.devRef .tc main_v5) :=
  calc W2 m ρ c (Proc.devRef .tc main_v5)
    _ = W1 m ρ c (Proc.devRef .tc main_v5) := W2_of_ne m ρ c main_v5 (by decide)

/-- Nor do the five host stretches after it, nor region 1. -/
theorem v5_8 : W8 m ρ c (Proc.devRef .tc main_v5) = W1 m ρ c (Proc.devRef .tc main_v5) :=
  calc W8 m ρ c (Proc.devRef .tc main_v5)
    _ = W7 m ρ c (Proc.devRef .tc main_v5) := W8_of_ne m ρ c main_v5 (by decide)
    _ = W6 m ρ c (Proc.devRef .tc main_v5) := host_keep hostOps1_4 main_v5
    _ = W5 m ρ c (Proc.devRef .tc main_v5) := host_keep hostOps1_3 main_v5
    _ = W4 m ρ c (Proc.devRef .tc main_v5) := host_keep hostOps1_2 main_v5
    _ = W3 m ρ c (Proc.devRef .tc main_v5) := host_keep hostOps1_1 main_v5
    _ = W2 m ρ c (Proc.devRef .tc main_v5) := host_keep hostOps1 main_v5
    _ = W1 m ρ c (Proc.devRef .tc main_v5) := v5_2 m ρ c

/-- Nor the next host stretch, nor regions 2 and 3: `%5` at region 3's exit is `%5` at region 0's entry. -/
theorem v5_11 : W11 m ρ c (Proc.devRef .tc main_v5) = W1 m ρ c (Proc.devRef .tc main_v5) :=
  calc W11 m ρ c (Proc.devRef .tc main_v5)
    _ = W10 m ρ c (Proc.devRef .tc main_v5) := W11_of_ne m ρ c main_v5 (by decide)
    _ = W9 m ρ c (Proc.devRef .tc main_v5) := W10_of_ne m ρ c main_v5 (by decide)
    _ = W8 m ρ c (Proc.devRef .tc main_v5) := host_keep hostOps2 main_v5
    _ = W1 m ρ c (Proc.devRef .tc main_v5) := v5_8 m ρ c

/-- `%6` is untouched from region 0's entry to region 1's exit. -/
theorem v6_8 : W8 m ρ c (Proc.devRef .tc main_v6) = W1 m ρ c (Proc.devRef .tc main_v6) :=
  calc W8 m ρ c (Proc.devRef .tc main_v6)
    _ = W7 m ρ c (Proc.devRef .tc main_v6) := W8_of_ne m ρ c main_v6 (by decide)
    _ = W6 m ρ c (Proc.devRef .tc main_v6) := host_keep hostOps1_4 main_v6
    _ = W5 m ρ c (Proc.devRef .tc main_v6) := host_keep hostOps1_3 main_v6
    _ = W4 m ρ c (Proc.devRef .tc main_v6) := host_keep hostOps1_2 main_v6
    _ = W3 m ρ c (Proc.devRef .tc main_v6) := host_keep hostOps1_1 main_v6
    _ = W2 m ρ c (Proc.devRef .tc main_v6) := host_keep hostOps1 main_v6
    _ = W1 m ρ c (Proc.devRef .tc main_v6) := W2_of_ne m ρ c main_v6 (by decide)

/-- And on to region 4's exit. -/
theorem v6_17 : W17 m ρ c (Proc.devRef .tc main_v6) = W1 m ρ c (Proc.devRef .tc main_v6) :=
  calc W17 m ρ c (Proc.devRef .tc main_v6)
    _ = W16 m ρ c (Proc.devRef .tc main_v6) := W17_of_ne m ρ c main_v6 (by decide)
    _ = W15 m ρ c (Proc.devRef .tc main_v6) := host_keep hostOps4_4 main_v6
    _ = W14 m ρ c (Proc.devRef .tc main_v6) := host_keep hostOps4_3 main_v6
    _ = W13 m ρ c (Proc.devRef .tc main_v6) := host_keep hostOps4_2 main_v6
    _ = W12 m ρ c (Proc.devRef .tc main_v6) := host_keep hostOps4_1 main_v6
    _ = W11 m ρ c (Proc.devRef .tc main_v6) := host_keep hostOps4 main_v6
    _ = W10 m ρ c (Proc.devRef .tc main_v6) := W11_of_ne m ρ c main_v6 (by decide)
    _ = W9 m ρ c (Proc.devRef .tc main_v6) := W10_of_ne m ρ c main_v6 (by decide)
    _ = W8 m ρ c (Proc.devRef .tc main_v6) := host_keep hostOps2 main_v6
    _ = W1 m ρ c (Proc.devRef .tc main_v6) := v6_8 m ρ c

/-- `%26` is untouched from region 0's entry through the third host stretch after region 0. -/
theorem v26_5 : W5 m ρ c (Proc.devRef .tc main_v26) = W1 m ρ c (Proc.devRef .tc main_v26) :=
  calc W5 m ρ c (Proc.devRef .tc main_v26)
    _ = W4 m ρ c (Proc.devRef .tc main_v26) := host_keep hostOps1_2 main_v26
    _ = W3 m ρ c (Proc.devRef .tc main_v26) := host_keep hostOps1_1 main_v26
    _ = W2 m ρ c (Proc.devRef .tc main_v26) := host_keep hostOps1 main_v26
    _ = W1 m ρ c (Proc.devRef .tc main_v26) := W2_of_ne m ρ c main_v26 (by decide)

/-- And on through the third host stretch after region 3. -/
theorem v26_14 : W14 m ρ c (Proc.devRef .tc main_v26) = W1 m ρ c (Proc.devRef .tc main_v26) :=
  calc W14 m ρ c (Proc.devRef .tc main_v26)
    _ = W13 m ρ c (Proc.devRef .tc main_v26) := host_keep hostOps4_2 main_v26
    _ = W12 m ρ c (Proc.devRef .tc main_v26) := host_keep hostOps4_1 main_v26
    _ = W11 m ρ c (Proc.devRef .tc main_v26) := host_keep hostOps4 main_v26
    _ = W10 m ρ c (Proc.devRef .tc main_v26) := W11_of_ne m ρ c main_v26 (by decide)
    _ = W9 m ρ c (Proc.devRef .tc main_v26) := W10_of_ne m ρ c main_v26 (by decide)
    _ = W8 m ρ c (Proc.devRef .tc main_v26) := host_keep hostOps2 main_v26
    _ = W7 m ρ c (Proc.devRef .tc main_v26) := W8_of_ne m ρ c main_v26 (by decide)
    _ = W6 m ρ c (Proc.devRef .tc main_v26) := host_keep hostOps1_4 main_v26
    _ = W5 m ρ c (Proc.devRef .tc main_v26) := host_keep hostOps1_3 main_v26
    _ = W1 m ρ c (Proc.devRef .tc main_v26) := v26_5 m ρ c

/-- `%35`, once written, is untouched by the three host stretches before region 1. -/
theorem v35_7 : W7 m ρ c (Proc.devRef .tc main_v35) = W4 m ρ c (Proc.devRef .tc main_v35) :=
  calc W7 m ρ c (Proc.devRef .tc main_v35)
    _ = W6 m ρ c (Proc.devRef .tc main_v35) := host_keep hostOps1_4 main_v35
    _ = W5 m ρ c (Proc.devRef .tc main_v35) := host_keep hostOps1_3 main_v35
    _ = W4 m ρ c (Proc.devRef .tc main_v35) := host_keep hostOps1_2 main_v35

/-- `%53`, once written, is untouched by the three host stretches before region 4. -/
theorem v53_16 : W16 m ρ c (Proc.devRef .tc main_v53) = W13 m ρ c (Proc.devRef .tc main_v53) :=
  calc W16 m ρ c (Proc.devRef .tc main_v53)
    _ = W15 m ρ c (Proc.devRef .tc main_v53) := host_keep hostOps4_4 main_v53
    _ = W14 m ρ c (Proc.devRef .tc main_v53) := host_keep hostOps4_3 main_v53
    _ = W13 m ρ c (Proc.devRef .tc main_v53) := host_keep hostOps4_2 main_v53

/-- The host stretch after region 5 does not touch `%62`. -/
theorem v62_20 : W20 m ρ c (Proc.devRef .tc main_v62) = W19 m ρ c (Proc.devRef .tc main_v62) :=
  calc W20 m ρ c (Proc.devRef .tc main_v62)
    _ = W19 m ρ c (Proc.devRef .tc main_v62) := host_keep hostOps6 main_v62

/-- Argument 0 at region 0's entry is as launched. -/
theorem arg0_1 : W1 m ρ c (Proc.devRef .tc main_arg0) = m ((c : Thread nD τ).loc main_arg0) :=
  calc W1 m ρ c (Proc.devRef .tc main_arg0)
    _ = W0 m ρ c (Proc.devRef .tc main_arg0) := host_keep hostOps0 main_arg0
    _ = m ((c : Thread nD τ).loc main_arg0) := rfl

/-- Argument 2 at region 0's entry is as launched. -/
theorem arg2_1 : W1 m ρ c (Proc.devRef .tc main_arg2) = m ((c : Thread nD τ).loc main_arg2) :=
  calc W1 m ρ c (Proc.devRef .tc main_arg2)
    _ = W0 m ρ c (Proc.devRef .tc main_arg2) := host_keep hostOps0 main_arg2
    _ = m ((c : Thread nD τ).loc main_arg2) := rfl

/-- Argument 3 at region 1's exit is as launched. -/
theorem arg3_8 : W8 m ρ c (Proc.devRef .tc main_arg3) = m ((c : Thread nD τ).loc main_arg3) :=
  calc W8 m ρ c (Proc.devRef .tc main_arg3)
    _ = W7 m ρ c (Proc.devRef .tc main_arg3) := W8_of_ne m ρ c main_arg3 (by decide)
    _ = W6 m ρ c (Proc.devRef .tc main_arg3) := host_keep hostOps1_4 main_arg3
    _ = W5 m ρ c (Proc.devRef .tc main_arg3) := host_keep hostOps1_3 main_arg3
    _ = W4 m ρ c (Proc.devRef .tc main_arg3) := host_keep hostOps1_2 main_arg3
    _ = W3 m ρ c (Proc.devRef .tc main_arg3) := host_keep hostOps1_1 main_arg3
    _ = W2 m ρ c (Proc.devRef .tc main_arg3) := host_keep hostOps1 main_arg3
    _ = W1 m ρ c (Proc.devRef .tc main_arg3) := W2_of_ne m ρ c main_arg3 (by decide)
    _ = W0 m ρ c (Proc.devRef .tc main_arg3) := host_keep hostOps0 main_arg3
    _ = m ((c : Thread nD τ).loc main_arg3) := rfl

/-- Argument 4 at region 2's exit is as launched. -/
theorem arg4_10 : W10 m ρ c (Proc.devRef .tc main_arg4) = m ((c : Thread nD τ).loc main_arg4) :=
  calc W10 m ρ c (Proc.devRef .tc main_arg4)
    _ = W9 m ρ c (Proc.devRef .tc main_arg4) := W10_of_ne m ρ c main_arg4 (by decide)
    _ = W8 m ρ c (Proc.devRef .tc main_arg4) := host_keep hostOps2 main_arg4
    _ = W7 m ρ c (Proc.devRef .tc main_arg4) := W8_of_ne m ρ c main_arg4 (by decide)
    _ = W6 m ρ c (Proc.devRef .tc main_arg4) := host_keep hostOps1_4 main_arg4
    _ = W5 m ρ c (Proc.devRef .tc main_arg4) := host_keep hostOps1_3 main_arg4
    _ = W4 m ρ c (Proc.devRef .tc main_arg4) := host_keep hostOps1_2 main_arg4
    _ = W3 m ρ c (Proc.devRef .tc main_arg4) := host_keep hostOps1_1 main_arg4
    _ = W2 m ρ c (Proc.devRef .tc main_arg4) := host_keep hostOps1 main_arg4
    _ = W1 m ρ c (Proc.devRef .tc main_arg4) := W2_of_ne m ρ c main_arg4 (by decide)
    _ = W0 m ρ c (Proc.devRef .tc main_arg4) := host_keep hostOps0 main_arg4
    _ = m ((c : Thread nD τ).loc main_arg4) := rfl

/-- Argument 5 at region 4's exit is as launched. -/
theorem arg5_17 : W17 m ρ c (Proc.devRef .tc main_arg5) = m ((c : Thread nD τ).loc main_arg5) :=
  calc W17 m ρ c (Proc.devRef .tc main_arg5)
    _ = W16 m ρ c (Proc.devRef .tc main_arg5) := W17_of_ne m ρ c main_arg5 (by decide)
    _ = W15 m ρ c (Proc.devRef .tc main_arg5) := host_keep hostOps4_4 main_arg5
    _ = W14 m ρ c (Proc.devRef .tc main_arg5) := host_keep hostOps4_3 main_arg5
    _ = W13 m ρ c (Proc.devRef .tc main_arg5) := host_keep hostOps4_2 main_arg5
    _ = W12 m ρ c (Proc.devRef .tc main_arg5) := host_keep hostOps4_1 main_arg5
    _ = W11 m ρ c (Proc.devRef .tc main_arg5) := host_keep hostOps4 main_arg5
    _ = W10 m ρ c (Proc.devRef .tc main_arg5) := W11_of_ne m ρ c main_arg5 (by decide)
    _ = W9 m ρ c (Proc.devRef .tc main_arg5) := W10_of_ne m ρ c main_arg5 (by decide)
    _ = W8 m ρ c (Proc.devRef .tc main_arg5) := host_keep hostOps2 main_arg5
    _ = W7 m ρ c (Proc.devRef .tc main_arg5) := W8_of_ne m ρ c main_arg5 (by decide)
    _ = W6 m ρ c (Proc.devRef .tc main_arg5) := host_keep hostOps1_4 main_arg5
    _ = W5 m ρ c (Proc.devRef .tc main_arg5) := host_keep hostOps1_3 main_arg5
    _ = W4 m ρ c (Proc.devRef .tc main_arg5) := host_keep hostOps1_2 main_arg5
    _ = W3 m ρ c (Proc.devRef .tc main_arg5) := host_keep hostOps1_1 main_arg5
    _ = W2 m ρ c (Proc.devRef .tc main_arg5) := host_keep hostOps1 main_arg5
    _ = W1 m ρ c (Proc.devRef .tc main_arg5) := W2_of_ne m ρ c main_arg5 (by decide)
    _ = W0 m ρ c (Proc.devRef .tc main_arg5) := host_keep hostOps0 main_arg5
    _ = m ((c : Thread nD τ).loc main_arg5) := rfl

/-- Argument 6 after the host stretch that follows region 5 is as launched. -/
theorem arg6_20 : W20 m ρ c (Proc.devRef .tc main_arg6) = m ((c : Thread nD τ).loc main_arg6) :=
  calc W20 m ρ c (Proc.devRef .tc main_arg6)
    _ = W19 m ρ c (Proc.devRef .tc main_arg6) := host_keep hostOps6 main_arg6
    _ = W18 m ρ c (Proc.devRef .tc main_arg6) := W19_of_ne m ρ c main_arg6 (by decide)
    _ = W17 m ρ c (Proc.devRef .tc main_arg6) := host_keep hostOps5 main_arg6
    _ = W16 m ρ c (Proc.devRef .tc main_arg6) := W17_of_ne m ρ c main_arg6 (by decide)
    _ = W15 m ρ c (Proc.devRef .tc main_arg6) := host_keep hostOps4_4 main_arg6
    _ = W14 m ρ c (Proc.devRef .tc main_arg6) := host_keep hostOps4_3 main_arg6
    _ = W13 m ρ c (Proc.devRef .tc main_arg6) := host_keep hostOps4_2 main_arg6
    _ = W12 m ρ c (Proc.devRef .tc main_arg6) := host_keep hostOps4_1 main_arg6
    _ = W11 m ρ c (Proc.devRef .tc main_arg6) := host_keep hostOps4 main_arg6
    _ = W10 m ρ c (Proc.devRef .tc main_arg6) := W11_of_ne m ρ c main_arg6 (by decide)
    _ = W9 m ρ c (Proc.devRef .tc main_arg6) := W10_of_ne m ρ c main_arg6 (by decide)
    _ = W8 m ρ c (Proc.devRef .tc main_arg6) := host_keep hostOps2 main_arg6
    _ = W7 m ρ c (Proc.devRef .tc main_arg6) := W8_of_ne m ρ c main_arg6 (by decide)
    _ = W6 m ρ c (Proc.devRef .tc main_arg6) := host_keep hostOps1_4 main_arg6
    _ = W5 m ρ c (Proc.devRef .tc main_arg6) := host_keep hostOps1_3 main_arg6
    _ = W4 m ρ c (Proc.devRef .tc main_arg6) := host_keep hostOps1_2 main_arg6
    _ = W3 m ρ c (Proc.devRef .tc main_arg6) := host_keep hostOps1_1 main_arg6
    _ = W2 m ρ c (Proc.devRef .tc main_arg6) := host_keep hostOps1 main_arg6
    _ = W1 m ρ c (Proc.devRef .tc main_arg6) := W2_of_ne m ρ c main_arg6 (by decide)
    _ = W0 m ρ c (Proc.devRef .tc main_arg6) := host_keep hostOps0 main_arg6
    _ = m ((c : Thread nD τ).loc main_arg6) := rfl

/-- Argument 7 at region 5's exit is as launched. -/
theorem arg7_19 : W19 m ρ c (Proc.devRef .tc main_arg7) = m ((c : Thread nD τ).loc main_arg7) :=
  calc W19 m ρ c (Proc.devRef .tc main_arg7)
    _ = W18 m ρ c (Proc.devRef .tc main_arg7) := W19_of_ne m ρ c main_arg7 (by decide)
    _ = W17 m ρ c (Proc.devRef .tc main_arg7) := host_keep hostOps5 main_arg7
    _ = W16 m ρ c (Proc.devRef .tc main_arg7) := W17_of_ne m ρ c main_arg7 (by decide)
    _ = W15 m ρ c (Proc.devRef .tc main_arg7) := host_keep hostOps4_4 main_arg7
    _ = W14 m ρ c (Proc.devRef .tc main_arg7) := host_keep hostOps4_3 main_arg7
    _ = W13 m ρ c (Proc.devRef .tc main_arg7) := host_keep hostOps4_2 main_arg7
    _ = W12 m ρ c (Proc.devRef .tc main_arg7) := host_keep hostOps4_1 main_arg7
    _ = W11 m ρ c (Proc.devRef .tc main_arg7) := host_keep hostOps4 main_arg7
    _ = W10 m ρ c (Proc.devRef .tc main_arg7) := W11_of_ne m ρ c main_arg7 (by decide)
    _ = W9 m ρ c (Proc.devRef .tc main_arg7) := W10_of_ne m ρ c main_arg7 (by decide)
    _ = W8 m ρ c (Proc.devRef .tc main_arg7) := host_keep hostOps2 main_arg7
    _ = W7 m ρ c (Proc.devRef .tc main_arg7) := W8_of_ne m ρ c main_arg7 (by decide)
    _ = W6 m ρ c (Proc.devRef .tc main_arg7) := host_keep hostOps1_4 main_arg7
    _ = W5 m ρ c (Proc.devRef .tc main_arg7) := host_keep hostOps1_3 main_arg7
    _ = W4 m ρ c (Proc.devRef .tc main_arg7) := host_keep hostOps1_2 main_arg7
    _ = W3 m ρ c (Proc.devRef .tc main_arg7) := host_keep hostOps1_1 main_arg7
    _ = W2 m ρ c (Proc.devRef .tc main_arg7) := host_keep hostOps1 main_arg7
    _ = W1 m ρ c (Proc.devRef .tc main_arg7) := W2_of_ne m ρ c main_arg7 (by decide)
    _ = W0 m ρ c (Proc.devRef .tc main_arg7) := host_keep hostOps0 main_arg7
    _ = m ((c : Thread nD τ).loc main_arg7) := rfl

end Cert.KernelIdeal.Keep

end
-- ==== Proof.ChainA.lean ====
/-
  The idealized kernel's buffer contents, followed through its segments up to the first layer's output.
  Each stage is stated against the reference's own stage of the same name-free value: the edge lists with their
  self loops, the symmetric normalisation, the first product x · W1, its gathered rows, the scaled messages summed
  into their destination rows, and tanh of that sum plus the bias.  Host operations the two programs share are never
  opened: they are applied to equal operands.  Where the kernel differs — a product computed 2000 rows at a time, the
  messages scaled in zero-padded blocks of 8192 rows and sliced back, the bias added from a one-row block — the
  region lemmas and the layout lemmas say the array is the same.
-/
import proofs.«131329_j25494925869657_1_alg».proof.Proof.Gen.KernelIdeal.Frame
import proofs.«131329_j25494925869657_1_alg».proof.Proof.RefReadP
import proofs.«131329_j25494925869657_1_alg».proof.Proof.RegionDot
import proofs.«131329_j25494925869657_1_alg».proof.Proof.RegionScale
import proofs.«131329_j25494925869657_1_alg».proof.Proof.RegionBiasTanh
import proofs.«131329_j25494925869657_1_alg».proof.Proof.GlueLayouts
import proofs.«131329_j25494925869657_1_alg».proof.Proof.Keep
import Idealize.ShloMosaic.Lib.StableHlo.Run

noncomputable section

namespace Cert.KernelIdeal.Chain

open Cert.KernelIdeal Cert.KernelIdeal.Gen
open Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg) (c : Dev nD)

set_option quotPrecheck false

local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)
local notation "x7" => m ((c : Thread nD τ).loc main_arg7)
local notation "D" => Proc.devRef (τ := τ) (sig := sig) Proc.tc

/-! ## After the first stretch of host operations: sources, destinations and the edge weights -/

/-- The source list with its self loops. -/
theorem s1_v5 : W1 m ρ c (D main_v5) = val_main_v5 (F := Ideal) x1 := by
  show StableHlo.after hostOps0 (W0 m ρ c) (D main_v5) = _
  dsimp only [hostOps0]
  after_results_simp
  rfl

/-- The destination list with its self loops. -/
theorem s1_v6 : W1 m ρ c (D main_v6) = val_main_v6 (F := Ideal) x1 := by
  show StableHlo.after hostOps0 (W0 m ρ c) (D main_v6) = _
  dsimp only [hostOps0]
  after_results_simp
  rfl

/-- The edge weights deg(s)^(-1/2) · deg(d)^(-1/2). -/
theorem s1_v26 : W1 m ρ c (D main_v26) = val_main_v26 (F := Ideal) x1 := by
  show StableHlo.after hostOps0 (W0 m ρ c) (D main_v26) = _
  dsimp only [hostOps0]
  after_results_simp
  rfl

/-! ## Region 0: the first product -/

theorem s2_v27 : W2 m ρ c (D main_v27) = val_main_v27 (F := Ideal) x0 x2 := by
  refine (W2_arr m ρ c 2).trans ((Cert.KernelIdeal.RegionDot.arr0 (V1 m ρ)
    Cert.ReferenceIdeal.dot_S100000x512_S512x128_S100000x128_1_0_0_1_n_n rfl c).trans ?_)
  have e0 : V1 m ρ c main_arg0 = x0 := Cert.KernelIdeal.Keep.arg0_1 m ρ c
  have e2 : V1 m ρ c main_arg2 = x2 := Cert.KernelIdeal.Keep.arg2_1 m ρ c
  rw [e0, e2]
  rfl

/-! ## The gathered rows, zero-padded to a whole number of blocks; the weights, padded and set as a column -/

/-- The gathered rows of the first product. -/
theorem s3_v34 : W3 m ρ c (D main_v34) = val_main_v34 (F := Ideal) x0 x1 x2 := by
  have h27 := s2_v27 m ρ c
  have h5 := (Cert.KernelIdeal.Keep.v5_2 m ρ c).trans (s1_v5 m ρ c)
  show StableHlo.after hostOps1 (W2 m ρ c) (D main_v34) = _
  generalize W2 m ρ c = W at h27 h5
  dsimp only [hostOps1]
  after_results
  rw [h27, h5]
  rfl

/-- The zero word the gathered rows are padded with. -/
theorem c6_3 : W3 m ρ c (D main_c_6) = (constantI S_ 32 0#32 : S_.Idx → BitVec 32) := by
  show StableHlo.after hostOps1 (W2 m ρ c) (D main_c_6) = _
  generalize W2 m ρ c = W
  dsimp only [hostOps1]
  after_results

/-- The padded gathered rows, as region 1 finds them. -/
theorem s7_v35 : W7 m ρ c (D main_v35)
    = pad S1703936x128 ![0, 0] ![3936, 0] ![0, 0] (val_main_v34 (F := Ideal) x0 x1 x2)
        (sitofp (F := Ideal) .f32 (constantI S_ 32 0#32)) pads_S1700000x128_S1703936x128_039360_000 h_S_ := by
  refine (Cert.KernelIdeal.Keep.v35_7 m ρ c).trans ?_
  have h34 := s3_v34 m ρ c
  have hc6 := c6_3 m ρ c
  show StableHlo.after hostOps1_1 (W3 m ρ c) (D main_v35) = _
  generalize W3 m ρ c = W at h34 hc6
  dsimp only [hostOps1_1]
  after_results
  rw [h34, hc6]
  rfl

/-- The zero word the weights are padded with, as the padding stretch finds it. -/
theorem c7_5 : W5 m ρ c (D main_c_7) = (constantI S_ 32 0#32 : S_.Idx → BitVec 32) := by
  show StableHlo.after hostOps1_2 (W4 m ρ c) (D main_c_7) = _
  generalize W4 m ρ c = W
  dsimp only [hostOps1_2]
  after_results

/-- The weights' padding and their setting as a column, over any contents and any weights vector. -/
theorem pad_weights (W : Valuation τ sig (Elt Ideal)) (n : S1700000.Idx → EReal) (hn : W (D main_v26) = n)
    (hz : W (D main_c_7) = (constantI S_ 32 0#32 : S_.Idx → BitVec 32)) :
    StableHlo.after hostOps1_3 W (D main_v36)
      = pad S1703936 ![0] ![3936] ![0] n (sitofp (F := Ideal) .f32 (constantI S_ 32 0#32)) pads_S1700000_S1703936_039360 h_S_ := by
  dsimp only [hostOps1_3]
  after_results
  rw [hn, hz]
  rfl

theorem column_of (W : Valuation τ sig (Elt Ideal)) (p : S1703936.Idx → EReal) (hp : W (D main_v36) = p) :
    StableHlo.after hostOps1_4 W (D main_v37) = shapeCast S1703936x1 p shapeCasts_S1703936_S1703936x1 := by
  dsimp only [hostOps1_4]
  after_results
  rw [hp]
  rfl

/-- The padded weights as a column, as region 1 finds them. -/
theorem s7_v37 : W7 m ρ c (D main_v37)
    = shapeCast S1703936x1 (pad S1703936 ![0] ![3936] ![0] (val_main_v26 (F := Ideal) x1)
        (sitofp (F := Ideal) .f32 (constantI S_ 32 0#32)) pads_S1700000_S1703936_039360 h_S_) shapeCasts_S1703936_S1703936x1 :=
  column_of (W6 m ρ c) _ (pad_weights (W5 m ρ c) _ ((Cert.KernelIdeal.Keep.v26_5 m ρ c).trans (s1_v26 m ρ c)) (c7_5 m ρ c))

/-! ## Region 1 and the stretch after it: the scaled messages, summed into their destination rows -/

/-- What region 1 leaves: every padded row times its column entry. -/
theorem s8_v38 : W8 m ρ c (D main_v38)
    = Cert.KernelIdeal.RegionScale.scaled
        (pad S1703936x128 ![0, 0] ![3936, 0] ![0, 0] (val_main_v34 (F := Ideal) x0 x1 x2)
          (sitofp (F := Ideal) .f32 (constantI S_ 32 0#32)) pads_S1700000x128_S1703936x128_039360_000 h_S_)
        (shapeCast S1703936x1 (pad S1703936 ![0] ![3936] ![0] (val_main_v26 (F := Ideal) x1)
          (sitofp (F := Ideal) .f32 (constantI S_ 32 0#32)) pads_S1700000_S1703936_039360 h_S_) shapeCasts_S1703936_S1703936x1) := by
  refine (W8_arr m ρ c 2).trans ((Cert.KernelIdeal.RegionScale.arr1 (V7 m ρ) c).trans ?_)
  have e35 : V7 m ρ c main_v35 = _ := s7_v35 m ρ c
  have e37 : V7 m ρ c main_v37 = _ := s7_v37 m ρ c
  rw [e35, e37]

/-- The aggregated first layer before its bias: the reference's scatter-add of the scaled gathered rows. -/
theorem s9_v42 : W9 m ρ c (D main_v42) = val_main_v40 (F := Ideal) x0 x1 x2 := by
  have h38 := s8_v38 m ρ c
  have h6 := (Cert.KernelIdeal.Keep.v6_8 m ρ c).trans (s1_v6 m ρ c)
  show StableHlo.after hostOps2 (W8 m ρ c) (D main_v42) = _
  generalize W8 m ρ c = W at h38 h6
  dsimp only [hostOps2]
  after_results
  rw [h38, h6]
  unfold Cert.KernelIdeal.RegionScale.scaled
  rw [Cert.Hand.Glue.slice_scaled_pad (val_main_v34 (F := Ideal) x0 x1 x2) (val_main_v26 (F := Ideal) x1) _ _
    pads_S1700000x128_S1703936x128_039360_000 h_S_ pads_S1700000_S1703936_039360 h_S_ shapeCasts_S1703936_S1703936x1
    slices_S1703936x128_S1700000x128_0_0 Cert.ReferenceIdeal.Gen.bcast_S1700000_S1700000x1_0 Cert.ReferenceIdeal.Gen.bcast_S1700000x1_S1700000x128_0_1]
  rfl

/-- The first bias as a one-row block. -/
theorem s9_v43 : W9 m ρ c (D main_v43) = shapeCast S1x128 (x3 : S128.Idx → EReal) shapeCasts_S128_S1x128 := by
  have h3 := Cert.KernelIdeal.Keep.arg3_8 m ρ c
  show StableHlo.after hostOps2 (W8 m ρ c) (D main_v43) = _
  generalize W8 m ρ c = W at h3
  dsimp only [hostOps2]
  after_results
  rw [h3]
  rfl

/-! ## Region 2: the first layer's output -/

theorem s10_v44 : W10 m ρ c (D main_v44) = val_main_v44 (F := Ideal) x0 x1 x2 x3 := by
  refine (W10_arr m ρ c 2).trans ((Cert.KernelIdeal.RegionBiasTanh.arr2 (V9 m ρ) c).trans ?_)
  have e42 : V9 m ρ c main_v42 = _ := s9_v42 m ρ c
  have e43 : V9 m ρ c main_v43 = _ := s9_v43 m ρ c
  rw [e42, e43]
  unfold Cert.KernelIdeal.RegionBiasTanh.biasTanh
  exact (Cert.Hand.Glue.biasTanh_host (val_main_v40 (F := Ideal) x0 x1 x2) x3 shapeCasts_S128_S1x128
    Cert.ReferenceIdeal.Gen.bcast_S128_S1x128_1 Cert.ReferenceIdeal.Gen.bcast_S1x128_S100000x128_0_1).trans rfl

end Cert.KernelIdeal.Chain

end
-- ==== Proof.ChainB.lean ====
/-
  The idealized kernel's buffer contents, followed from the first layer's output through the second layer:
  the product h · W2, its gathered rows, the scaled messages summed into their destination rows, tanh of that sum
  plus the second bias.  The reference recomputes the edge lists and the edge weights for its second layer; they
  are the same operations of the same argument, so the same arrays.
-/
import proofs.«131329_j25494925869657_1_alg».proof.Proof.ChainA

noncomputable section

namespace Cert.KernelIdeal.Chain

open Cert.KernelIdeal Cert.KernelIdeal.Gen
open Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg) (c : Dev nD)

set_option quotPrecheck false

local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)
local notation "x7" => m ((c : Thread nD τ).loc main_arg7)
local notation "D" => Proc.devRef (τ := τ) (sig := sig) Proc.tc

/-! ## The reference's second copy of the edge data is its first -/

theorem v46_eq : val_main_v46 (F := Ideal) x1 = val_main_v5 (F := Ideal) x1 := rfl
theorem v47_eq : val_main_v47 (F := Ideal) x1 = val_main_v6 (F := Ideal) x1 := rfl
theorem v67_eq : val_main_v67 (F := Ideal) x1 = val_main_v26 (F := Ideal) x1 := by
  unfold val_main_v67 val_main_v26 val_main_v59 val_main_v66 val_main_v18 val_main_v25
  rfl

/-! ## Region 3: the second product -/

theorem s11_v45 : W11 m ρ c (D main_v45) = val_main_v68 (F := Ideal) x0 x1 x2 x3 x4 := by
  refine (W11_arr m ρ c 2).trans ((Cert.KernelIdeal.RegionDot.arr3 (V10 m ρ)
    Cert.ReferenceIdeal.dot_S100000x128_S128x128_S100000x128_1_0_0_1_n_n rfl c).trans ?_)
  have e44 : V10 m ρ c main_v44 = _ := s10_v44 m ρ c
  have e4 : V10 m ρ c main_arg4 = x4 := Cert.KernelIdeal.Keep.arg4_10 m ρ c
  rw [e44, e4]
  rfl

/-! ## The gathered rows and the weights, padded, as region 4 finds them -/

/-- The gathered rows of the second product. -/
theorem s12_v52 : W12 m ρ c (D main_v52) = val_main_v75 (F := Ideal) x0 x1 x2 x3 x4 := by
  have h45 := s11_v45 m ρ c
  have h5 := ((Cert.KernelIdeal.Keep.v5_11 m ρ c).trans (s1_v5 m ρ c)).trans (v46_eq m c).symm
  show StableHlo.after hostOps4 (W11 m ρ c) (D main_v52) = _
  generalize W11 m ρ c = W at h45 h5
  dsimp only [hostOps4]
  after_results
  rw [h45, h5]
  rfl

/-- The zero word the gathered rows are padded with. -/
theorem c11_12 : W12 m ρ c (D main_c_11) = (constantI S_ 32 0#32 : S_.Idx → BitVec 32) := by
  show StableHlo.after hostOps4 (W11 m ρ c) (D main_c_11) = _
  generalize W11 m ρ c = W
  dsimp only [hostOps4]
  after_results

/-- The gathered rows' zero-padding, over any contents and any rows. -/
theorem pad_rows2 (W : Valuation τ sig (Elt Ideal)) (g : S1700000x128.Idx → EReal) (hg : W (D main_v52) = g)
    (hz : W (D main_c_11) = (constantI S_ 32 0#32 : S_.Idx → BitVec 32)) :
    StableHlo.after hostOps4_1 W (D main_v53)
      = pad S1703936x128 ![0, 0] ![3936, 0] ![0, 0] g (sitofp (F := Ideal) .f32 (constantI S_ 32 0#32))
          pads_S1700000x128_S1703936x128_039360_000 h_S_ := by
  dsimp only [hostOps4_1]
  after_results
  rw [hg, hz]
  rfl

theorem s16_v53 : W16 m ρ c (D main_v53)
    = pad S1703936x128 ![0, 0] ![3936, 0] ![0, 0] (val_main_v75 (F := Ideal) x0 x1 x2 x3 x4)
        (sitofp (F := Ideal) .f32 (constantI S_ 32 0#32)) pads_S1700000x128_S1703936x128_039360_000 h_S_ :=
  (Cert.KernelIdeal.Keep.v53_16 m ρ c).trans (pad_rows2 (W12 m ρ c) _ (s12_v52 m ρ c) (c11_12 m ρ c))

/-- The zero word the weights are padded with, as the second padding stretch finds it. -/
theorem c12_14 : W14 m ρ c (D main_c_12) = (constantI S_ 32 0#32 : S_.Idx → BitVec 32) := by
  show StableHlo.after hostOps4_2 (W13 m ρ c) (D main_c_12) = _
  generalize W13 m ρ c = W
  dsimp only [hostOps4_2]
  after_results

theorem pad_weights2 (W : Valuation τ sig (Elt Ideal)) (n : S1700000.Idx → EReal) (hn : W (D main_v26) = n)
    (hz : W (D main_c_12) = (constantI S_ 32 0#32 : S_.Idx → BitVec 32)) :
    StableHlo.after hostOps4_3 W (D main_v54)
      = pad S1703936 ![0] ![3936] ![0] n (sitofp (F := Ideal) .f32 (constantI S_ 32 0#32)) pads_S1700000_S1703936_039360 h_S_ := by
  dsimp only [hostOps4_3]
  after_results
  rw [hn, hz]
  rfl

theorem column_of2 (W : Valuation τ sig (Elt Ideal)) (p : S1703936.Idx → EReal) (hp : W (D main_v54) = p) :
    StableHlo.after hostOps4_4 W (D main_v55) = shapeCast S1703936x1 p shapeCasts_S1703936_S1703936x1 := by
  dsimp only [hostOps4_4]
  after_results
  rw [hp]
  rfl

theorem s16_v55 : W16 m ρ c (D main_v55)
    = shapeCast S1703936x1 (pad S1703936 ![0] ![3936] ![0] (val_main_v67 (F := Ideal) x1)
        (sitofp (F := Ideal) .f32 (constantI S_ 32 0#32)) pads_S1700000_S1703936_039360 h_S_) shapeCasts_S1703936_S1703936x1 :=
  column_of2 (W15 m ρ c) _ (pad_weights2 (W14 m ρ c) _
    (((Cert.KernelIdeal.Keep.v26_14 m ρ c).trans (s1_v26 m ρ c)).trans (v67_eq m c).symm) (c12_14 m ρ c))

/-! ## Region 4 and the stretch after it -/

theorem s17_v56 : W17 m ρ c (D main_v56)
    = Cert.KernelIdeal.RegionScale.scaled
        (pad S1703936x128 ![0, 0] ![3936, 0] ![0, 0] (val_main_v75 (F := Ideal) x0 x1 x2 x3 x4)
          (sitofp (F := Ideal) .f32 (constantI S_ 32 0#32)) pads_S1700000x128_S1703936x128_039360_000 h_S_)
        (shapeCast S1703936x1 (pad S1703936 ![0] ![3936] ![0] (val_main_v67 (F := Ideal) x1)
          (sitofp (F := Ideal) .f32 (constantI S_ 32 0#32)) pads_S1700000_S1703936_039360 h_S_) shapeCasts_S1703936_S1703936x1) := by
  refine (W17_arr m ρ c 2).trans ((Cert.KernelIdeal.RegionScale.arr4 (V16 m ρ) c).trans ?_)
  have e53 : V16 m ρ c main_v53 = _ := s16_v53 m ρ c
  have e55 : V16 m ρ c main_v55 = _ := s16_v55 m ρ c
  rw [e53, e55]

theorem s18_v60 : W18 m ρ c (D main_v60) = val_main_v81 (F := Ideal) x0 x1 x2 x3 x4 := by
  have h56 := s17_v56 m ρ c
  have h6 := ((Cert.KernelIdeal.Keep.v6_17 m ρ c).trans (s1_v6 m ρ c)).trans (v47_eq m c).symm
  show StableHlo.after hostOps5 (W17 m ρ c) (D main_v60) = _
  generalize W17 m ρ c = W at h56 h6
  dsimp only [hostOps5]
  after_results
  rw [h56, h6]
  unfold Cert.KernelIdeal.RegionScale.scaled
  rw [Cert.Hand.Glue.slice_scaled_pad (val_main_v75 (F := Ideal) x0 x1 x2 x3 x4) (val_main_v67 (F := Ideal) x1) _ _
    pads_S1700000x128_S1703936x128_039360_000 h_S_ pads_S1700000_S1703936_039360 h_S_ shapeCasts_S1703936_S1703936x1
    slices_S1703936x128_S1700000x128_0_0 Cert.ReferenceIdeal.Gen.bcast_S1700000_S1700000x1_0 Cert.ReferenceIdeal.Gen.bcast_S1700000x1_S1700000x128_0_1]
  rfl

theorem s18_v61 : W18 m ρ c (D main_v61) = shapeCast S1x128 (x5 : S128.Idx → EReal) shapeCasts_S128_S1x128 := by
  have h5 := Cert.KernelIdeal.Keep.arg5_17 m ρ c
  show StableHlo.after hostOps5 (W17 m ρ c) (D main_v61) = _
  generalize W17 m ρ c = W at h5
  dsimp only [hostOps5]
  after_results
  rw [h5]
  rfl

/-! ## Region 5: the second layer's output -/

theorem s19_v62 : W19 m ρ c (D main_v62) = val_main_v85 (F := Ideal) x0 x1 x2 x3 x4 x5 := by
  refine (W19_arr m ρ c 2).trans ((Cert.KernelIdeal.RegionBiasTanh.arr5 (V18 m ρ) c).trans ?_)
  have e60 : V18 m ρ c main_v60 = _ := s18_v60 m ρ c
  have e61 : V18 m ρ c main_v61 = _ := s18_v61 m ρ c
  rw [e60, e61]
  unfold Cert.KernelIdeal.RegionBiasTanh.biasTanh
  exact (Cert.Hand.Glue.biasTanh_host (val_main_v81 (F := Ideal) x0 x1 x2 x3 x4) x5 shapeCasts_S128_S1x128
    Cert.ReferenceIdeal.Gen.bcast_S128_S1x128_1 Cert.ReferenceIdeal.Gen.bcast_S1x128_S100000x128_0_1).trans rfl

end Cert.KernelIdeal.Chain

end
-- ==== Proof.LibRowMax.lean ====
/-
  A row maximum read at an index.

  A maximum over the last axis of an [a, b] array, read on the extended reals at row `p`, is the fold of `max`, from
  the value of the accumulator's pattern, over the `b` entries of that row: the reduced index with the dropped
  coordinate put back is `(p, k)`. With the accumulator at the pattern of −∞ — the least extended real, so that a
  maximum against it is the other argument (`max_negInf_f32`) — this is the row's maximum, as a softmax subtracts it.
  The lemmas hold for every extent.
-/
import Idealize.ShloMosaic.Lib.ValueIdx
import Idealize.ShloMosaic.PureOps.Ideal.Laws

noncomputable section

namespace Cert.Lib.RowMax

open Idealize.ShloMosaic Idealize.ShloMosaic.ValueIdx

/-- Over the extended reals the maximum of an [a, b] array along its last axis, read at row `p`, is the fold of
    `max` from the accumulator's value over `k < b` of the array at `(p, k)`. -/
theorem laneMax_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) :=
  (Ideal.multiReduction_maximumf_single v acc h hφ hacc (ix1 p)).trans
    (congrArg (fun f : Fin b → EReal => (Finset.univ : Finset (Fin b)).fold max (Ideal.ofBits φ acc) f)
      (funext fun k => congrArg v (funext fun d => Fin.ext (by
        match d with
        | ⟨0, _⟩ => rfl
        | ⟨1, _⟩ => rfl))))

/-- The f32 pattern of −∞ denotes the least extended real: a maximum against it is the other argument. -/
theorem max_negInf_f32 (y : EReal) : max (Ideal.ofBits .f32 0xFF800000#32) y = y := by
  simp [Ideal.ofBits, Ideal.ieee]

end Cert.Lib.RowMax

end
-- ==== Proof.SoftmaxRow.lean ====
/-
  The two spellings of the log-softmax of a row of seven extended reals.
  With M the maximum of the row taken from the float pattern of -∞:
    the kernel's        row g − ( M + log Σ_q exp(row q − M) ),
    the reference's     (row g − M′) − log( 0 + Σ_q exp(row q − M′) ),   M′ = max(−∞, M).
  They agree on rows of reals (see the law's module); on rows holding an infinity they need not.
-/
import Idealize.ShloMosaic.PureOps.Ideal

noncomputable section

namespace Cert.Hand.SoftmaxRow

open Idealize.ShloMosaic

/-- The maximum of a row of seven extended reals, taken from the float pattern of -∞. -/
def rowMax (row : Fin 7 → EReal) : EReal :=
  (Finset.univ : Finset (Fin 7)).fold max (Ideal.ofBits .f32 0xFF800000#32) row

/-- The kernel's log-softmax of a row: the entry minus (the row maximum plus the log of the sum of the shifted
    exponentials). -/
def lsKernel (row : Fin 7 → EReal) (g : Fin 7) : EReal :=
  row g - (rowMax row + Ideal.log (∑ q : Fin 7, Ideal.exp (row q - rowMax row)))

/-- The reference's log-softmax of a row: the shifted entry minus the log of the sum (from the zero word) of the
    shifted exponentials, the shift being the maximum of -∞ and the row maximum. -/
def lsRef (row : Fin 7 → EReal) (g : Fin 7) : EReal :=
  (row g - max (Ideal.ofBits .f32 0xFF800000#32) (rowMax row))
    - Ideal.log (Ideal.ofBits .f32 0x00000000#32
        + ∑ q : Fin 7, Ideal.exp (row q - max (Ideal.ofBits .f32 0xFF800000#32) (rowMax row)))

end Cert.Hand.SoftmaxRow

end
-- ==== Proof.RegionFinal.lean ====
/-
  The last region of the idealized kernel: the linear head and its log-softmax, 2000 rows per grid point.
  Read as whole arrays of the contents `V` the region finds: the first result is, at row P and class g,
      logit(P, g) = Σ_k h(P, k) · w(k, g) + b(0, g),
  and the second is, with M(P) the maximum of row P of the logits taken from -∞,
      logit(P, g) − ( M(P) + log Σ_q exp(logit(P, q) − M(P)) ).
  Both statements are generic in `V`.
-/
import proofs.«131329_j25494925869657_1_alg».proof.Proof.Gen.KernelIdeal.Frame
import proofs.«131329_j25494925869657_1_alg».proof.Proof.LibPlainDot
import proofs.«131329_j25494925869657_1_alg».proof.Proof.LibKeepdims
import proofs.«131329_j25494925869657_1_alg».proof.Proof.LibRowMax
import proofs.«131329_j25494925869657_1_alg».proof.Proof.SoftmaxRow
import Idealize.ShloMosaic.Lib.Pipeline.Value
import Idealize.ShloMosaic.Lib.ValueIdx
import Idealize.ShloMosaic.Lib.ValueLayout

noncomputable section

namespace Cert.KernelIdeal.RegionFinal

open Cert.KernelIdeal Cert.KernelIdeal.Gen
open Idealize.ShloMosaic Idealize.ShloMosaic.TcCoe Idealize.SL.Sem Idealize.ShloMosaic.ValueIdx
open Idealize.ShloMosaic.Pipeline (Dat)
open Cert.Hand.SoftmaxRow

theorem hz : (![0, 0] : Fin 2 → Nat) = fun _ => 0 := funext fun a => by fin_cases a <;> rfl

/-! ## The two results as functions of a row -/

/-- The logit of row `P`, class `g`: the row of hidden features against column `g` of the head, plus the bias. -/
def logit {M : ℕ} (h : (⟨2, ![M, 128]⟩ : Shape).Idx → EReal) (w : (⟨2, ![128, 7]⟩ : Shape).Idx → EReal)
    (b : (⟨2, ![1, 7]⟩ : Shape).Idx → EReal) (P : Fin M) (g : Fin 7) : EReal :=
  (∑ k : Fin 128, h (ix2 P k) * w (ix2 k g)) + b (ix2 (0 : Fin 1) g)

/-- The first result array: the logits. -/
def logitsArr (h : S100000x128.Idx → EReal) (w : S128x7.Idx → EReal) (b : S1x7.Idx → EReal) : S100000x7.Idx → EReal :=
  fun i => logit h w b (⟨(i 0).val, (i 0).isLt⟩ : Fin 100000) (⟨(i 1).val, (i 1).isLt⟩ : Fin 7)

/-- The second result array: the kernel's log-softmax of each row of logits. -/
def logpArr (h : S100000x128.Idx → EReal) (w : S128x7.Idx → EReal) (b : S1x7.Idx → EReal) : S100000x7.Idx → EReal :=
  fun i => lsKernel (fun q => logit h w b (⟨(i 0).val, (i 0).isLt⟩ : Fin 100000) q) (⟨(i 1).val, (i 1).isLt⟩ : Fin 7)

/-! ## The body's two stored values at an entry of the block -/

/-- The stored logits at `(p, g)` of the block: the product into the zero accumulator is the finite sum, the bias
    row is broadcast down the rows, and rounding the operands first is the identity on the extended reals. -/
theorem pay1_apply (x0 : FVec Ideal S2000x128 .f32) (x1 : FVec Ideal S128x7 .f32) (x2 : FVec Ideal S1x7 .f32)
    (p : Fin 2000) (g : Fin 7) : k6_pay1 (F := Ideal) x0 x1 x2 (ix2 p g) = logit x0 x1 x2 p g := by
  unfold k6_pay1 logit
  simp only [shapeCast_self]
  show (matmul dot_S2000x128_S128x7_S2000x7_1_0_0_1_n_n none (truncf .bf16 x0 bitsLt_bf16_f32) (truncf .bf16 x1 bitsLt_bf16_f32)
      (constant S2000x7 .f32 0x00000000#32)) (ix2 p g) + (broadcastTo S2000x7 x2 broadcasts_S1x7_S2000x7) (ix2 p g) = _
  rw [Cert.PlainDot.matmul_zero_apply dot_S2000x128_S128x7_S2000x7_1_0_0_1_n_n rfl _ _ p g,
    broadcastTo_1b_ab_apply x2 broadcasts_S1x7_S2000x7 p g]
  rfl

/-- A column [2000,1] spread over the seven lanes reads the column's entry of the row. -/
theorem col_spread (v : FVec Ideal S2000x1 .f32) (p : Fin 2000) (g : Fin 7) :
    broadcastTo S2000x7 v broadcasts_S2000x1_S2000x7 (ix2 p g) = v (ix2 p (0 : Fin 1)) :=
  Cert.Lib.Keepdims.broadcastTo_a1_ab_apply v broadcasts_S2000x1_S2000x7 p g

/-- A per-row vector [2000] set as a column [2000,1] reads the vector's entry of the row. -/
theorem vec_col (x : FVec Ideal S2000 .f32) (p : Fin 2000) (u : Fin 1) :
    shapeCast S2000x1 x shapeCasts_S2000_S2000x1 (ix2 p u) = x (ix1 p) :=
  Cert.Lib.Keepdims.shapeCast_a_a1_apply x shapeCasts_S2000_S2000x1 p u

/-- The row maximum over the seven lanes, from the pattern of -∞ (whatever the proofs of the side conditions). -/
theorem lane_max (L : FVec Ideal S2000x7 .f32) (hφ : FKind.Formats .f32) (hacc : (0xFF800000#32 : BitVec 32) = FKind.maximumf.neutral .f32 hφ)
    (p : Fin 2000) :
    multiReduction .maximumf [1] S2000 L 0xFF800000#32 reduces_S2000x7_S2000 hφ hacc (ix1 p)
      = rowMax (fun k => L (ix2 p k)) :=
  Cert.Lib.RowMax.laneMax_apply L 0xFF800000#32 reduces_S2000x7_S2000 hφ hacc p

/-- The row sum over the seven lanes (whatever the proofs of the side conditions). -/
theorem lane_sum (E : FVec Ideal S2000x7 .f32) (hφ : FKind.Formats .f32) (hacc : (0x00000000#32 : BitVec 32) = FKind.add.neutral .f32 hφ)
    (p : Fin 2000) :
    multiReduction .add [1] S2000 E 0x00000000#32 reduces_S2000x7_S2000 hφ hacc (ix1 p) = ∑ k : Fin 7, E (ix2 p k) :=
  Cert.Lib.Keepdims.laneSum_apply E 0x00000000#32 reduces_S2000x7_S2000 hφ hacc p

/-- A vector logarithm and a vector exponential read at an entry. -/
theorem vlog_apply {s : Shape} (v : FVec Ideal s .f32) (i : s.Idx) : log v i = Ideal.log (v i) := rfl
theorem vexp_apply {s : Shape} (v : FVec Ideal s .f32) (i : s.Idx) : exp v i = Ideal.exp (v i) := rfl

/-- The stored log-probabilities at `(p, g)` of the block: the kernel's log-softmax of row `p` of the stored logits. -/
theorem pay2_apply (x0 : FVec Ideal S2000x128 .f32) (x1 : FVec Ideal S128x7 .f32) (x2 : FVec Ideal S1x7 .f32)
    (p : Fin 2000) (g : Fin 7) :
    k6_pay2 (F := Ideal) x0 x1 x2 (ix2 p g) = lsKernel (fun q => k6_pay1 (F := Ideal) x0 x1 x2 (ix2 p q)) g := by
  unfold k6_pay2 lsKernel
  generalize k6_pay1 (F := Ideal) x0 x1 x2 = L
  simp only [subf_apply, addf_apply, vlog_apply, col_spread, vec_col]
  -- the row maximum and the row sum, each read as its fold; under the sum, the shifted exponential of each lane
  refine congrArg₂ (fun a b => L (ix2 p g) - (a + Ideal.log b)) (lane_max L _ _ p) ((lane_sum _ _ _ p).trans ?_)
  refine Finset.sum_congr rfl fun k _ => ?_
  simp only [vexp_apply, subf_apply, col_spread, vec_col]
  exact congrArg (fun t => Ideal.exp (L (ix2 p k) - t)) (lane_max L _ _ p)

/-! ## From the blocks to the arrays -/

variable (V : (c : Dev nD) → (b : Ref sig .tc) → Buf (Elt Ideal) ((c : Thread nD τ).loc b))

/-- The block index maps of the region, decided once over its 50 grid points: point `t` reads rows `2000 t …` of the
    hidden features, the whole head and bias, and writes rows `2000 t …` of each result. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0
    ∧ win6_4.index t (0 : Fin 2) = t.val ∧ win6_4.index t (1 : Fin 2) = 0 :=
  (by decide +kernel : ∀ t : Fin grid6.N, _)

/-- Row `p` of the block's logits is row `2000 T + p` of the whole logits, when the blocks are the rows
    `2000 T …` of the hidden features and the whole head and bias. -/
theorem logit_block (H : S100000x128.Idx → EReal) (W : S128x7.Idx → EReal) (B : S1x7.Idx → EReal)
    (x0 : FVec Ideal S2000x128 .f32) (x1 : FVec Ideal S128x7 .f32) (x2 : FVec Ideal S1x7 .f32) (T : ℕ)
    (hx : ∀ (p : Fin 2000) (k : Fin 128) (P : Fin 100000), P.val = T * 2000 + p.val → x0 (ix2 p k) = H (ix2 P k))
    (hw : ∀ (k : Fin 128) (g : Fin 7), x1 (ix2 k g) = W (ix2 k g)) (hb : ∀ g : Fin 7, x2 (ix2 (0 : Fin 1) g) = B (ix2 (0 : Fin 1) g))
    (p : Fin 2000) (P : Fin 100000) (hP : P.val = T * 2000 + p.val) (g : Fin 7) :
    logit x0 x1 x2 p g = logit H W B P g := by
  unfold logit
  rw [hb g]
  refine congrArg (· + B (ix2 (0 : Fin 1) g)) (Finset.sum_congr rfl fun k _ => ?_)
  rw [hx p k P hP, hw k g]

/-- Both stored values of a block entry against the whole arrays' entry. -/
theorem block_entry (H : S100000x128.Idx → EReal) (W : S128x7.Idx → EReal) (B : S1x7.Idx → EReal)
    (x0 : FVec Ideal S2000x128 .f32) (x1 : FVec Ideal S128x7 .f32) (x2 : FVec Ideal S1x7 .f32) (T : ℕ)
    (hx : ∀ (p : Fin 2000) (k : Fin 128) (P : Fin 100000), P.val = T * 2000 + p.val → x0 (ix2 p k) = H (ix2 P k))
    (hw : ∀ (k : Fin 128) (g : Fin 7), x1 (ix2 k g) = W (ix2 k g)) (hb : ∀ g : Fin 7, x2 (ix2 (0 : Fin 1) g) = B (ix2 (0 : Fin 1) g))
    (j : S2000x7.Idx) (i : S100000x7.Idx) (hi0 : (i 0).val = T * 2000 + (j 0).val) (hi1 : (i 1).val = (j 1).val) :
    k6_pay1 (F := Ideal) x0 x1 x2 j = logitsArr H W B i ∧ k6_pay2 (F := Ideal) x0 x1 x2 j = logpArr H W B i := by
  obtain ⟨p, g, rfl⟩ : ∃ (p : Fin 2000) (g : Fin 7), j = ix2 p g := ⟨j 0, j 1, eq_ix2 j⟩
  have hg : (⟨(i 1).val, (i 1).isLt⟩ : Fin 7) = g := Fin.ext hi1
  constructor
  · rw [pay1_apply]
    unfold logitsArr
    rw [hg]
    exact logit_block H W B x0 x1 x2 T hx hw hb p _ hi0 g
  · rw [pay2_apply]
    unfold logpArr
    rw [hg]
    refine congrArg (fun row : Fin 7 → EReal => lsKernel row g) (funext fun q => ?_)
    rw [pay1_apply]
    exact logit_block H W B x0 x1 x2 T hx hw hb p _ hi0 q

/-- The three input blocks of point `t` against the arrays the region finds. -/
theorem blocks_read (c : Dev nD) (t : Fin cfg6.N) :
    (∀ (p : Fin 2000) (k : Fin 128) (P : Fin 100000), P.val = t.val * 2000 + p.val →
        (iblk6 V c 0 t : FVec Ideal S2000x128 .f32) (ix2 p k) = (V c main_v62 : S100000x128.Idx → EReal) (ix2 P k))
    ∧ (∀ (k : Fin 128) (g : Fin 7), (iblk6 V c 1 t : FVec Ideal S128x7 .f32) (ix2 k g) = (V c main_arg6 : S128x7.Idx → EReal) (ix2 k g))
    ∧ (∀ g : Fin 7, (iblk6 V c 2 t : FVec Ideal S1x7 .f32) (ix2 (0 : Fin 1) g) = (V c main_v63 : S1x7.Idx → EReal) (ix2 (0 : Fin 1) g)) := by
  obtain ⟨e0, e1, e2, e3, e4, e5, e6, e7, e8, e9⟩ := idx_facts t
  refine ⟨fun p k P hP => ?_, fun k g => ?_, fun g => ?_⟩
  · show V c main_v62 (((cfg6.win 0).blk t).view.emb (ix2 p k)) = V c main_v62 (ix2 P k)
    have h : ((cfg6.win 0).blk t).view.emb (ix2 p k) = ix2 P k := by
      funext a; apply Fin.ext
      match a with
      | ⟨0, _⟩ => show win6_0.index t (0 : Fin 2) * 2000 + 1 * p.val = P.val; omega
      | ⟨1, _⟩ => show win6_0.index t (1 : Fin 2) * 128 + 1 * k.val = k.val; omega
    rw [h]
  · show V c main_arg6 (((cfg6.win 1).blk t).view.emb (ix2 k g)) = V c main_arg6 (ix2 k g)
    have h : ((cfg6.win 1).blk t).view.emb (ix2 k g) = ix2 k g := by
      funext a; apply Fin.ext
      match a with
      | ⟨0, _⟩ => show win6_1.index t (0 : Fin 2) * 128 + 1 * k.val = k.val; omega
      | ⟨1, _⟩ => show win6_1.index t (1 : Fin 2) * 7 + 1 * g.val = g.val; omega
    rw [h]
  · show V c main_v63 (((cfg6.win 2).blk t).view.emb (ix2 (0 : Fin 1) g)) = V c main_v63 (ix2 (0 : Fin 1) g)
    have h : ((cfg6.win 2).blk t).view.emb (ix2 (0 : Fin 1) g) = ix2 (0 : Fin 1) g := by
      funext a; apply Fin.ext
      match a with
      | ⟨0, _⟩ => show win6_2.index t (0 : Fin 2) * 1 + 1 * (0 : Fin 1).val = (0 : Fin 1).val; omega
      | ⟨1, _⟩ => show win6_2.index t (1 : Fin 2) * 7 + 1 * g.val = g.val; omega
    rw [h]

/-- What point `t` writes back to the logits is block `t` of the whole logits. -/
theorem flushed_logits (c : Dev nD) (t : Fin cfg6.N) :
    (dat6 V c).flushed 3 t = ((cfg6.win 3).blk t).view.read (Elt Ideal) (logitsArr (V c main_v62) (V c main_arg6) (V c main_v63)) := by
  show (cfg6.win 3).cut (grid6.coords t) ((dat6 V c).after 3 t) = _
  rw [after6_3]
  unfold out6_3
  rw [View.canon_unit_zero hz]
  simp only [View.ld_unit_zero (S := S2000x128) hz, View.ld_unit_zero (S := S128x7) hz, View.ld_unit_zero (S := S1x7) hz]
  obtain ⟨e0, e1, e2, e3, e4, e5, e6, e7, e8, e9⟩ := idx_facts t
  obtain ⟨hx, hw, hb⟩ := blocks_read V c t
  funext j
  show k6_pay1 (F := Ideal) (iblk6 V c 0 t) (iblk6 V c 1 t) (iblk6 V c 2 t) j
    = logitsArr (V c main_v62) (V c main_arg6) (V c main_v63) (((cfg6.win 3).blk t).view.emb j)
  refine (block_entry (V c main_v62) (V c main_arg6) (V c main_v63) (iblk6 V c 0 t) (iblk6 V c 1 t) (iblk6 V c 2 t) t.val hx hw hb j _ ?_ ?_).1
  · show win6_3.index t (0 : Fin 2) * 2000 + 1 * (j 0).val = t.val * 2000 + (j 0).val; omega
  · show win6_3.index t (1 : Fin 2) * 7 + 1 * (j 1).val = (j 1).val; omega

/-- What point `t` writes back to the log-probabilities is block `t` of the whole log-softmax. -/
theorem flushed_logp (c : Dev nD) (t : Fin cfg6.N) :
    (dat6 V c).flushed 4 t = ((cfg6.win 4).blk t).view.read (Elt Ideal) (logpArr (V c main_v62) (V c main_arg6) (V c main_v63)) := by
  show (cfg6.win 4).cut (grid6.coords t) ((dat6 V c).after 4 t) = _
  rw [after6_4]
  unfold out6_4
  rw [View.canon_unit_zero hz]
  simp only [View.ld_unit_zero (S := S2000x128) hz, View.ld_unit_zero (S := S128x7) hz, View.ld_unit_zero (S := S1x7) hz]
  obtain ⟨e0, e1, e2, e3, e4, e5, e6, e7, e8, e9⟩ := idx_facts t
  obtain ⟨hx, hw, hb⟩ := blocks_read V c t
  funext j
  show k6_pay2 (F := Ideal) (iblk6 V c 0 t) (iblk6 V c 1 t) (iblk6 V c 2 t) j
    = logpArr (V c main_v62) (V c main_arg6) (V c main_v63) (((cfg6.win 4).blk t).view.emb j)
  refine (block_entry (V c main_v62) (V c main_arg6) (V c main_v63) (iblk6 V c 0 t) (iblk6 V c 1 t) (iblk6 V c 2 t) t.val hx hw hb j _ ?_ ?_).2
  · show win6_4.index t (0 : Fin 2) * 2000 + 1 * (j 0).val = t.val * 2000 + (j 0).val; omega
  · show win6_4.index t (1 : Fin 2) * 7 + 1 * (j 1).val = (j 1).val; omega

/-- An index of the logits lies in point `t`'s block iff each coordinate lies in the block's range on its axis. -/
theorem mem_blk3 (t : Fin cfg6.N) (i : S100000x7.Idx) :
    i ∈ ((cfg6.win 3).blk t).view.set ↔ ∀ a : Fin 2, win6_3.index t a * S2000x7.size a ≤ (i a).val
      ∧ (i a).val < win6_3.index t a * S2000x7.size a + S2000x7.size a := by
  show i ∈ ((View.whole main_v64_0).slice (win6_3.rect t)).set ↔ _
  rw [View.set_slice_whole, Rect.mem_set_unit]
  exact Iff.rfl

theorem mem_blk4 (t : Fin cfg6.N) (i : S100000x7.Idx) :
    i ∈ ((cfg6.win 4).blk t).view.set ↔ ∀ a : Fin 2, win6_4.index t a * S2000x7.size a ≤ (i a).val
      ∧ (i a).val < win6_4.index t a * S2000x7.size a + S2000x7.size a := by
  show i ∈ ((View.whole main_v64_1).slice (win6_4.rect t)).set ↔ _
  rw [View.set_slice_whole, Rect.mem_set_unit]
  exact Iff.rfl

/-- THE LOGITS the region leaves (row `r` is covered by the block of point `r / 2000`). -/
theorem arr_logits (c : Dev nD) :
    (dat6 V c).arrAt 3 cfg6.N = logitsArr (V c main_v62) (V c main_arg6) (V c main_v63) :=
  (dat6 V c).arrAt_eq_of_cover 3 _ (fun t _ => flushed_logits V c t) fun i => by
    have hi0 : (i 0).val < 100000 := (i 0).isLt
    have hi1 : (i 1).val < 7 := (i 1).isLt
    have hN : grid6.N = 50 := N_6
    obtain ⟨T, hT⟩ : ∃ T : Fin cfg6.N, T.val = (i 0).val / 2000 := ⟨⟨(i 0).val / 2000, by show _ < grid6.N; omega⟩, rfl⟩
    obtain ⟨e0, e1, e2, e3, e4, e5, e6, e7, e8, e9⟩ := idx_facts T
    refine ⟨T, flush6_3 T, ?_⟩
    rw [mem_blk3]
    intro a
    match a with
    | ⟨0, _⟩ => show win6_3.index T (0 : Fin 2) * 2000 ≤ (i 0).val ∧ (i 0).val < win6_3.index T (0 : Fin 2) * 2000 + 2000; omega
    | ⟨1, _⟩ => show win6_3.index T (1 : Fin 2) * 7 ≤ (i 1).val ∧ (i 1).val < win6_3.index T (1 : Fin 2) * 7 + 7; omega

/-- THE LOG-PROBABILITIES the region leaves. -/
theorem arr_logp (c : Dev nD) :
    (dat6 V c).arrAt 4 cfg6.N = logpArr (V c main_v62) (V c main_arg6) (V c main_v63) :=
  (dat6 V c).arrAt_eq_of_cover 4 _ (fun t _ => flushed_logp V c t) fun i => by
    have hi0 : (i 0).val < 100000 := (i 0).isLt
    have hi1 : (i 1).val < 7 := (i 1).isLt
    have hN : grid6.N = 50 := N_6
    obtain ⟨T, hT⟩ : ∃ T : Fin cfg6.N, T.val = (i 0).val / 2000 := ⟨⟨(i 0).val / 2000, by show _ < grid6.N; omega⟩, rfl⟩
    obtain ⟨e0, e1, e2, e3, e4, e5, e6, e7, e8, e9⟩ := idx_facts T
    refine ⟨T, flush6_4 T, ?_⟩
    rw [mem_blk4]
    intro a
    match a with
    | ⟨0, _⟩ => show win6_4.index T (0 : Fin 2) * 2000 ≤ (i 0).val ∧ (i 0).val < win6_4.index T (0 : Fin 2) * 2000 + 2000; omega
    | ⟨1, _⟩ => show win6_4.index T (1 : Fin 2) * 7 ≤ (i 1).val ∧ (i 1).val < win6_4.index T (1 : Fin 2) * 7 + 7; omega

end Cert.KernelIdeal.RegionFinal

end
-- ==== Proof.ChainC.lean ====
/-
  The idealized kernel's buffer contents at the return: the head's bias set as a one-row block, then the last
  region — the logits and their log-softmax — over the second layer's output, the head's weights and that block.
-/
import proofs.«131329_j25494925869657_1_alg».proof.Proof.ChainB
import proofs.«131329_j25494925869657_1_alg».proof.Proof.RegionFinal

noncomputable section

namespace Cert.KernelIdeal.Chain

open Cert.KernelIdeal Cert.KernelIdeal.Gen
open Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg) (c : Dev nD)

set_option quotPrecheck false

local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)
local notation "x7" => m ((c : Thread nD τ).loc main_arg7)
local notation "D" => Proc.devRef (τ := τ) (sig := sig) Proc.tc

/-- The head's bias as a one-row block, as the last region finds it. -/
theorem s20_v63 : W20 m ρ c (D main_v63) = shapeCast S1x7 (x7 : S7.Idx → EReal) shapeCasts_S7_S1x7 := by
  have h7 := Cert.KernelIdeal.Keep.arg7_19 m ρ c
  show StableHlo.after hostOps6 (W19 m ρ c) (D main_v63) = _
  generalize W19 m ρ c = W at h7
  dsimp only [hostOps6]
  after_results
  rw [h7]
  rfl

/-- The first result at the return: the logits of the second layer's output. -/
theorem s21_logits : W21 m ρ c (D main_v64_0)
    = Cert.KernelIdeal.RegionFinal.logitsArr (val_main_v85 (F := Ideal) x0 x1 x2 x3 x4 x5) x6
        (shapeCast S1x7 (x7 : S7.Idx → EReal) shapeCasts_S7_S1x7) := by
  refine (W21_arr m ρ c 3).trans ((Cert.KernelIdeal.RegionFinal.arr_logits (V20 m ρ) c).trans ?_)
  have e62 : V20 m ρ c main_v62 = val_main_v85 (F := Ideal) x0 x1 x2 x3 x4 x5 :=
    (Cert.KernelIdeal.Keep.v62_20 m ρ c).trans (s19_v62 m ρ c)
  have e6 : V20 m ρ c main_arg6 = x6 := Cert.KernelIdeal.Keep.arg6_20 m ρ c
  have e63 : V20 m ρ c main_v63 = _ := s20_v63 m ρ c
  rw [e62, e6, e63]

/-- The second result at the return: the kernel's log-softmax of those logits. -/
theorem s21_logp : W21 m ρ c (D main_v64_1)
    = Cert.KernelIdeal.RegionFinal.logpArr (val_main_v85 (F := Ideal) x0 x1 x2 x3 x4 x5) x6
        (shapeCast S1x7 (x7 : S7.Idx → EReal) shapeCasts_S7_S1x7) := by
  refine (W21_arr m ρ c 4).trans ((Cert.KernelIdeal.RegionFinal.arr_logp (V20 m ρ) c).trans ?_)
  have e62 : V20 m ρ c main_v62 = val_main_v85 (F := Ideal) x0 x1 x2 x3 x4 x5 :=
    (Cert.KernelIdeal.Keep.v62_20 m ρ c).trans (s19_v62 m ρ c)
  have e6 : V20 m ρ c main_arg6 = x6 := Cert.KernelIdeal.Keep.arg6_20 m ρ c
  have e63 : V20 m ρ c main_v63 = _ := s20_v63 m ρ c
  rw [e62, e6, e63]

end Cert.KernelIdeal.Chain

end
-- ==== Proof.SoftmaxLaw.lean ====
import Idealize.ShloMosaic.PureOps.Ideal

/-!
# Elementary facts on the extended reals behind the log-softmax law

A log-softmax row is `a k - (m + L)` on one side and `(a k - m) - L` on the other, where `m`
is the row maximum and `L` the logarithm of the sum of the shifted exponentials. On the extended
reals subtraction does not reassociate in general (`⊤ - ⊤` is `⊥`), but it does as soon as `a`
and `m` are real, whatever `L` is. The rest of this file says that the quantities entering the
row are real: a hyperbolic tangent always is, a finite sum of products of reals plus a real is,
and so is the maximum of a nonempty finite family of reals computed as a fold from `⊥`.
-/

namespace Cert.Hand.SoftmaxLaw

open Idealize.ShloMosaic

/-- With `a` and `m` real, `a - (m + L) = (a - m) - L` for every extended real `L`:
    at `L = ⊥` both sides are `⊤`, at `L = ⊤` both are `⊥`, and on the reals it is arithmetic. -/
theorem sub_add_eq_sub_sub (a m : ℝ) (L : EReal) :
    (a : EReal) - ((m : EReal) + L) = ((a : EReal) - (m : EReal)) - L := by
  induction L using EReal.rec with
  | bot => rw [EReal.add_bot, EReal.coe_sub_bot, ← EReal.coe_sub, EReal.coe_sub_bot]
  | coe r => norm_cast; ring
  | top => rw [EReal.coe_add_top, EReal.sub_top, EReal.sub_top]

/-- The hyperbolic tangent of an extended real is a real: `-1` at `⊥`, `1` at `⊤`. -/
theorem tanh_is_real (x : EReal) : ∃ r : ℝ, Ideal.tanh x = (r : EReal) := by
  induction x using EReal.rec with
  | bot => exact ⟨-1, by rw [Ideal.tanh_bot, EReal.coe_neg, EReal.coe_one]⟩
  | coe r => exact ⟨Real.tanh r, rfl⟩
  | top => exact ⟨1, by rw [Ideal.tanh_top, EReal.coe_one]⟩

/-- The inclusion of the reals commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of products of reals, plus a real, is a real. -/
theorem sum_mul_add_is_real {K : ℕ} (h w : Fin K → EReal) (b : EReal)
    (hh : ∀ k, ∃ r : ℝ, h k = r) (hw : ∀ k, ∃ r : ℝ, w k = r) (hb : ∃ r : ℝ, b = r) :
    ∃ r : ℝ, (∑ k, h k * w k) + b = (r : EReal) := by
  choose hr hhr using hh
  choose wr hwr using hw
  obtain ⟨br, rfl⟩ := hb
  refine ⟨(∑ k, hr k * wr k) + br, ?_⟩
  rw [EReal.coe_add, coe_finset_sum]
  congr 1
  refine Finset.sum_congr rfl fun k _ => ?_
  rw [hhr k, hwr k, EReal.coe_mul]

/-- The maximum of a nonempty finite family of reals, computed as a fold of `max` from `⊥`,
    is a real: it is above the first entry, hence not `⊥`, and every entry is below `⊤`. -/
theorem fold_max_is_real {n : ℕ} (f : Fin (n + 1) → EReal) (hf : ∀ k, ∃ r : ℝ, f k = r) :
    ∃ r : ℝ, Finset.univ.fold max (⊥ : EReal) f = (r : EReal) := by
  have hbot : (⊥ : EReal) < Finset.univ.fold max (⊥ : EReal) f := by
    rw [Finset.lt_fold_max]
    obtain ⟨r, hr⟩ := hf 0
    exact Or.inr ⟨0, Finset.mem_univ _, hr ▸ EReal.bot_lt_coe r⟩
  have htop : Finset.univ.fold max (⊥ : EReal) f < ⊤ := by
    rw [Finset.fold_max_lt]
    refine ⟨bot_lt_top, fun k _ => ?_⟩
    obtain ⟨r, hr⟩ := hf k
    exact hr ▸ EReal.coe_lt_top r
  exact ⟨_, (EReal.coe_toReal htop.ne hbot.ne').symm⟩

/-- `⊥` is neutral for `max`. -/
theorem max_bot_left (x : EReal) : max ⊥ x = x := _root_.max_bot_left x

end Cert.Hand.SoftmaxLaw
-- ==== Proof.SoftmaxRowLaw.lean ====
import proofs.«131329_j25494925869657_1_alg».proof.Proof.SoftmaxRow
import proofs.«131329_j25494925869657_1_alg».proof.Proof.SoftmaxLaw

/-!
# The two spellings of a row's log-softmax agree on rows of reals

One spelling subtracts from an entry the sum of the row maximum `M` and the logarithm `ℓ` of the
sum of the shifted exponentials; the other subtracts `M` first and `ℓ` afterwards, takes the
maximum once more against `-∞`, and starts its sum from the zero word. On a row of reals `M` is a
real, the second maximum changes nothing, the zero word adds nothing, and `a - (M + ℓ) = (a - M) - ℓ`
holds for real `a` and `M` whatever extended real `ℓ` is.
-/

namespace Cert.Hand.SoftmaxRow

open Idealize.ShloMosaic

/-- The single-precision word with the sign bit and all exponent bits set and no fraction bit is `-∞`. -/
theorem ofBits_neg_inf : Ideal.ofBits .f32 0xFF800000#32 = (⊥ : EReal) := by
  simp [Ideal.ofBits, Ideal.ieee]

/-- The zero word is zero. -/
theorem ofBits_zero : Ideal.ofBits .f32 0x00000000#32 = (0 : EReal) := by
  simp [Ideal.ofBits, Ideal.ieee]

/-- The maximum of a row of seven reals is a real. -/
theorem rowMax_is_real (row : Fin 7 → EReal) (hrow : ∀ q, ∃ r : ℝ, row q = (r : EReal)) :
    ∃ M : ℝ, rowMax row = (M : EReal) := by
  unfold rowMax
  rw [ofBits_neg_inf]
  exact Cert.Hand.SoftmaxLaw.fold_max_is_real row hrow

/-- On a row of reals the two spellings of the log-softmax agree at every entry. -/
theorem ls_eq (row : Fin 7 → EReal) (hrow : ∀ q, ∃ r : ℝ, row q = (r : EReal)) (g : Fin 7) :
    lsKernel row g = lsRef row g := by
  obtain ⟨M, hM⟩ := rowMax_is_real row hrow
  obtain ⟨a, ha⟩ := hrow g
  unfold lsKernel lsRef
  rw [ofBits_neg_inf, ofBits_zero, hM, Cert.Hand.SoftmaxLaw.max_bot_left, zero_add, ha]
  exact Cert.Hand.SoftmaxLaw.sub_add_eq_sub_sub a M _

end Cert.Hand.SoftmaxRow
-- ==== Proof.LibHostColumns.lean ====
/-
  A host row sum and its column, read at an index.

  On the host, `sum(x, axis = -1, keepdims = True)` of an [a, b] array is a `reduce` with an add body over the last
  axis, from an initial scalar, followed by a `broadcast_in_dim` that sets the [a] vector of sums as a column [a, 1].
  Over the extended reals:
  • `hostRowSum_apply`: the reduce, read at row `p`, is the initial value plus the finite sum over `k < b` of the array
    at `(p, k)` — the reduced index with the summed coordinate put back is `(p, k)`;
  • `broadcastInDim_a_a1_apply`: the vector set as a column reads, at `(p, u)`, the vector at `p` (for any entry type).
-/
import Idealize.ShloMosaic.Lib.Pipeline.Value
import Idealize.ShloMosaic.Lib.ValueIdx
import Idealize.ShloMosaic.PureOps.Ideal.Laws

noncomputable section

namespace Cert.Lib.HostColumns

open Idealize.ShloMosaic Idealize.ShloMosaic.ValueIdx

/-- The host's sum of an [a, b] array along its last axis, from the initial scalar `init`, read at row `p`. -/
theorem hostRowSum_apply {a b : ℕ} {φ : FTy} (x : FVec Ideal ⟨2, ![a, b]⟩ φ) (init : FVec Ideal ⟨0, ![]⟩ φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduceAdd x init h' hu (ix1 p) = init ix0 + ∑ k : Fin b, x (ix2 p k) := by
  unfold Host.reduceAdd
  rw [Ideal.hostReduceAdd_def, Ideal.hostReduceAdd_single h' h]
  refine congrArg₂ (· + ·) (congrArg init (funext fun d => d.elim0)) (Finset.sum_congr rfl fun k _ => ?_)
  exact congrArg x (funext fun d => Fin.ext (by
    match d with
    | ⟨0, _⟩ => rfl
    | ⟨1, _⟩ => rfl))

/-- A vector [a] set as a column [a, 1] by `broadcast_in_dim` along axis 0: entry `(p, u)` is the vector's entry `p`. -/
theorem broadcastInDim_a_a1_apply {α : Type} {a : ℕ} (x : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h x (ix2 p u) = x (ix1 p) := by
  refine broadcastInDim_apply _ h x (ix2 p u) (ix1 p) fun d => ?_
  match d with
  | ⟨0, _⟩ =>
    show p.val = if a = 1 then 0 else p.val
    split
    · have := p.isLt; omega
    · rfl

end Cert.Lib.HostColumns

end
-- ==== Proof.LibHostCalls.lean ====
/-
  Values passed through a called function's buffers, and the host's exponential and logarithm read at an entry.

  A host function that the program calls (an outlined relu, softmax, log-softmax …) runs its operations on buffers
  typed by the tensor values they hold: every value written into such a buffer is carried along the equation
  "the buffer's type is the value's type", and carried back when the next operation reads it. The two transports
  cancel: what is read back is what was written (`ofBuf_toBuf`). Rewriting with this lemma first leaves the called
  function's operations applied to one another directly, as the program's own top-level operations are.

  Over the extended reals the host's exponential and logarithm act entry by entry (`hostExp_apply`, `hostLog_apply`):
  stated as equations to rewrite with, so that a goal is never compared against the logarithm by unfolding it.
-/
import Idealize.ShloMosaic.Lib.StableHlo
import Idealize.ShloMosaic.PureOps.Ideal

noncomputable section

namespace Cert.Lib.HostCalls

open Idealize.ShloMosaic Idealize.ShloMosaic.StableHlo

/-- A value carried into a called function's buffer and read back out of it is the value. -/
theorem ofBuf_toBuf {sig : RefSig} {Val : EltTy → Type} {T : BufTy} (x : TRef sig T) (v : T.Contents Val) :
    x.ofBuf (x.toBuf v) = v := by
  obtain ⟨r, h, h1, h2⟩ := x
  subst h
  rfl

/-- The host's logarithm at an entry. -/
theorem hostLog_apply {s : Shape} {φ : FTy} (x : FVec Ideal s φ) (i : s.Idx) : Host.log x i = Ideal.log (x i) := rfl

/-- The host's exponential at an entry. -/
theorem hostExp_apply {s : Shape} {φ : FTy} (x : FVec Ideal s φ) (i : s.Idx) : Host.exp x i = Ideal.exp (x i) := rfl

end Cert.Lib.HostCalls

end
-- ==== Proof.RefSoftmax.lean ====
import proofs.«131329_j25494925869657_1_alg».proof.Proof.SoftmaxRow
import proofs.«131329_j25494925869657_1_alg».proof.Proof.LibBroadcastInDim
import proofs.«131329_j25494925869657_1_alg».proof.Proof.LibHostColumns
import proofs.«131329_j25494925869657_1_alg».proof.Proof.LibHostCalls
import Idealize.ShloMosaic.PureOps.Ideal.Laws
import Idealize.ShloMosaic.PureOps.Reduce
import Idealize.ShloMosaic.Lib.Pipeline.Value
import Idealize.ShloMosaic.Lib.ValueIdx

/-!
# The host's log-softmax of a [100000, 7] array, read at an entry

The host computes, for an array `L` of 100000 rows of seven entries: the maximum of each row from
`-∞`; once more its maximum against `-∞`; that vector set as a column and spread along the rows;
the difference of `L` and it (the shifted rows); the exponential; the sum of each row from the zero
word; that vector set as a column; the logarithm; the column spread along the rows; and the difference
of the shifted rows and it. Every step acts on one row at a time, so the entry `(P, G)` of the result
is the reference's spelling of the log-softmax of row `P`, at `G`.
-/

noncomputable section

namespace Cert.Hand.RefSoftmax

open Idealize.ShloMosaic Idealize.ShloMosaic.ValueIdx Cert.Hand.SoftmaxRow

/-- The shifted rows: `L` minus, in every row, the maximum of `-∞` and the row's maximum from `-∞`
    (the vector of maxima set as a column and spread along the rows). -/
abbrev shiftedRows (L : FVec Ideal ⟨2, ![100000, 7]⟩ .f32)
    (hr : (⟨2, ![100000, 7]⟩ : Shape).ReducesTo [1] ⟨1, ![100000]⟩) (hu : 0 < (⟨0, ![]⟩ : Shape).numel)
    (hbS : (⟨0, ![]⟩ : Shape).BroadcastsInDim ⟨1, ![100000]⟩ ![])
    (hb1 : (⟨1, ![100000]⟩ : Shape).BroadcastsInDim ⟨2, ![100000, 1]⟩ ![0])
    (hb2 : (⟨2, ![100000, 1]⟩ : Shape).BroadcastsInDim ⟨2, ![100000, 7]⟩ ![0, 1]) :
    FVec Ideal ⟨2, ![100000, 7]⟩ .f32 :=
  subf L
    (broadcastInDim ⟨2, ![100000, 7]⟩ ![0, 1] hb2
      (broadcastInDim ⟨2, ![100000, 1]⟩ ![0] hb1
        (maximumf
          (broadcastInDim ⟨1, ![100000]⟩ ![] hbS (constant (F := Ideal) ⟨0, ![]⟩ .f32 0xFF800000#32))
          (Host.reduce FloatOps.maximumf L (constant (F := Ideal) ⟨0, ![]⟩ .f32 0xFF800000#32) hr hu))))

/-- The host's log-softmax: the shifted rows minus, in every row, the logarithm of the sum from the zero
    word of the exponentials of the shifted row (the vector of sums set as a column, the logarithm taken
    on the column, the column spread along the rows). -/
def hostLogSoftmax (L : FVec Ideal ⟨2, ![100000, 7]⟩ .f32)
    (hr : (⟨2, ![100000, 7]⟩ : Shape).ReducesTo [1] ⟨1, ![100000]⟩) (hu : 0 < (⟨0, ![]⟩ : Shape).numel)
    (hbS : (⟨0, ![]⟩ : Shape).BroadcastsInDim ⟨1, ![100000]⟩ ![])
    (hb1 : (⟨1, ![100000]⟩ : Shape).BroadcastsInDim ⟨2, ![100000, 1]⟩ ![0])
    (hb2 : (⟨2, ![100000, 1]⟩ : Shape).BroadcastsInDim ⟨2, ![100000, 7]⟩ ![0, 1]) :
    FVec Ideal ⟨2, ![100000, 7]⟩ .f32 :=
  subf (shiftedRows L hr hu hbS hb1 hb2)
    (broadcastInDim ⟨2, ![100000, 7]⟩ ![0, 1] hb2
      (Host.log (F := Ideal)
        (broadcastInDim ⟨2, ![100000, 1]⟩ ![0] hb1
          (Host.reduceAdd (F := Ideal) (Host.exp (F := Ideal) (shiftedRows L hr hu hbS hb1 hb2))
            (constant (F := Ideal) ⟨0, ![]⟩ .f32 0x00000000#32) hr hu))))

/-- A reduction over the last axis of a matrix leaves a shape of rank one, which is positive. So the
    shape fact carried by the host's reduce gives the stronger shape fact (the same, plus a result of
    positive rank) that the lemmas on a sum or a fold over one axis ask for. -/
theorem reduces_of_reducesTo {a b : ℕ} (hr : (⟨2, ![a, b]⟩ : Shape).ReducesTo [1] ⟨1, ![a]⟩) :
    (⟨2, ![a, b]⟩ : Shape).Reduces [1] ⟨1, ![a]⟩ := by
  obtain ⟨h1, h2⟩ := hr
  exact ⟨h1, Nat.one_pos, h2⟩

/-- The host's maximum over the last axis of an [a, b] array from the initial scalar `init`, read at row
    `p`: the fold of `max` from `init` over the row's entries — the reduced index with the coordinate
    `k` put back is `(p, k)`. -/
theorem hostRowMax_apply {a b : ℕ} (x : FVec Ideal ⟨2, ![a, b]⟩ .f32) (init : FVec Ideal ⟨0, ![]⟩ .f32)
    (hr : (⟨2, ![a, b]⟩ : Shape).ReducesTo [1] ⟨1, ![a]⟩) (hu : 0 < (⟨0, ![]⟩ : Shape).numel) (p : Fin a) :
    Host.reduce FloatOps.maximumf x init hr hu (ix1 p)
      = (Finset.univ : Finset (Fin b)).fold max (init ix0) (fun k => x (ix2 p k)) := by
  rw [Host.reduce_eq_fold_single FloatOps.maximumf x init hr (reduces_of_reducesTo hr) hu (ix1 p)]
  have hi : init (Shape.Idx.first hu) = init ix0 := congrArg init (funext fun d => d.elim0)
  have hf : (x ∘ (reduces_of_reducesTo hr).lift (ix1 p)) = fun k : Fin b => x (ix2 p k) :=
    funext fun k => congrArg x (funext fun d => Fin.ext (by
      match d with
      | ⟨0, _⟩ => rfl
      | ⟨1, _⟩ => rfl))
  rw [hi]
  exact congrArg (fun f => Finset.fold max (init ix0) f (Finset.univ : Finset (Fin b))) hf

/-- The maximum of the vector whose entries are all the `-∞` word and a vector `v`, at an entry: the maximum
    of `-∞` and the entry of `v`. Stated for an arbitrary `v`, so that using it never opens `v`. -/
theorem maxNegInf_apply {a : ℕ} (v : FVec Ideal ⟨1, ![a]⟩ .f32)
    (hbS : (⟨0, ![]⟩ : Shape).BroadcastsInDim ⟨1, ![a]⟩ ![]) (p : Fin a) :
    maximumf (broadcastInDim ⟨1, ![a]⟩ ![] hbS (constant (F := Ideal) ⟨0, ![]⟩ .f32 0xFF800000#32)) v (ix1 p)
      = max (Ideal.ofBits .f32 0xFF800000#32) (v (ix1 p)) := rfl

/-- The shifted rows at an entry: the entry minus the maximum of `-∞` and the row's maximum. -/
theorem shiftedRows_apply (L : FVec Ideal ⟨2, ![100000, 7]⟩ .f32)
    (hr : (⟨2, ![100000, 7]⟩ : Shape).ReducesTo [1] ⟨1, ![100000]⟩) (hu : 0 < (⟨0, ![]⟩ : Shape).numel)
    (hbS : (⟨0, ![]⟩ : Shape).BroadcastsInDim ⟨1, ![100000]⟩ ![])
    (hb1 : (⟨1, ![100000]⟩ : Shape).BroadcastsInDim ⟨2, ![100000, 1]⟩ ![0])
    (hb2 : (⟨2, ![100000, 1]⟩ : Shape).BroadcastsInDim ⟨2, ![100000, 7]⟩ ![0, 1]) (P : Fin 100000) (q : Fin 7) :
    shiftedRows L hr hu hbS hb1 hb2 (ix2 P q)
      = L (ix2 P q) - max (Ideal.ofBits .f32 0xFF800000#32) (rowMax fun k => L (ix2 P k)) := by
  show L (ix2 P q) - broadcastInDim ⟨2, ![100000, 7]⟩ ![0, 1] hb2
      (broadcastInDim ⟨2, ![100000, 1]⟩ ![0] hb1
        (maximumf
          (broadcastInDim ⟨1, ![100000]⟩ ![] hbS (constant (F := Ideal) ⟨0, ![]⟩ .f32 0xFF800000#32))
          (Host.reduce FloatOps.maximumf L (constant (F := Ideal) ⟨0, ![]⟩ .f32 0xFF800000#32) hr hu))) (ix2 P q) = _
  rw [Cert.Lib.InDim.col_spread _ hb2 P q, Cert.Lib.InDim.vec_as_col _ hb1 P (0 : Fin 1),
    maxNegInf_apply _ hbS P, hostRowMax_apply L _ hr hu P]
  rfl

/-- The host's log-softmax at the entry `(P, G)` is the reference's spelling of the log-softmax of row
    `P`, at `G`. -/
theorem hostLogSoftmax_apply (L : FVec Ideal ⟨2, ![100000, 7]⟩ .f32)
    (hr : (⟨2, ![100000, 7]⟩ : Shape).ReducesTo [1] ⟨1, ![100000]⟩) (hu : 0 < (⟨0, ![]⟩ : Shape).numel)
    (hbS : (⟨0, ![]⟩ : Shape).BroadcastsInDim ⟨1, ![100000]⟩ ![])
    (hb1 : (⟨1, ![100000]⟩ : Shape).BroadcastsInDim ⟨2, ![100000, 1]⟩ ![0])
    (hb2 : (⟨2, ![100000, 1]⟩ : Shape).BroadcastsInDim ⟨2, ![100000, 7]⟩ ![0, 1]) (P : Fin 100000) (G : Fin 7) :
    hostLogSoftmax L hr hu hbS hb1 hb2 (ix2 P G) = lsRef (fun q => L (ix2 P q)) G := by
  have hSq : ∀ q : Fin 7, shiftedRows L hr hu hbS hb1 hb2 (ix2 P q)
      = L (ix2 P q) - max (Ideal.ofBits .f32 0xFF800000#32) (rowMax fun k => L (ix2 P k)) :=
    fun q => shiftedRows_apply L hr hu hbS hb1 hb2 P q
  unfold hostLogSoftmax
  generalize shiftedRows L hr hu hbS hb1 hb2 = S at hSq ⊢
  show S (ix2 P G) - broadcastInDim ⟨2, ![100000, 7]⟩ ![0, 1] hb2
      (Host.log (F := Ideal)
        (broadcastInDim ⟨2, ![100000, 1]⟩ ![0] hb1
          (Host.reduceAdd (F := Ideal) (Host.exp (F := Ideal) S)
            (constant (F := Ideal) ⟨0, ![]⟩ .f32 0x00000000#32) hr hu))) (ix2 P G) = _
  rw [Cert.Lib.InDim.col_spread _ hb2 P G, Cert.Lib.HostCalls.hostLog_apply,
    Cert.Lib.InDim.vec_as_col _ hb1 P (0 : Fin 1),
    Cert.Lib.HostColumns.hostRowSum_apply _ _ hr (reduces_of_reducesTo hr) hu P]
  simp only [Cert.Lib.HostCalls.hostExp_apply, hSq]
  rfl

end Cert.Hand.RefSoftmax

end
-- ==== Proof.Bridge.lean ====
/-
  The two results of the idealized kernel against the reference's two results, as whole arrays of the arguments.
  The logits: both are, at row P and class g, the row of the second layer's output against column g of the head plus
  the bias at g — the reference adds the bias broadcast from a vector, the kernel from a one-row block.
  The log-probabilities: the reference's host log-softmax of the logits read at an entry is the row law's second
  spelling; the kernel's is the first; they agree because every logit is a real number — the second layer's
  output is a tanh, so real, and the head's weights and bias are finite inputs.
-/
import proofs.«131329_j25494925869657_1_alg».proof.Proof.RefReadP
import proofs.«131329_j25494925869657_1_alg».proof.Proof.RegionFinal
import proofs.«131329_j25494925869657_1_alg».proof.Proof.SoftmaxRowLaw
import proofs.«131329_j25494925869657_1_alg».proof.Proof.RefSoftmax
import proofs.«131329_j25494925869657_1_alg».proof.Proof.GlueLayouts
import proofs.«131329_j25494925869657_1_alg».proof.Proof.LibPlainDot
import Idealize.ShloMosaic.Lib.ValueLayout

noncomputable section

namespace Cert.Hand.Bridge

open Idealize.ShloMosaic Idealize.ShloMosaic.ValueIdx
open Cert.ReferenceIdeal Cert.ReferenceIdeal.Gen Cert.ReferenceIdeal.ReadP Cert.KernelIdeal.RegionFinal Cert.Hand.SoftmaxRow

variable (x0 : (⟨S100000x512, .f32⟩ : BufTy).Contents (Elt Ideal)) (x1 : (⟨S2x1600000, .i32⟩ : BufTy).Contents (Elt Ideal))
  (x2 : (⟨S512x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S128x7, .f32⟩ : BufTy).Contents (Elt Ideal)) (x7 : (⟨S7, .f32⟩ : BufTy).Contents (Elt Ideal))

/-- The two result arrays read at an entry written by its coordinates. -/
theorem logitsArr_ix2 (h : S100000x128.Idx → EReal) (w : S128x7.Idx → EReal) (b : S1x7.Idx → EReal) (P : Fin 100000) (G : Fin 7) :
    logitsArr h w b (ix2 P G) = logit h w b P G := rfl
theorem logpArr_ix2 (h : S100000x128.Idx → EReal) (w : S128x7.Idx → EReal) (b : S1x7.Idx → EReal) (P : Fin 100000) (G : Fin 7) :
    logpArr h w b (ix2 P G) = lsKernel (fun q => logit h w b P q) G := rfl

/-- One logit, the reference's way and the kernel's. -/
theorem logit_entry (H : FVec Ideal S100000x128 .f32) (hc : S7.ShapeCasts S1x7) (P : Fin 100000) (G : Fin 7) :
    addf (F := Ideal) (φ := .f32) (Host.dotGeneral (F := Ideal) (φ₁ := .f32) (φ₂ := .f32) dot_S100000x128_S128x7_S100000x7_1_0_0_1_n_n none H x6)
        (broadcastInDim S100000x7 ![0, 1] bcast_S1x7_S100000x7_0_1 (broadcastInDim S1x7 ![1] bcast_S7_S1x7_1 x7)) (ix2 P G)
      = logit H x6 (shapeCast S1x7 x7 hc) P G := by
  unfold logit
  exact congrArg₂ (· + ·) (Cert.PlainDot.hostDot_apply dot_S100000x128_S128x7_S100000x7_1_0_0_1_n_n rfl H x6 P G)
    (Cert.Hand.Glue.row_of_vec x7 hc bcast_S7_S1x7_1 bcast_S1x7_S100000x7_0_1 P G)

/-- THE LOGITS: the kernel's first result array is the reference's first result stage. -/
theorem logits_eq (hc : S7.ShapeCasts S1x7) :
    logitsArr (val_main_v85 (F := Ideal) x0 x1 x2 x3 x4 x5) x6 (shapeCast S1x7 x7 hc)
      = val_main_v89 (F := Ideal) x0 x1 x2 x3 x4 x5 x6 x7 := by
  funext i
  obtain ⟨P, G, rfl⟩ : ∃ (P : Fin 100000) (G : Fin 7), i = ix2 P G := ⟨i 0, i 1, eq_ix2 i⟩
  rw [logitsArr_ix2, ← logit_entry x6 x7 (val_main_v85 (F := Ideal) x0 x1 x2 x3 x4 x5) hc P G]
  unfold val_main_v89 val_main_v86 val_main_v88 val_main_v87
  rfl

/-- The host's tanh of an array read at an entry. -/
theorem hostTanh_apply {s : Shape} (v : FVec Ideal s .f32) (i : s.Idx) : Host.tanh (F := Ideal) v i = Ideal.tanh (v i) := rfl

/-- Every logit is a real number when the head's weights and bias are. -/
theorem logit_real (hc : S7.ShapeCasts S1x7) (h6 : ∀ i, ∃ r : ℝ, x6 i = (r : EReal)) (h7 : ∀ i, ∃ r : ℝ, x7 i = (r : EReal))
    (P : Fin 100000) (q : Fin 7) :
    ∃ r : ℝ, logit (val_main_v85 (F := Ideal) x0 x1 x2 x3 x4 x5) x6 (shapeCast S1x7 x7 hc) P q = (r : EReal) := by
  unfold logit
  refine Cert.Hand.SoftmaxLaw.sum_mul_add_is_real _ _ _ (fun k => ?_) (fun k => h6 _) ?_
  · unfold val_main_v85
    rw [hostTanh_apply]
    exact Cert.Hand.SoftmaxLaw.tanh_is_real _
  · rw [shapeCast_a_1a_apply x7 hc]
    exact h7 _

/-- The reference's second result stage is its host log-softmax of its first. -/
theorem v90_eq :
    val_main_v90 (F := Ideal) x0 x1 x2 x3 x4 x5 x6 x7
      = Cert.Hand.RefSoftmax.hostLogSoftmax (val_main_v89 (F := Ideal) x0 x1 x2 x3 x4 x5 x6 x7)
          reducesTo_S100000x7_S100000_d1 h_S_ bcast_S_S100000 bcast_S100000_S100000x1_0 bcast_S100000x1_S100000x7_0_1 := by
  unfold val_main_v90 val_main_call0_v10 val_main_call0_v9 val_main_call0_v8 val_main_call0_v7 val_main_call0_cst_1
    val_main_call0_v6 val_main_call0_v5 val_main_call0_v4 val_main_call0_v3 val_main_call0_v2 val_main_call0_v1
    val_main_call0_cst_0 val_main_call0_v0 val_main_call0_cst Cert.Hand.RefSoftmax.hostLogSoftmax
  rfl

/-- THE LOG-PROBABILITIES: the kernel's second result array is the reference's second result stage. -/
theorem logp_eq (hc : S7.ShapeCasts S1x7) (h6 : ∀ i, ∃ r : ℝ, x6 i = (r : EReal)) (h7 : ∀ i, ∃ r : ℝ, x7 i = (r : EReal)) :
    logpArr (val_main_v85 (F := Ideal) x0 x1 x2 x3 x4 x5) x6 (shapeCast S1x7 x7 hc)
      = val_main_v90 (F := Ideal) x0 x1 x2 x3 x4 x5 x6 x7 := by
  funext i
  obtain ⟨P, G, rfl⟩ : ∃ (P : Fin 100000) (G : Fin 7), i = ix2 P G := ⟨i 0, i 1, eq_ix2 i⟩
  rw [logpArr_ix2, v90_eq, Cert.Hand.RefSoftmax.hostLogSoftmax_apply]
  have hrow : (fun q : Fin 7 => val_main_v89 (F := Ideal) x0 x1 x2 x3 x4 x5 x6 x7 (ix2 P q))
      = fun q => logit (val_main_v85 (F := Ideal) x0 x1 x2 x3 x4 x5) x6 (shapeCast S1x7 x7 hc) P q := by
    funext q
    rw [← logits_eq x0 x1 x2 x3 x4 x5 x6 x7 hc, logitsArr_ix2]
  rw [hrow]
  exact ls_eq _ (fun q => logit_real x0 x1 x2 x3 x4 x5 x6 x7 hc h6 h7 P q) G

end Cert.Hand.Bridge

end
-- ==== Proof.Finite.lean ====
import proofs.«131329_j25494925869657_1_alg».proof.Pre_finite_inputs
import proofs.«131329_j25494925869657_1_alg».proof.Proof.Gen.Pre_finite_inputs
import Idealize.ShloMosaic.Lib.ReduceAll
import Idealize.ShloMosaic.Lib.ValueIdx
import Idealize.ShloMosaic.PureOps.Ideal

/-!
# From the precondition to real entries

The precondition is a conjunction of seven tests, one per float argument, each saying that every
entry `x` of the argument satisfies `|x| < +∞`. On the extended reals `|x|` is `max x (-x)`,
which is `⊤` at both `⊥` and `⊤`; so the test says exactly that every entry is a real number.
Only the tests of the last two arguments are opened here: the conjunction of the earlier ones is
carried as a word that is never looked into.
-/

namespace Cert.Hand.Finite

open Idealize.ShloMosaic Idealize.ShloMosaic.ValueIdx Cert.Pre_finite_inputs

/-- The scalar shape has one index. -/
instance subsingleton_scalar_idx : Subsingleton S_.Idx := ⟨fun a b => funext fun d => d.elim0⟩

/-- An extended real whose absolute value `max x (-x)` is below `⊤` is a real:
    at `⊥` and at `⊤` that maximum is `⊤`. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The single-precision word with all exponent bits set and no fraction bit is `+∞`. -/
theorem ofBits_pos_inf : Ideal.ofBits .f32 0x7F800000#32 = (⊤ : EReal) := by
  simp [Ideal.ofBits, Ideal.ieee]

/-- The comparison `|x| < +∞` answering "true" says that `x` is a real. -/
theorem real_of_cmp_abs_lt_inf (x : EReal)
    (h : Ideal.cmp .olt (max x (-x)) (Ideal.ofBits .f32 0x7F800000#32) = 1#1) :
    ∃ r : ℝ, x = (r : EReal) := by
  rw [ofBits_pos_inf] at h
  refine real_of_abs_lt_top x ?_
  by_contra hn
  simp [Ideal.cmp, hn] at h

/-- The conjunction over all entries of the tests `|v i| < +∞` answering "true" says that every
    entry of `v` is a real, whatever the shape of `v`. -/
theorem all_real {s : Shape} {axes : List (Fin s.rank)} (v : FVec Ideal s .f32)
    (hb : S_.BroadcastsInDim s (![] : Fin 0 → Fin s.rank)) (hr : s.ReducesTo axes S_)
    (hu : 0 < S_.numel) (init : IVec S_ 1)
    (e : Host.reduce IntOp.andi
        (cmpf .olt (Host.absf v) (broadcastInDim s ![] hb (constant (F := Ideal) S_ .f32 0x7F800000#32)))
        init hr hu ix0 = 1#1) :
    ∀ i, ∃ r : ℝ, v i = (r : EReal) := fun i =>
  real_of_cmp_abs_lt_inf (v i) (Host.reduce_andi_all _ init hr hu ix0 e i)

/-- The last part of the precondition: whatever the conjunction of the earlier tests is, the whole
    being "true" makes the entries of the last two arguments real. -/
theorem part1_tail_real [Facts] (a5 : FVec Ideal S128 .f32) (a6 : FVec Ideal S128x7 .f32)
    (a7 : FVec Ideal S7 .f32) (c : IVec S_ 1) (t : IVec S128x128 1)
    (h : fn_part1 (F := Ideal) a5 a6 a7 c t ix0 = 1#1) :
    (∀ i, ∃ r : ℝ, a6 i = (r : EReal)) ∧ (∀ i, ∃ r : ℝ, a7 i = (r : EReal)) := by
  unfold fn_part1 at h
  dsimp only at h
  obtain ⟨h28, h32⟩ := IntOp.andi_eq_one.1 h
  obtain ⟨-, h27⟩ := IntOp.andi_eq_one.1 h28
  exact ⟨all_real a6 _ _ _ _ h27, all_real a7 _ _ _ _ h32⟩

/-- Under the precondition the last two float arguments are real everywhere. -/
theorem tail_real [Facts] (a0 : FVec Ideal S100000x512 .f32) (a1 : IVec S2x1600000 32)
    (a2 : FVec Ideal S512x128 .f32) (a3 : FVec Ideal S128 .f32) (a4 : FVec Ideal S128x128 .f32)
    (a5 : FVec Ideal S128 .f32) (a6 : FVec Ideal S128x7 .f32) (a7 : FVec Ideal S7 .f32)
    (h : fn (F := Ideal) a0 a1 a2 a3 a4 a5 a6 a7 = (fun _ => 1#1)) :
    (∀ i, ∃ r : ℝ, a6 i = (r : EReal)) ∧ (∀ i, ∃ r : ℝ, a7 i = (r : EReal)) := by
  have h0 : fn (F := Ideal) a0 a1 a2 a3 a4 a5 a6 a7 ix0 = 1#1 := congrFun h ix0
  unfold fn at h0
  dsimp only at h0
  exact part1_tail_real a5 a6 a7 _ _ h0

end Cert.Hand.Finite
-- ==== Proof.lean ====
/-
  A two-layer graph convolution network with a linear head and log-softmax, as a kernel program of seven kernel
  regions among host operations, against the plain host program.

  Both programs compute, from node features x, an edge list, weights W1, b1, W2, b2 and a head Wl, bl:
    h1 = tanh( A (x W1) + b1 ),   h2 = tanh( A (h1 W2) + b2 ),   logits = h2 Wl + bl,   log-softmax(logits),
  where A sums, into each destination row, the source rows scaled by deg(s)^(-1/2) deg(d)^(-1/2) (self loops added).
  The index-driven operations (the degree count, the two gathers, the two scatter-adds) are the same host operations in
  both programs and are never opened.  The kernel differs in computing each product 2000 rows at a time, scaling the
  messages in zero-padded blocks of 8192 rows, adding each bias from a one-row block, and in its log-softmax,
      logit − ( M + log Σ exp(logit − M) )     against the reference's     (logit − M) − log Σ exp(logit − M).
  On the extended reals these agree when the logits are real numbers; they are, since h2 is a tanh and the head's weights
  and bias are finite inputs — the one place the precondition is used.

  The three frames are the generated ones (the reference's is its run with the results dropped); nothing was rewritten
  by the idealization, so that conjunct is trivial.
-/
import proofs.«131329_j25494925869657_1_alg».proof.Defs
import proofs.«131329_j25494925869657_1_alg».proof.Proof.Gen.Kernel
import proofs.«131329_j25494925869657_1_alg».proof.Proof.Gen.Kernel.Skeleton
import proofs.«131329_j25494925869657_1_alg».proof.Proof.Gen.Kernel.Launch
import proofs.«131329_j25494925869657_1_alg».proof.Proof.Gen.Kernel.Points
import proofs.«131329_j25494925869657_1_alg».proof.Proof.Gen.Kernel.Frame
import proofs.«131329_j25494925869657_1_alg».proof.Proof.Gen.KernelIdeal
import proofs.«131329_j25494925869657_1_alg».proof.Proof.Gen.KernelIdeal.Skeleton
import proofs.«131329_j25494925869657_1_alg».proof.Proof.Gen.KernelIdeal.Launch
import proofs.«131329_j25494925869657_1_alg».proof.Proof.Gen.KernelIdeal.Points
import proofs.«131329_j25494925869657_1_alg».proof.Proof.Gen.KernelIdeal.Frame
import proofs.«131329_j25494925869657_1_alg».proof.Proof.Gen.ReferenceIdeal
import proofs.«131329_j25494925869657_1_alg».proof.Proof.Gen.Pre_finite_inputs
import proofs.«131329_j25494925869657_1_alg».proof.Proof.RefRunP
import proofs.«131329_j25494925869657_1_alg».proof.Proof.RefReadP
import proofs.«131329_j25494925869657_1_alg».proof.Proof.ValueRun
import proofs.«131329_j25494925869657_1_alg».proof.Proof.ChainC
import proofs.«131329_j25494925869657_1_alg».proof.Proof.Bridge
import proofs.«131329_j25494925869657_1_alg».proof.Proof.Finite
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the two results dropped. -/
theorem frame_referenceIdeal : Cert.frame_ReferenceIdeal := fun m ρ _ =>
  (θ_run Cert.ReferenceIdeal.defs _ _).mono (fun _ h c => (h c).2.2) (Cert.ReferenceIdeal.ValueP.run (F := Ideal) m ρ)

/-- The idealization rewrote nothing. -/
theorem preserves : Cert.preserves_Kernel_KernelIdeal := trivial

/-- Both idealized programs end with the reference's two result stages of the (agreeing) arguments: the kernel by
    following its buffers through its segments to the last region and the two bridges, the reference by its run. -/
theorem algebraic : Cert.algebraic_KernelIdeal_ReferenceIdeal := by
  intro m ρ m' ρ' hpre hagree
  have hfin := fun c : Dev Cert.KernelIdeal.nD => Cert.Hand.Finite.tail_real _ _ _ _ _ _ _ _ (hpre c)
  refine ⟨fun c => Cert.ReferenceIdeal.ReadP.val_main_v89 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.ReferenceIdeal.ReadP.val_main_v90 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    ?_, ?_⟩
  · refine (θ_run Cert.KernelIdeal.defs _ _).mono (fun r h c => ?_) (Cert.KernelIdeal.ValueRun.run (F := Ideal) m ρ)
    obtain ⟨h0, h1, hargs⟩ := h c
    exact ⟨h0.trans ((Cert.KernelIdeal.Chain.s21_logits m ρ c).trans (Cert.Hand.Bridge.logits_eq _ _ _ _ _ _ _ _ _)),
      h1.trans ((Cert.KernelIdeal.Chain.s21_logp m ρ c).trans (Cert.Hand.Bridge.logp_eq _ _ _ _ _ _ _ _ _ (hfin c).1 (hfin c).2)),
      hargs⟩
  · refine (θ_run Cert.ReferenceIdeal.defs _ _).mono (fun r h c => ?_) (Cert.ReferenceIdeal.ValueP.run (F := Ideal) m' ρ')
    obtain ⟨h0, h1, hargs⟩ := h c
    obtain ⟨a0, a1, a2, a3, a4, a5, a6, a7⟩ := hagree c
    refine ⟨h0.trans ?_, h1.trans ?_, hargs⟩
    · rw [Cert.ReferenceIdeal.ReadP.val_main_v89_eq, a0, a1, a2, a3, a4, a5, a6, a7]
    · rw [Cert.ReferenceIdeal.ReadP.val_main_v90_eq, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
